-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000 : Shape := ⟨2, ![1, 100000]⟩
abbrev S200x100000 : Shape := ⟨2, ![200, 100000]⟩
abbrev S128x100000 : Shape := ⟨2, ![128, 100000]⟩
abbrev S100000x128 : Shape := ⟨2, ![100000, 128]⟩
abbrev S200x128 : Shape := ⟨2, ![200, 128]⟩
abbrev S_ : Shape := ⟨0, ![]⟩

class Facts : Prop where
  bcast_S_S1x100000 : S_.BroadcastsInDim S1x100000 (![] : Fin 0 → Fin S1x100000.rank)
  reducesTo_S1x100000_S_d0_1 : S1x100000.ReducesTo [0, 1] S_
  h_S_ : 0 < S_.numel
  bcast_S_S200x100000 : S_.BroadcastsInDim S200x100000 (![] : Fin 0 → Fin S200x100000.rank)
  reducesTo_S200x100000_S_d0_1 : S200x100000.ReducesTo [0, 1] S_
  bcast_S_S128x100000 : S_.BroadcastsInDim S128x100000 (![] : Fin 0 → Fin S128x100000.rank)
  reducesTo_S128x100000_S_d0_1 : S128x100000.ReducesTo [0, 1] S_
  bcast_S_S100000x128 : S_.BroadcastsInDim S100000x128 (![] : Fin 0 → Fin S100000x128.rank)
  reducesTo_S100000x128_S_d0_1 : S100000x128.ReducesTo [0, 1] S_
  bcast_S_S200x128 : S_.BroadcastsInDim S200x128 (![] : Fin 0 → Fin S200x128.rank)
  reducesTo_S200x128_S_d0_1 : S200x128.ReducesTo [0, 1] S_

variable [Facts]

def fn_part2 {F : FTy → Type} [FloatOps F] (main_arg7 : FVec F S200x128 .f32) (main_v33 : IVec S_ 1) : IVec S_ 1 :=
  let main_v34 : FVec F S200x128 .f32 := Host.absf main_arg7
  let main_cst_12 : FVec F S_ .f32 := constant S_ .f32 0x7F800000#32
  let main_v35 : FVec F S200x128 .f32 := broadcastInDim S200x128 ![] bcast_S_S200x128 main_cst_12
  let main_v36 : IVec S200x128 1 := cmpf .olt main_v34 main_v35
  let main_c_13 : IVec S_ 1 := constantI S_ 1 1#1
  let main_v37 : IVec S_ 1 := (fun x v => Host.reduce IntOp.andi x v reducesTo_S200x128_S_d0_1 h_S_) main_v36 main_c_13
  let main_v38 : IVec S_ 1 := andi main_v33 main_v37
  main_v38

def fn_part1 {F : FTy → Type} [FloatOps F] (main_arg4 : FVec F S128x100000 .f32) (main_arg5 : FVec F S100000x128 .f32) (main_arg6 : FVec F S200x128 .f32) (main_arg7 : FVec F S200x128 .f32) (main_v13 : IVec S_ 1) (main_v16 : IVec S128x100000 1) : IVec S_ 1 :=
  let main_c_5 : IVec S_ 1 := constantI S_ 1 1#1
  let main_v17 : IVec S_ 1 := (fun x v => Host.reduce IntOp.andi x v reducesTo_S128x100000_S_d0_1 h_S_) main_v16 main_c_5
  let main_v18 : IVec S_ 1 := andi main_v13 main_v17
  let main_v19 : FVec F S128x100000 .f32 := Host.absf main_arg4
  let main_cst_6 : FVec F S_ .f32 := constant S_ .f32 0x7F800000#32
  let main_v20 : FVec F S128x100000 .f32 := broadcastInDim S128x100000 ![] bcast_S_S128x100000 main_cst_6
  let main_v21 : IVec S128x100000 1 := cmpf .olt main_v19 main_v20
  let main_c_7 : IVec S_ 1 := constantI S_ 1 1#1
  let main_v22 : IVec S_ 1 := (fun x v => Host.reduce IntOp.andi x v reducesTo_S128x100000_S_d0_1 h_S_) main_v21 main_c_7
  let main_v23 : IVec S_ 1 := andi main_v18 main_v22
  let main_v24 : FVec F S100000x128 .f32 := Host.absf main_arg5
  let main_cst_8 : FVec F S_ .f32 := constant S_ .f32 0x7F800000#32
  let main_v25 : FVec F S100000x128 .f32 := broadcastInDim S100000x128 ![] bcast_S_S100000x128 main_cst_8
  let main_v26 : IVec S100000x128 1 := cmpf .olt main_v24 main_v25
  let main_c_9 : IVec S_ 1 := constantI S_ 1 1#1
  let main_v27 : IVec S_ 1 := (fun x v => Host.reduce IntOp.andi x v reducesTo_S100000x128_S_d0_1 h_S_) main_v26 main_c_9
  let main_v28 : IVec S_ 1 := andi main_v23 main_v27
  let main_v29 : FVec F S200x128 .f32 := Host.absf main_arg6
  let main_cst_10 : FVec F S_ .f32 := constant S_ .f32 0x7F800000#32
  let main_v30 : FVec F S200x128 .f32 := broadcastInDim S200x128 ![] bcast_S_S200x128 main_cst_10
  let main_v31 : IVec S200x128 1 := cmpf .olt main_v29 main_v30
  let main_c_11 : IVec S_ 1 := constantI S_ 1 1#1
  let main_v32 : IVec S_ 1 := (fun x v => Host.reduce IntOp.andi x v reducesTo_S200x128_S_d0_1 h_S_) main_v31 main_c_11
  let main_v33 : IVec S_ 1 := andi main_v28 main_v32
  fn_part2 (F := F) main_arg7 main_v33

def fn {F : FTy → Type} [FloatOps F] (main_arg0 : FVec F S1x100000 .f32) (main_arg1 : FVec F S200x100000 .f32) (main_arg2 : FVec F S128x100000 .f32) (main_arg3 : FVec F S128x100000 .f32) (main_arg4 : FVec F S128x100000 .f32) (main_arg5 : FVec F S100000x128 .f32) (main_arg6 : FVec F S200x128 .f32) (main_arg7 : FVec F S200x128 .f32) : IVec S_ 1 :=
  let main_v0 : FVec F S1x100000 .f32 := Host.absf main_arg0
  let main_cst : FVec F S_ .f32 := constant S_ .f32 0x7F800000#32
  let main_v1 : FVec F S1x100000 .f32 := broadcastInDim S1x100000 ![] bcast_S_S1x100000 main_cst
  let main_v2 : IVec S1x100000 1 := cmpf .olt main_v0 main_v1
  let main_c : IVec S_ 1 := constantI S_ 1 1#1
  let main_v3 : IVec S_ 1 := (fun x v => Host.reduce IntOp.andi x v reducesTo_S1x100000_S_d0_1 h_S_) main_v2 main_c
  let main_v4 : FVec F S200x100000 .f32 := Host.absf main_arg1
  let main_cst_0 : FVec F S_ .f32 := constant S_ .f32 0x7F800000#32
  let main_v5 : FVec F S200x100000 .f32 := broadcastInDim S200x100000 ![] bcast_S_S200x100000 main_cst_0
  let main_v6 : IVec S200x100000 1 := cmpf .olt main_v4 main_v5
  let main_c_1 : IVec S_ 1 := constantI S_ 1 1#1
  let main_v7 : IVec S_ 1 := (fun x v => Host.reduce IntOp.andi x v reducesTo_S200x100000_S_d0_1 h_S_) main_v6 main_c_1
  let main_v8 : IVec S_ 1 := andi main_v3 main_v7
  let main_v9 : FVec F S128x100000 .f32 := Host.absf main_arg2
  let main_cst_2 : FVec F S_ .f32 := constant S_ .f32 0x7F800000#32
  let main_v10 : FVec F S128x100000 .f32 := broadcastInDim S128x100000 ![] bcast_S_S128x100000 main_cst_2
  let main_v11 : IVec S128x100000 1 := cmpf .olt main_v9 main_v10
  let main_c_3 : IVec S_ 1 := constantI S_ 1 1#1
  let main_v12 : IVec S_ 1 := (fun x v => Host.reduce IntOp.andi x v reducesTo_S128x100000_S_d0_1 h_S_) main_v11 main_c_3
  let main_v13 : IVec S_ 1 := andi main_v8 main_v12
  let main_v14 : FVec F S128x100000 .f32 := Host.absf main_arg3
  let main_cst_4 : FVec F S_ .f32 := constant S_ .f32 0x7F800000#32
  let main_v15 : FVec F S128x100000 .f32 := broadcastInDim S128x100000 ![] bcast_S_S128x100000 main_cst_4
  let main_v16 : IVec S128x100000 1 := cmpf .olt main_v14 main_v15
  fn_part1 (F := F) main_arg4 main_arg5 main_arg6 main_arg7 main_v13 main_v16
-- ==== Kernel.lean ====
abbrev S1x100000 : Shape := ⟨2, ![1, 100000]⟩
abbrev S200x100000 : Shape := ⟨2, ![200, 100000]⟩
abbrev S128x100000 : Shape := ⟨2, ![128, 100000]⟩
abbrev S100000x128 : Shape := ⟨2, ![100000, 128]⟩
abbrev S200x128 : Shape := ⟨2, ![200, 128]⟩
abbrev S_ : Shape := ⟨0, ![]⟩
abbrev S1x102400 : Shape := ⟨2, ![1, 102400]⟩
abbrev S200x102400 : Shape := ⟨2, ![200, 102400]⟩
abbrev S128x102400 : Shape := ⟨2, ![128, 102400]⟩
abbrev S1x128 : Shape := ⟨2, ![1, 128]⟩
abbrev S1x4096 : Shape := ⟨2, ![1, 4096]⟩
abbrev S200x4096 : Shape := ⟨2, ![200, 4096]⟩
abbrev S128x4096 : Shape := ⟨2, ![128, 4096]⟩
abbrev S128x200 : Shape := ⟨2, ![128, 200]⟩
abbrev S1x200 : Shape := ⟨2, ![1, 200]⟩
abbrev S200x1 : Shape := ⟨2, ![200, 1]⟩
abbrev S1 : Shape := ⟨1, ![1]⟩
abbrev S1x1 : Shape := ⟨2, ![1, 1]⟩
abbrev S102400x128 : Shape := ⟨2, ![102400, 128]⟩
abbrev S12800x128 : Shape := ⟨2, ![12800, 128]⟩
abbrev S1x12800 : Shape := ⟨2, ![1, 12800]⟩

abbrev nBuf : Space → Nat
  | .hbm => 91
  | .vmem => 23
  | .smem => 0
  | _ => 0

abbrev bufTy : (tb : Table) → Fin (tcTables nBuf tb) → BufTy
  | .hbm, ⟨0, _⟩ => ⟨S1x100000, .f32⟩
  | .hbm, ⟨1, _⟩ => ⟨S200x100000, .f32⟩
  | .hbm, ⟨2, _⟩ => ⟨S128x100000, .f32⟩
  | .hbm, ⟨3, _⟩ => ⟨S128x100000, .f32⟩
  | .hbm, ⟨4, _⟩ => ⟨S128x100000, .f32⟩
  | .hbm, ⟨5, _⟩ => ⟨S100000x128, .f32⟩
  | .hbm, ⟨6, _⟩ => ⟨S200x128, .f32⟩
  | .hbm, ⟨7, _⟩ => ⟨S200x128, .f32⟩
  | .hbm, ⟨8, _⟩ => ⟨S_, .i32⟩
  | .hbm, ⟨9, _⟩ => ⟨S_, .f32⟩
  | .hbm, ⟨10, _⟩ => ⟨S1x102400, .f32⟩
  | .hbm, ⟨11, _⟩ => ⟨S_, .i32⟩
  | .hbm, ⟨12, _⟩ => ⟨S_, .f32⟩
  | .hbm, ⟨13, _⟩ => ⟨S200x102400, .f32⟩
  | .hbm, ⟨14, _⟩ => ⟨S_, .i32⟩
  | .hbm, ⟨15, _⟩ => ⟨S_, .f32⟩
  | .hbm, ⟨16, _⟩ => ⟨S128x102400, .f32⟩
  | .hbm, ⟨17, _⟩ => ⟨S_, .i32⟩
  | .hbm, ⟨18, _⟩ => ⟨S_, .f32⟩
  | .hbm, ⟨19, _⟩ => ⟨S128x102400, .f32⟩
  | .hbm, ⟨20, _⟩ => ⟨S_, .i32⟩
  | .hbm, ⟨21, _⟩ => ⟨S_, .f32⟩
  | .hbm, ⟨22, _⟩ => ⟨S128x102400, .f32⟩
  | .hbm, ⟨23, _⟩ => ⟨S1x128, .f32⟩
  | .hbm, ⟨24, _⟩ => ⟨S200x128, .f32⟩
  | .hbm, ⟨25, _⟩ => ⟨S200x128, .f32⟩
  | .hbm, ⟨26, _⟩ => ⟨S128x200, .f32⟩
  | .hbm, ⟨27, _⟩ => ⟨S1x200, .f32⟩
  | .hbm, ⟨28, _⟩ => ⟨S200x1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S200x1, .f32⟩
  | .hbm, ⟨36, _⟩ => ⟨S200x1, .f32⟩
  | .hbm, ⟨37, _⟩ => ⟨S200x1, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S200x1, .f32⟩
  | .hbm, ⟨42, _⟩ => ⟨S200x1, .f32⟩
  | .hbm, ⟨43, _⟩ => ⟨S1x200, .f32⟩
  | .hbm, ⟨44, _⟩ => ⟨S1x128, .f32⟩
  | .hbm, ⟨45, _⟩ => ⟨S1x128, .f32⟩
  | .hbm, ⟨46, _⟩ => ⟨S128x200, .f32⟩
  | .hbm, ⟨47, _⟩ => ⟨S1x200, .f32⟩
  | .hbm, ⟨48, _⟩ => ⟨S200x1, .f32⟩
  | .hbm, ⟨49, _⟩ => ⟨S_, .f32⟩
  | .hbm, ⟨50, _⟩ => ⟨S1, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S1x1, .f32⟩
  | .hbm, ⟨55, _⟩ => ⟨S200x1, .f32⟩
  | .hbm, ⟨56, _⟩ => ⟨S200x1, .f32⟩
  | .hbm, ⟨57, _⟩ => ⟨S200x1, .f32⟩
  | .hbm, ⟨58, _⟩ => ⟨S_, .f32⟩
  | .hbm, ⟨59, _⟩ => ⟨S1, .f32⟩
  | .hbm, ⟨60, _⟩ => ⟨S1x1, .f32⟩
  | .hbm, ⟨61, _⟩ => ⟨S200x1, .f32⟩
  | .hbm, ⟨62, _⟩ => ⟨S200x1, .f32⟩
  | .hbm, ⟨63, _⟩ => ⟨S1x200, .f32⟩
  | .hbm, ⟨64, _⟩ => ⟨S1x128, .f32⟩
  | .hbm, ⟨65, _⟩ => ⟨S1x128, .f32⟩
  | .hbm, ⟨66, _⟩ => ⟨S128x200, .f32⟩
  | .hbm, ⟨67, _⟩ => ⟨S1x200, .f32⟩
  | .hbm, ⟨68, _⟩ => ⟨S200x1, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S1, .f32⟩
  | .hbm, ⟨73, _⟩ => ⟨S1, .f32⟩
  | .hbm, ⟨74, _⟩ => ⟨S1x1, .f32⟩
  | .hbm, ⟨75, _⟩ => ⟨S200x1, .f32⟩
  | .hbm, ⟨76, _⟩ => ⟨S200x1, .f32⟩
  | .hbm, ⟨77, _⟩ => ⟨S200x1, .f32⟩
  | .hbm, ⟨78, _⟩ => ⟨S_, .f32⟩
  | .hbm, ⟨79, _⟩ => ⟨S1, .f32⟩
  | .hbm, ⟨80, _⟩ => ⟨S1x1, .f32⟩
  | .hbm, ⟨81, _⟩ => ⟨S200x1, .f32⟩
  | .hbm, ⟨82, _⟩ => ⟨S200x1, .f32⟩
  | .hbm, ⟨83, _⟩ => ⟨S1x200, .f32⟩
  | .hbm, ⟨84, _⟩ => ⟨S1x128, .f32⟩
  | .hbm, ⟨85, _⟩ => ⟨S1x128, .f32⟩
  | .hbm, ⟨86, _⟩ => ⟨S_, .i32⟩
  | .hbm, ⟨87, _⟩ => ⟨S_, .f32⟩
  | .hbm, ⟨88, _⟩ => ⟨S102400x128, .f32⟩
  | .hbm, ⟨89, _⟩ => ⟨S1x102400, .f32⟩
  | .hbm, ⟨90, _⟩ => ⟨S1x100000, .f32⟩
  | .local _ .vmem, ⟨0, _⟩ => ⟨S1x4096, .f32⟩
  | .local _ .vmem, ⟨1, _⟩ => ⟨S1x4096, .f32⟩
  | .local _ .vmem, ⟨2, _⟩ => ⟨S200x4096, .f32⟩
  | .local _ .vmem, ⟨3, _⟩ => ⟨S200x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S200x128, .f32⟩
  | .local _ .vmem, ⟨11, _⟩ => ⟨S200x128, .f32⟩
  | .local _ .vmem, ⟨12, _⟩ => ⟨S1x128, .f32⟩
  | .local _ .vmem, ⟨13, _⟩ => ⟨S200x128, .f32⟩
  | .local _ .vmem, ⟨14, _⟩ => ⟨S200x128, .f32⟩
  | .local _ .vmem, ⟨15, _⟩ => ⟨S1x128, .f32⟩
  | .local _ .vmem, ⟨16, _⟩ => ⟨S200x128, .f32⟩
  | .local _ .vmem, ⟨17, _⟩ => ⟨S200x128, .f32⟩
  | .local _ .vmem, ⟨18, _⟩ => ⟨S1x128, .f32⟩
  | .local _ .vmem, ⟨19, _⟩ => ⟨S12800x128, .f32⟩
  | .local _ .vmem, ⟨20, _⟩ => ⟨S12800x128, .f32⟩
  | .local _ .vmem, ⟨21, _⟩ => ⟨S1x12800, .f32⟩
  | .local _ .vmem, ⟨22, _⟩ => ⟨S1x12800, .f32⟩
  | _, _ => ⟨S1x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_c_2 : Ref sig .tc := ⟨.hbm, 17, rfl⟩
abbrev main_call3_v0 : Ref sig .tc := ⟨.hbm, 18, rfl⟩
abbrev main_v3 : Ref sig .tc := ⟨.hbm, 19, rfl⟩
abbrev main_c_3 : Ref sig .tc := ⟨.hbm, 20, rfl⟩
abbrev main_call4_v0 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_v5_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_call5_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_24 : BitVec 32 := 0#32
  let v38 : BitVec 1 := Scalar.cmpi .ne v37 c0_i32_24
  v38

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S200x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S200x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S12800x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x12800 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  pads_S1x100000_S1x102400_000_024000 : S1x100000.Pads (![0, 0] : Fin 2 → Nat) ![0, 2400] ![0, 0] S1x102400
  h_S_ : 0 < S_.numel
  pads_S200x100000_S200x102400_000_024000 : S200x100000.Pads (![0, 0] : Fin 2 → Nat) ![0, 2400] ![0, 0] S200x102400
  pads_S128x100000_S128x102400_000_024000 : S128x100000.Pads (![0, 0] : Fin 2 → Nat) ![0, 2400] ![0, 0] S128x102400
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bitsLt_bf16_f32 : FTy.bits .bf16 < FTy.bits .f32
  inb_S200x4096_S200x4096_0_0 : ∀ a, (![0, 0] : Fin 2 → Nat) a + S200x4096.size a ≤ S200x4096.size a
  h_S200x4096 : 0 < S200x4096.numel
  shapeCasts_S200x4096_S200x4096 : S200x4096.ShapeCasts S200x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  transposes_S200x128_S128x200_1_0 : S200x128.Transposes [1, 0] S128x200
  transposes_S1x200_S200x1_1_0 : S1x200.Transposes [1, 0] S200x1
  reducesTo_S200x1_S1_d0 : S200x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  transposes_S200x1_S1x200_1_0 : S200x1.Transposes [1, 0] S1x200
  pads_S100000x128_S102400x128_024000_000 : S100000x128.Pads (![0, 0] : Fin 2 → Nat) ![2400, 0] ![0, 0] S102400x128
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  inb_S1x12800_S1x12800_0_0 : ∀ a, (![0, 0] : Fin 2 → Nat) a + S1x12800.size a ≤ S1x12800.size a
  h_S1x12800 : 0 < S1x12800.numel
  slices_S1x102400_S1x100000_0_0 : S1x102400.Slices ![0, 0] S1x100000
  dot_S1x4096_S128x4096_S1x128_1_1_0_0_n_n_wf : DotDims.WF S1x4096 S128x4096 S1x128 [1] [1] [0] [0] [] []
  dot_S200x4096_S128x4096_S200x128_1_1_0_0_n_n_wf : DotDims.WF S200x4096 S128x4096 S200x128 [1] [1] [0] [0] [] []
  dot_S1x128_S128x200_S1x200_1_0_0_1_n_n_wf : DotDims.WF S1x128 S128x200 S1x200 [1] [0] [0] [1] [] []
  dot_S1x200_S200x128_S1x128_1_0_0_1_n_n_wf : DotDims.WF S1x200 S200x128 S1x128 [1] [0] [0] [1] [] []
  dot_S1x128_S12800x128_S1x12800_1_1_0_0_n_n_wf : DotDims.WF S1x128 S12800x128 S1x12800 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x102400.size a
  hwx0_0 : ∀ i : grid0.Coords, EltTy.bits .f32 = 32 ∨ (Rect.block (s := S1x102400) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x4096.size a ≤ S200x102400.size a
  hwx0_1 : ∀ i : grid0.Coords, EltTy.bits .f32 = 32 ∨ (Rect.block (s := S200x102400) S200x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x102400.size a
  hwx0_2 : ∀ i : grid0.Coords, EltTy.bits .f32 = 32 ∨ (Rect.block (s := S128x102400) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x102400.size a
  hwx0_3 : ∀ i : grid0.Coords, EltTy.bits .f32 = 32 ∨ (Rect.block (s := S128x102400) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x102400.size a
  hwx0_4 : ∀ i : grid0.Coords, EltTy.bits .f32 = 32 ∨ (Rect.block (s := S128x102400) S128x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S200x128.size a
  hwx0_5 : ∀ i : grid0.Coords, EltTy.bits .f32 = 32 ∨ (Rect.block (s := S200x128) S200x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S200x128.size a
  hwx0_6 : ∀ i : grid0.Coords, EltTy.bits .f32 = 32 ∨ (Rect.block (s := S200x128) S200x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200x128.size a ≤ S200x128.size a
  hwx0_8 : ∀ i : grid0.Coords, EltTy.bits .f32 = 32 ∨ (Rect.block (s := S200x128) S200x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S200x128.size a ≤ S200x128.size a
  hwx0_9 : ∀ i : grid0.Coords, EltTy.bits .f32 = 32 ∨ (Rect.block (s := S200x128) S200x128.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x128.size a ≤ S1x128.size a
  hwx1_0 : ∀ i : grid1.Coords, EltTy.bits .f32 = 32 ∨ (Rect.block (s := S1x128) S1x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x128.size a ≤ S102400x128.size a
  hwx1_1 : ∀ i : grid1.Coords, EltTy.bits .f32 = 32 ∨ (Rect.block (s := S102400x128) S12800x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x12800.size a ≤ S1x102400.size a
  hwx1_2 : ∀ i : grid1.Coords, EltTy.bits .f32 = 32 ∨ (Rect.block (s := S1x102400) S1x12800.size (cc1_transform_2 i) (hinb1_2 i)).WholeWords (EltTy.packing .f32)

variable [Facts₀]

def dot_S1x4096_S128x4096_S1x128_1_1_0_0_n_n : DotDims S1x4096 S128x4096 S1x128 where
  lhsContracting := [1]
  rhsContracting := [1]
  lhsNonContracting := [0]
  rhsNonContracting := [0]
  lhsBatch := []
  rhsBatch := []
  wf := dot_S1x4096_S128x4096_S1x128_1_1_0_0_n_n_wf
def dot_S200x4096_S128x4096_S200x128_1_1_0_0_n_n : DotDims S200x4096 S128x4096 S200x128 where
  lhsContracting := [1]
  rhsContracting := [1]
  lhsNonContracting := [0]
  rhsNonContracting := [0]
  lhsBatch := []
  rhsBatch := []
  wf := dot_S200x4096_S128x4096_S200x128_1_1_0_0_n_n_wf
def dot_S1x128_S128x200_S1x200_1_0_0_1_n_n : DotDims S1x128 S128x200 S1x200 where
  lhsContracting := [1]
  rhsContracting := [0]
  lhsNonContracting := [0]
  rhsNonContracting := [1]
  lhsBatch := []
  rhsBatch := []
  wf := dot_S1x128_S128x200_S1x200_1_0_0_1_n_n_wf
def dot_S1x200_S200x128_S1x128_1_0_0_1_n_n : DotDims S1x200 S200x128 S1x128 where
  lhsContracting := [1]
  rhsContracting := [0]
  lhsNonContracting := [0]
  rhsNonContracting := [1]
  lhsBatch := []
  rhsBatch := []
  wf := dot_S1x200_S200x128_S1x128_1_0_0_1_n_n_wf
def dot_S1x128_S12800x128_S1x12800_1_1_0_0_n_n : DotDims S1x128 S12800x128 S1x12800 where
  lhsContracting := [1]
  rhsContracting := [1]
  lhsNonContracting := [0]
  rhsNonContracting := [0]
  lhsBatch := []
  rhsBatch := []
  wf := dot_S1x128_S12800x128_S1x12800_1_1_0_0_n_n_wf

abbrev win0_0 : Pipeline.Window sig grid0 :=
  Pipeline.Window.ofSpec (Memref.whole main_v0) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S200x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S200x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S200x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S200x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_2) S200x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v56) S1x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v57) S12800x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x12800.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x100000 : Shape := ⟨2, ![1, 100000]⟩
abbrev S200x100000 : Shape := ⟨2, ![200, 100000]⟩
abbrev S128x100000 : Shape := ⟨2, ![128, 100000]⟩
abbrev S100000x128 : Shape := ⟨2, ![100000, 128]⟩
abbrev S200x128 : Shape := ⟨2, ![200, 128]⟩
abbrev S1x128 : Shape := ⟨2, ![1, 128]⟩
abbrev S128x200 : Shape := ⟨2, ![128, 200]⟩
abbrev S1x200 : Shape := ⟨2, ![1, 200]⟩
abbrev S200x1 : Shape := ⟨2, ![200, 1]⟩
abbrev S_ : Shape := ⟨0, ![]⟩
abbrev S1 : Shape := ⟨1, ![1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S1x100000, .f32⟩
  | .hbm, ⟨1, _⟩ => ⟨S200x100000, .f32⟩
  | .hbm, ⟨2, _⟩ => ⟨S128x100000, .f32⟩
  | .hbm, ⟨3, _⟩ => ⟨S128x100000, .f32⟩
  | .hbm, ⟨4, _⟩ => ⟨S128x100000, .f32⟩
  | .hbm, ⟨5, _⟩ => ⟨S100000x128, .f32⟩
  | .hbm, ⟨6, _⟩ => ⟨S200x128, .f32⟩
  | .hbm, ⟨7, _⟩ => ⟨S200x128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S200x128, .f32⟩
  | .hbm, ⟨12, _⟩ => ⟨S200x128, .f32⟩
  | .hbm, ⟨13, _⟩ => ⟨S100000x128, .f32⟩
  | .hbm, ⟨14, _⟩ => ⟨S200x128, .f32⟩
  | .hbm, ⟨15, _⟩ => ⟨S200x128, .f32⟩
  | .hbm, ⟨16, _⟩ => ⟨S128x200, .f32⟩
  | .hbm, ⟨17, _⟩ => ⟨S1x200, .f32⟩
  | .hbm, ⟨18, _⟩ => ⟨S200x1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x1, .f32⟩
  | .hbm, ⟨25, _⟩ => ⟨S200x1, .f32⟩
  | .hbm, ⟨26, _⟩ => ⟨S200x1, .f32⟩
  | .hbm, ⟨27, _⟩ => ⟨S200x1, .f32⟩
  | .hbm, ⟨28, _⟩ => ⟨S_, .f32⟩
  | .hbm, ⟨29, _⟩ => ⟨S1, .f32⟩
  | .hbm, ⟨30, _⟩ => ⟨S1x1, .f32⟩
  | .hbm, ⟨31, _⟩ => ⟨S200x1, .f32⟩
  | .hbm, ⟨32, _⟩ => ⟨S200x1, .f32⟩
  | .hbm, ⟨33, _⟩ => ⟨S1x200, .f32⟩
  | .hbm, ⟨34, _⟩ => ⟨S1x128, .f32⟩
  | .hbm, ⟨35, _⟩ => ⟨S1x128, .f32⟩
  | .hbm, ⟨36, _⟩ => ⟨S128x200, .f32⟩
  | .hbm, ⟨37, _⟩ => ⟨S1x200, .f32⟩
  | .hbm, ⟨38, _⟩ => ⟨S200x1, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1x1, .f32⟩
  | .hbm, ⟨45, _⟩ => ⟨S200x1, .f32⟩
  | .hbm, ⟨46, _⟩ => ⟨S200x1, .f32⟩
  | .hbm, ⟨47, _⟩ => ⟨S200x1, .f32⟩
  | .hbm, ⟨48, _⟩ => ⟨S_, .f32⟩
  | .hbm, ⟨49, _⟩ => ⟨S1, .f32⟩
  | .hbm, ⟨50, _⟩ => ⟨S1x1, .f32⟩
  | .hbm, ⟨51, _⟩ => ⟨S200x1, .f32⟩
  | .hbm, ⟨52, _⟩ => ⟨S200x1, .f32⟩
  | .hbm, ⟨53, _⟩ => ⟨S1x200, .f32⟩
  | .hbm, ⟨54, _⟩ => ⟨S1x128, .f32⟩
  | .hbm, ⟨55, _⟩ => ⟨S1x128, .f32⟩
  | .hbm, ⟨56, _⟩ => ⟨S128x200, .f32⟩
  | .hbm, ⟨57, _⟩ => ⟨S1x200, .f32⟩
  | .hbm, ⟨58, _⟩ => ⟨S200x1, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S1, .f32⟩
  | .hbm, ⟨63, _⟩ => ⟨S1, .f32⟩
  | .hbm, ⟨64, _⟩ => ⟨S1x1, .f32⟩
  | .hbm, ⟨65, _⟩ => ⟨S200x1, .f32⟩
  | .hbm, ⟨66, _⟩ => ⟨S200x1, .f32⟩
  | .hbm, ⟨67, _⟩ => ⟨S200x1, .f32⟩
  | .hbm, ⟨68, _⟩ => ⟨S_, .f32⟩
  | .hbm, ⟨69, _⟩ => ⟨S1, .f32⟩
  | .hbm, ⟨70, _⟩ => ⟨S1x1, .f32⟩
  | .hbm, ⟨71, _⟩ => ⟨S200x1, .f32⟩
  | .hbm, ⟨72, _⟩ => ⟨S200x1, .f32⟩
  | .hbm, ⟨73, _⟩ => ⟨S1x200, .f32⟩
  | .hbm, ⟨74, _⟩ => ⟨S1x128, .f32⟩
  | .hbm, ⟨75, _⟩ => ⟨S1x128, .f32⟩
  | .hbm, ⟨76, _⟩ => ⟨S128x100000, .f32⟩
  | .hbm, ⟨77, _⟩ => ⟨S1x100000, .f32⟩
  | _, _ => ⟨S1x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]

class Facts₀ : Prop where
  transposes_S128x100000_S100000x128_1_0 : S128x100000.Transposes [1, 0] S100000x128
  transposes_S200x128_S128x200_1_0 : S200x128.Transposes [1, 0] S128x200
  transposes_S1x200_S200x1_1_0 : S1x200.Transposes [1, 0] S200x1
  reducesTo_S200x1_S1_d0 : S200x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  transposes_S200x1_S1x200_1_0 : S200x1.Transposes [1, 0] S1x200
  transposes_S100000x128_S128x100000_1_0 : S100000x128.Transposes [1, 0] S128x100000
  dot_S1x100000_S100000x128_S1x128_1_0_0_1_n_n_wf : DotDims.WF S1x100000 S100000x128 S1x128 [1] [0] [0] [1] [] []
  dot_S200x100000_S100000x128_S200x128_1_0_0_1_n_n_wf : DotDims.WF S200x100000 S100000x128 S200x128 [1] [0] [0] [1] [] []
  dot_S1x128_S128x200_S1x200_1_0_0_1_n_n_wf : DotDims.WF S1x128 S128x200 S1x200 [1] [0] [0] [1] [] []
  dot_S1x200_S200x128_S1x128_1_0_0_1_n_n_wf : DotDims.WF S1x200 S200x128 S1x128 [1] [0] [0] [1] [] []
  dot_S1x128_S128x100000_S1x100000_1_0_0_1_n_n_wf : DotDims.WF S1x128 S128x100000 S1x100000 [1] [0] [0] [1] [] []

variable [Facts₀]

def dot_S1x100000_S100000x128_S1x128_1_0_0_1_n_n : DotDims S1x100000 S100000x128 S1x128 where
  lhsContracting := [1]
  rhsContracting := [0]
  lhsNonContracting := [0]
  rhsNonContracting := [1]
  lhsBatch := []
  rhsBatch := []
  wf := dot_S1x100000_S100000x128_S1x128_1_0_0_1_n_n_wf
def dot_S200x100000_S100000x128_S200x128_1_0_0_1_n_n : DotDims S200x100000 S100000x128 S200x128 where
  lhsContracting := [1]
  rhsContracting := [0]
  lhsNonContracting := [0]
  rhsNonContracting := [1]
  lhsBatch := []
  rhsBatch := []
  wf := dot_S200x100000_S100000x128_S200x128_1_0_0_1_n_n_wf
def dot_S1x128_S128x200_S1x200_1_0_0_1_n_n : DotDims S1x128 S128x200 S1x200 where
  lhsContracting := [1]
  rhsContracting := [0]
  lhsNonContracting := [0]
  rhsNonContracting := [1]
  lhsBatch := []
  rhsBatch := []
  wf := dot_S1x128_S128x200_S1x200_1_0_0_1_n_n_wf
def dot_S1x200_S200x128_S1x128_1_0_0_1_n_n : DotDims S1x200 S200x128 S1x128 where
  lhsContracting := [1]
  rhsContracting := [0]
  lhsNonContracting := [0]
  rhsNonContracting := [1]
  lhsBatch := []
  rhsBatch := []
  wf := dot_S1x200_S200x128_S1x128_1_0_0_1_n_n_wf
def dot_S1x128_S128x100000_S1x100000_1_0_0_1_n_n : DotDims S1x128 S128x100000 S1x100000 where
  lhsContracting := [1]
  rhsContracting := [0]
  lhsNonContracting := [0]
  rhsNonContracting := [1]
  lhsBatch := []
  rhsBatch := []
  wf := dot_S1x128_S128x100000_S1x100000_1_0_0_1_n_n_wf

class Facts : Prop extends Facts₀ where

variable [Facts]
-- ==== Proof.BitsR0Base.lean ====
/-
  The first region of the program: the streamed projections. Its grid has 25 points, one per tile of 4096 columns
  of the zero-padded vocabulary axis. At point k the body adds the products of the k-th column tiles
  (question × Wbᵀ, memory × Waᵀ, memory × Wcᵀ) into three accumulators it keeps between points; at the first
  point it first clears them, at the last point it writes them out (the two matrix accumulators with the
  temporal terms added). This module fixes what the per-case runs are stated over: the blocks of the input
  windows, the two conditions of the body decided over the grid, where the output windows rest, and the
  accumulators as memory references.
-/
import proofs.«179074_j41858751266982_1_alg».proof.Proof.Gen.Kernel.Launch
import proofs.«179074_j41858751266982_1_alg».proof.Proof.Gen.Kernel.Skeleton
import proofs.«179074_j41858751266982_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first point": the accumulators are cleared. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last point": the accumulators are written out. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point nothing is stored into output 7 and it is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Away from the last point nothing is stored into output 8 and it is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Away from the last point nothing is stored into output 9 and it is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The staging references at a point, and the accumulators -/

abbrev ms0_0 (t : Fin cfg0.N) : Memref sig .tc .vmem S1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x128 .f32 := win0_9.stage (cfg0.slots t 9)
abbrev hs0_9 (t : Fin cfg0.N) : (ms0_9 t).IsWhole := hstage0_9 ((cfg0.slots t 9).cast nbuf0_9)
abbrev VO0_7 : View sig .tc .vmem S1x128 .f32 := (Memref.whole cc0_stg7_0 : Memref sig .tc .vmem S1x128 .f32).view
abbrev VO0_8 : View sig .tc .vmem S200x128 .f32 := (Memref.whole cc0_stg8_0 : Memref sig .tc .vmem S200x128 .f32).view
abbrev VO0_9 : View sig .tc .vmem S200x128 .f32 := (Memref.whole cc0_stg9_0 : Memref sig .tc .vmem S200x128 .f32).view
abbrev scM0_0 : Memref sig .tc .vmem S1x128 .f32 := Memref.whole cc0_scratch0
abbrev VS0_0 : View sig .tc .vmem S1x128 .f32 := scM0_0.view
abbrev scM0_1 : Memref sig .tc .vmem S200x128 .f32 := Memref.whole cc0_scratch1
abbrev VS0_1 : View sig .tc .vmem S200x128 .f32 := scM0_1.view
abbrev scM0_2 : Memref sig .tc .vmem S200x128 .f32 := Memref.whole cc0_scratch2
abbrev VS0_2 : View sig .tc .vmem S200x128 .f32 := scM0_2.view

/-- The scoped buffers this region never touches (the other region's staging buffers), each at some contents. -/
abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region is handed besides its windows: the three accumulators at some contents, the untouched scoped
    buffers, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Rest0 c) ∗ (∃ r, prngReg c r)) := by
  unfold Pipeline.ΦA; rw [scopedRest0_eq]; simp only [scM0_0, scM0_1, scM0_2, owns_whole]; try rfl

end Cert.Kernel.Hand

end
-- ==== Proof.BitsR0A.lean ====
/-
  The body of the first region at the FIRST grid point: the accumulators are cleared, then the first column
  tiles' products are added into them; nothing is stored into the output windows.
-/
import proofs.«179074_j41858751266982_1_alg».proof.Proof.BitsR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging references, in this case of its two conditions: it runs to its end, handing the inputs
    back as they were and each buffer it stored into with those stores written, last first. The lists of stores are
    found by running the body. -/
noncomputable def kernelRun0_A (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) :
    Σ' (LS0 : List (View.Piece (Elt F) S1x128 .f32)) (LS1 : List (View.Piece (Elt F) S200x128 .f32)), { LS2 : List (View.Piece (Elt F) S200x128 .f32) //
      ∀ (xi7 : Vec F S1x128 .f32) (xi8 xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi7 xi8 xi9 E K => ?run⟩
  case run =>
    simp only [cc0__project_kernel_eq_skeleton]; unfold cc0__project_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    isplitl [HS1]; · iexists _; iexact HS1
    iexists _; iexact HS2

end Cert.Kernel.Hand

end
-- ==== Proof.BitsR0B.lean ====
/-
  The body of the first region at a MIDDLE grid point: the point's column tiles' products are added into the
  accumulators, which hold what the point before left; nothing is stored into the output windows.
-/
import proofs.«179074_j41858751266982_1_alg».proof.Proof.BitsR0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging references, in this case of its two conditions: it runs to its end, handing the inputs
    back as they were and each buffer it stored into with those stores written, last first. The lists of stores are
    found by running the body. -/
noncomputable def kernelRun0_B (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    Σ' (LS0 : List (View.Piece (Elt F) S1x128 .f32)) (LS1 : List (View.Piece (Elt F) S200x128 .f32)), { LS2 : List (View.Piece (Elt F) S200x128 .f32) //
      ∀ (xi7 : Vec F S1x128 .f32) (xi8 xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi7 xi8 xi9 E K => ?run⟩
  case run =>
    simp only [cc0__project_kernel_eq_skeleton]; unfold cc0__project_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    isplitl [HS1]; · iexists _; iexact HS1
    iexists _; iexact HS2

end Cert.Kernel.Hand

end
-- ==== Proof.BitsR0C.lean ====
/-
  The body of the first region at the LAST grid point: the last column tiles' products are added into the
  accumulators, and the three outputs are stored: the question's projection as accumulated, the two memory
  projections with the temporal terms added.
-/
import proofs.«179074_j41858751266982_1_alg».proof.Proof.BitsR0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging references, in this case of its two conditions: it runs to its end, handing the inputs
    back as they were and each buffer it stored into with those stores written, last first. The lists of stores are
    found by running the body. -/
noncomputable def kernelRun0_C (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    Σ' (L7 : List (View.Piece (Elt F) S1x128 .f32)) (L8 L9 : List (View.Piece (Elt F) S200x128 .f32)) (LS0 : List (View.Piece (Elt F) S1x128 .f32)) (LS1 : List (View.Piece (Elt F) S200x128 .f32)), { LS2 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__project_kernel_eq_skeleton]; unfold cc0__project_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.Kernel.Hand

end
-- ==== Proof.BitsR0.lean ====
/-
  The first region, point by point. What each of the three accumulators holds after point n is defined by
  recursion on n from what the body's stores leave in it: at the first point the cleared accumulator plus the
  first tiles' product, afterwards the previous contents plus the point's product. The region's invariant hands
  the body the accumulators at the previous point's contents and takes them back at this point's; the outputs
  rest until the last point, where they receive the accumulators (the matrix ones with the temporal terms added).
  From this: the proof data of the region and its body obligation at every point.
-/
import proofs.«179074_j41858751266982_1_alg».proof.Proof.BitsR0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave in the accumulators and the outputs -/

theorem scover0_A_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S1x128.size (by sl_kernel_rfl) y

/-- Accumulator 0 after the body in case A: its stores read back. -/
def sout0_A_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)

theorem scover0_A_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) (y : S200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S200x128.size (by sl_kernel_rfl) y

/-- Accumulator 1 after the body in case A: its stores read back. -/
def sout0_A_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) : Vec F S200x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)

theorem scover0_A_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) (y : S200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S200x128.size (by sl_kernel_rfl) y

/-- Accumulator 2 after the body in case A: its stores read back. -/
def sout0_A_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) : Vec F S200x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

theorem scover0_B_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1x128.size (by sl_kernel_rfl) y

/-- Accumulator 0 after the body in case B: its stores read back. -/
def sout0_B_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

theorem scover0_B_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S200x128.size (by sl_kernel_rfl) y

/-- Accumulator 1 after the body in case B: its stores read back. -/
def sout0_B_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)

theorem scover0_B_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S200x128.size (by sl_kernel_rfl) y

/-- Accumulator 2 after the body in case B: its stores read back. -/
def sout0_B_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)

theorem scover0_C_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1 S1x128.size (by sl_kernel_rfl) y

/-- Accumulator 0 after the body in case C: its stores read back. -/
def sout0_C_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1)

theorem scover0_C_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.1 S200x128.size (by sl_kernel_rfl) y

/-- Accumulator 1 after the body in case C: its stores read back. -/
def sout0_C_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.1)

theorem scover0_C_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.2.1 S200x128.size (by sl_kernel_rfl) y

/-- Accumulator 2 after the body in case C: its stores read back. -/
def sout0_C_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.2.1)

theorem cover0_C_7 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1x128.size (by sl_kernel_rfl) y

/-- Output window 7's staging buffer after the body at the last point: its store read back. -/
def out0_C_7 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

theorem cover0_C_8 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S200x128.size (by sl_kernel_rfl) y

/-- Output window 8's staging buffer after the body at the last point: its store read back. -/
def out0_C_8 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)

theorem cover0_C_9 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S200x128.size (by sl_kernel_rfl) y

/-- Output window 9's staging buffer after the body at the last point: its store read back. -/
def out0_C_9 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)

/-! ## The accumulators after each point -/

/-- What the three accumulators hold after the body at position `n`: the case the position is in, run at the
    point's staging references and input blocks, over what the position before left. -/
def scrAt0 (c : Dev nD) : (n : ℕ) → n < cfg0.N → Vec F S1x128 .f32 × Vec F S200x128 .f32 × Vec F S200x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h1 : (n + 1) % 25 = 24 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2)

theorem scrAt0_A (c : Dev nD) (t : Fin cfg0.N) (h0 : t.val % 25 = 0) (h1 : ¬t.val % 25 = 24) :
    scrAt0 V c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t),
      sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (by exfalso; (try dsimp only at h0); have hN : n + 1 < 25 := (lt_of_lt_of_eq hn (show cfg0.N = 25 from N_0)); omega)

theorem scrAt0_B (c : Dev nD) (t : Fin cfg0.N) (h0 : ¬t.val % 25 = 0) (h1 : ¬t.val % 25 = 24) :
    scrAt0 V c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem scrAt0_C (c : Dev nD) (t : Fin cfg0.N) (h0 : ¬t.val % 25 = 0) (h1 : t.val % 25 = 24) :
    scrAt0 V c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-- What the three output windows' staging buffers hold after the body at point `t`: at the last point the stores
    of that point; elsewhere the windows rest and this value is never consulted. -/
def outAt0 (c : Dev nD) (t : Fin cfg0.N) : Vec F S1x128 .f32 × Vec F S200x128 .f32 × Vec F S200x128 .f32 :=
  if h1 : t.val % 25 = 24 then
    (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => (fun h' => by omega) ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => (fun h' => by omega) ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => (fun h' => by omega) ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)
  else scrAt0 V c t.val t.isLt

theorem outAt0_C (c : Dev nD) (t : Fin cfg0.N) (h0 : ¬t.val % 25 = 0) (h1 : t.val % 25 = 24) :
    outAt0 V c t = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  unfold outAt0; exact (dif_pos h1).trans rfl

/-! ## The invariant -/

/-- Before position `n`: before the first point the accumulators at anything; afterwards at what the point before
    left in them. The scoped buffers the region never touches and the generator register ride along. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn).1 ∗ owns (c : Thread nD τ) scM0_1 fullShare (scrAt0 V c n hn).2.1 ∗ owns (c : Thread nD τ) scM0_2 fullShare (scrAt0 V c n hn).2.2 ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (scrAt0 V c n hn).1 ∗ owns (c : Thread nD τ) scM0_1 fullShare (scrAt0 V c n hn).2.1 ∗ owns (c : Thread nD τ) scM0_2 fullShare (scrAt0 V c n hn).2.2 ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (scrAt0 V c (n - 1) (by omega)).1 ∗ owns (c : Thread nD τ) scM0_1 fullShare (scrAt0 V c (n - 1) (by omega)).2.1 ∗ owns (c : Thread nD τ) scM0_2 fullShare (scrAt0 V c (n - 1) (by omega)).2.2 ∗ Rest0 c) ∗ (∃ r, prngReg c r)) := by
  cases n with
  | zero => exact absurd rfl hz
  | succ n => rfl

/-! ## The proof data -/

/-- The arrays as the region finds them; after the body each input's buffer at its block, each output's at `outAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outAt0 V c t).1
    | ⟨8, _⟩ => (outAt0 V c t).2.1
    | ⟨9, _⟩ => (outAt0 V c t).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outAt0 V c t).1 := by dsimp only [dat0]
theorem after0_8 (c : Dev nD) (t : Fin cfg0.N) : (dat0 V c).after 8 t = (outAt0 V c t).2.1 := by dsimp only [dat0]
theorem after0_9 (c : Dev nD) (t : Fin cfg0.N) : (dat0 V c).after 9 t = (outAt0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the closed forms of the two conditions say which case the point is in; the invariant hands
    the run the accumulators, the run's stores are read back as this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  by_cases h0 : t.val % 25 = 0
  · have h1 : ¬t.val % 25 = 24 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [Dat.leavesExact_idle (dat0 V c) 9 t (idleAt0_9 t (fun h => h1 ((hcond0_1 t).mp h))) (noFlush0_9 t (fun h => h1 ((hcond0_1 t).mp h)))]
    rw [scrAt0_A V c t h0 h1]
    unfold sout0_A_0 sout0_A_1 sout0_A_2; (try dsimp only)
    rw [PhiS0_castSucc V c t, PhiS0_zero V c _ _ hz, PhiA0_eq]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, ⟨%es0, HS0⟩, ⟨%es1, HS1⟩, ⟨%es2, HS2⟩⟩
    isplitl [HS0 HS1 HS2 HR Hg]
    · isplitl [HS0 HS1 HS2 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9
  · have hz : t.val ≠ 0 := by omega
    by_cases h1 : t.val % 25 = 24
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [show (dat0 V c).leavesExact 9 t = owns (c : Thread nD τ) (ms0_9 t) fullShare ((dat0 V c).after 9 t) from by
        unfold Dat.leavesExact; rw [liveAt0_9 t ((hcond0_1 t).mpr h1)], after0_9]
      rw [outAt0_C V c t h0 h1, scrAt0_C V c t h0 h1]
      unfold out0_C_7 out0_C_8 out0_C_9 sout0_C_0 sout0_C_1 sout0_C_2; (try dsimp only)
      rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, ⟨%e7, H7⟩, ⟨%e8, H8⟩, ⟨%e9, H9⟩, ⟨%es0, HS0⟩, ⟨%es1, HS1⟩, ⟨%es2, HS2⟩⟩
      isplitl [HS0 HS1 HS2 HR Hg]
      · isplitl [HS0 HS1 HS2 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _)
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [Dat.leavesExact_idle (dat0 V c) 9 t (idleAt0_9 t (fun h => h1 ((hcond0_1 t).mp h))) (noFlush0_9 t (fun h => h1 ((hcond0_1 t).mp h)))]
      rw [scrAt0_B V c t h0 h1]
      unfold sout0_B_0 sout0_B_1 sout0_B_2; (try dsimp only)
      rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, H9, ⟨%es0, HS0⟩, ⟨%es1, HS1⟩, ⟨%es2, HS2⟩⟩
      isplitl [HS0 HS1 HS2 HR Hg]
      · isplitl [HS0 HS1 HS2 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

end Cert.Kernel.Hand

end
-- ==== Proof.BitsRegion1.lean ====
/- Region 1 of @main: the output projection, a pipeline of 8 grid points each multiplying the 1x128 row by one
   12800-row block of the padded weight matrix. Stated at a parameter V, the buffer contents when the region is
   entered: each window's block at a point, the body's effect on the staging buffers, the pipeline's proof data and
   the body obligation. -/
import proofs.«179074_j41858751266982_1_alg».proof.Proof.Gen.Kernel.Launch
import proofs.«179074_j41858751266982_1_alg».proof.Proof.Gen.Kernel.Skeleton
import proofs.«179074_j41858751266982_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is V's and whose body leaves the block in
    place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each of the three staging buffers whole -/

abbrev r1_0 : Rect S1x128 := Rect.unit (s := S1x128) ![0, 0] S1x128.size inb_S1x128_S1x128_0_0
abbrev r1_1 : Rect S12800x128 := Rect.unit (s := S12800x128) ![0, 0] S12800x128.size inb_S12800x128_S12800x128_0_0
abbrev r1_2 : Rect S1x12800 := Rect.unit (s := S1x12800) ![0, 0] S1x12800.size inb_S1x12800_S1x12800_0_0

/-! ## What the body leaves in the output window's buffer -/

/-- Window 2's staging buffer after the body, from the input windows' blocks: its one store, of the product of the
    two loaded blocks. -/
def out1_2 (x0 : Vec F S1x128 .f32) (x1 : Vec F S12800x128 .f32) : Vec F S1x12800 .f32 :=
  View.canon [⟨r1_2, k1_pay1 (View.ld x0 r1_0) (View.ld x1 r1_1)⟩]

/-- The one store covers the buffer. -/
theorem cover1_2 (p0 : Vec F S1x12800 .f32) (y : S1x12800.Idx) :
    ∃ pc ∈ ([⟨r1_2, p0⟩] : List (View.Piece (Elt F) S1x12800 .f32)), y ∈ pc.1.set :=
  View.cover_of_tiled [⟨r1_2, p0⟩] S1x12800.size (by rfl) y

/-! ## The body's triple -/

set_option maxHeartbeats 1000000 in
/-- The body on whole staging memrefs, the inputs' at contents x0, x1 and the output's at anything, runs to the
    continuation holding the inputs' as they were and the output's at out1_2 of the inputs'. -/
theorem sound_kernel1 (c : Dev nD) (E : Set ℕ) (i : grid1.Coords) (arg1 : Memref sig .tc .vmem S1x128 .f32) (harg1 : arg1.IsWhole) (arg2 : Memref sig .tc .vmem S12800x128 .f32) (harg2 : arg2.IsWhole) (arg3 : Memref sig .tc .vmem S1x12800 .f32) (harg3 : arg3.IsWhole)
    (x0 : Vec F S1x128 .f32) (x1 : Vec F S12800x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__output_kernel i arg1 harg1 arg2 harg2 arg3 harg3) K := by
  simp only [cc1__output_kernel_eq_skeleton]; unfold cc1__output_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core c: the arrays as the region finds them; after the body at point t each
    input's buffer at its block and the output's at out1_2 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so sound_kernel1 applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BitsRun.lean ====
/-
  The whole program as a run. @main is fifteen items: ten stretches of host operations (the zero-paddings of the
  five streamed operands), the first region, two stretches (the three hops of attention; the padding of the
  output weights), the second region, and the final slice. The contents of the unscoped buffers at each boundary
  are a fold from the launch memory: a stretch applies its operations, a region replaces its windows' arrays by
  what its write-backs leave. Each region is entered from "every unscoped buffer at the boundary's contents" and
  left at the next boundary's; the launch theorem then says every execution ends with every unscoped buffer at
  the last boundary's contents. The argument arrays are never written, so they end as launched.
-/
import proofs.«179074_j41858751266982_1_alg».proof.Proof.Gen.Kernel.Regions
import proofs.«179074_j41858751266982_1_alg».proof.Proof.BitsR0
import proofs.«179074_j41858751266982_1_alg».proof.Proof.BitsRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev W8 : Dev nD → Valuation τ sig (Elt F) := fun c => StableHlo.after hostOps0_7 (W7 m c)
abbrev W9 : Dev nD → Valuation τ sig (Elt F) := fun c => StableHlo.after hostOps0_8 (W8 m c)
abbrev W10 : Dev nD → Valuation τ sig (Elt F) := fun c => StableHlo.after hostOps0_9 (W9 m c)
/-- The first region's entry contents, read at the TensorCore's references. -/
abbrev Vin0 : (c : Dev nD) → (b : Ref sig .tc) → Buf (Elt F) ((c : Thread nD τ).loc b) := fun c b => W10 m c b
/-- At the first region's exit: its arrays at what the pipeline leaves, every other buffer as entered. -/
def W11 (c : Dev nD) : Valuation τ sig (Elt F) :=
  Pipeline.withArrays spec0 c (W10 m c) fun w => (dat0 (Vin0 m) c).arrAt w cfg0.N
theorem W11_arr (c : Dev nD) (w : Fin cfg0.W) :
    W11 m c (Proc.devRef .tc (Pipeline.arrRef spec0 w)) = (dat0 (Vin0 m) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m c (Proc.devRef .tc b) = W10 m c (Proc.devRef .tc b) := by
  unfold W11; exact Pipeline.withArrays_of_ne spec0 c _ _ b hb
abbrev Vout0 : (c : Dev nD) → (b : Ref sig .tc) → Buf (Elt F) ((c : Thread nD τ).loc b) := fun c b => W11 m c b
theorem hF0 (c : Dev nD) (w : Fin cfg0.W) : (dat0 (Vin0 m) c).arrAt w cfg0.N = Vout0 m c (Pipeline.arrRef spec0 w) :=
  (W11_arr m c w).symm
theorem hrest0 (c : Dev nD) : ∀ b, b ∉ Finset.univ.image (Pipeline.arrRef spec0) → Vout0 m c b = Vin0 m c b :=
  fun b hb => W11_of_ne m c b fun w e => hb (Finset.mem_image.mpr ⟨w, Finset.mem_univ _, e⟩)

abbrev W12 : Dev nD → Valuation τ sig (Elt F) := fun c => StableHlo.after hostOps1 (W11 m c)
abbrev W13 : Dev nD → Valuation τ sig (Elt F) := fun c => StableHlo.after hostOps1_1 (W12 m c)
/-- The second region's entry contents, read at the TensorCore's references. -/
abbrev Vin1 : (c : Dev nD) → (b : Ref sig .tc) → Buf (Elt F) ((c : Thread nD τ).loc b) := fun c b => W13 m c b
def W14 (c : Dev nD) : Valuation τ sig (Elt F) :=
  Pipeline.withArrays spec1 c (W13 m c) fun w => (dat1 (Vin1 m) c).arrAt w cfg1.N
theorem W14_arr (c : Dev nD) (w : Fin cfg1.W) :
    W14 m c (Proc.devRef .tc (Pipeline.arrRef spec1 w)) = (dat1 (Vin1 m) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m c (Proc.devRef .tc b) = W13 m c (Proc.devRef .tc b) := by
  unfold W14; exact Pipeline.withArrays_of_ne spec1 c _ _ b hb
abbrev Vout1 : (c : Dev nD) → (b : Ref sig .tc) → Buf (Elt F) ((c : Thread nD τ).loc b) := fun c b => W14 m c b
theorem hF1 (c : Dev nD) (w : Fin cfg1.W) : (dat1 (Vin1 m) c).arrAt w cfg1.N = Vout1 m c (Pipeline.arrRef spec1 w) :=
  (W14_arr m c w).symm
theorem hrest1 (c : Dev nD) : ∀ b, b ∉ Finset.univ.image (Pipeline.arrRef spec1) → Vout1 m c b = Vin1 m c b :=
  fun b hb => W14_of_ne m c b fun w e => hb (Finset.mem_image.mpr ⟨w, Finset.mem_univ _, e⟩)

abbrev W15 : Dev nD → Valuation τ sig (Elt F) := fun c => StableHlo.after hostOps2 (W14 m c)

/-! ## What an item leaves alone -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ hostOps0_3_W) : W4 m c r = W3 m c r :=
  StableHlo.after_of_writes_sub hostOps0_3 _ hostOps0_3_writes h
theorem W5_of (c : Dev nD) (r : Ref sig .tc) (h : r ∉ hostOps0_4_W) : W5 m c r = W4 m c r :=
  StableHlo.after_of_writes_sub hostOps0_4 _ hostOps0_4_writes h
theorem W6_of (c : Dev nD) (r : Ref sig .tc) (h : r ∉ hostOps0_5_W) : W6 m c r = W5 m c r :=
  StableHlo.after_of_writes_sub hostOps0_5 _ hostOps0_5_writes h
theorem W7_of (c : Dev nD) (r : Ref sig .tc) (h : r ∉ hostOps0_6_W) : W7 m c r = W6 m c r :=
  StableHlo.after_of_writes_sub hostOps0_6 _ hostOps0_6_writes h
theorem W8_of (c : Dev nD) (r : Ref sig .tc) (h : r ∉ hostOps0_7_W) : W8 m c r = W7 m c r :=
  StableHlo.after_of_writes_sub hostOps0_7 _ hostOps0_7_writes h
theorem W9_of (c : Dev nD) (r : Ref sig .tc) (h : r ∉ hostOps0_8_W) : W9 m c r = W8 m c r :=
  StableHlo.after_of_writes_sub hostOps0_8 _ hostOps0_8_writes h
theorem W10_of (c : Dev nD) (r : Ref sig .tc) (h : r ∉ hostOps0_9_W) : W10 m c r = W9 m c r :=
  StableHlo.after_of_writes_sub hostOps0_9 _ hostOps0_9_writes h
theorem W12_of (c : Dev nD) (r : Ref sig .tc) (h : r ∉ hostOps1_W) : W12 m c r = W11 m c r :=
  StableHlo.after_of_writes_sub hostOps1 _ hostOps1_writes h
theorem W13_of (c : Dev nD) (r : Ref sig .tc) (h : r ∉ hostOps1_1_W) : W13 m c r = W12 m c r :=
  StableHlo.after_of_writes_sub hostOps1_1 _ hostOps1_1_writes h
theorem W15_of (c : Dev nD) (r : Ref sig .tc) (h : r ∉ hostOps2_W) : W15 m c r = W14 m c r :=
  StableHlo.after_of_writes_sub hostOps2 _ hostOps2_writes h

/-! ## The arguments end as launched -/

theorem W15_main_arg0 (c : Dev nD) : W15 m c main_arg0 = m ((c : Thread nD τ).loc main_arg0) :=
  (W15_of m c main_arg0 (by decide)).trans <| (W14_of_ne m c main_arg0 (by decide)).trans <| (W13_of m c main_arg0 (by decide)).trans <| (W12_of m c main_arg0 (by decide)).trans <| (W11_of_ne m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W15_main_arg1 (c : Dev nD) : W15 m c main_arg1 = m ((c : Thread nD τ).loc main_arg1) :=
  (W15_of m c main_arg1 (by decide)).trans <| (W14_of_ne m c main_arg1 (by decide)).trans <| (W13_of m c main_arg1 (by decide)).trans <| (W12_of m c main_arg1 (by decide)).trans <| (W11_of_ne m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W15_main_arg2 (c : Dev nD) : W15 m c main_arg2 = m ((c : Thread nD τ).loc main_arg2) :=
  (W15_of m c main_arg2 (by decide)).trans <| (W14_of_ne m c main_arg2 (by decide)).trans <| (W13_of m c main_arg2 (by decide)).trans <| (W12_of m c main_arg2 (by decide)).trans <| (W11_of_ne m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W15_main_arg3 (c : Dev nD) : W15 m c main_arg3 = m ((c : Thread nD τ).loc main_arg3) :=
  (W15_of m c main_arg3 (by decide)).trans <| (W14_of_ne m c main_arg3 (by decide)).trans <| (W13_of m c main_arg3 (by decide)).trans <| (W12_of m c main_arg3 (by decide)).trans <| (W11_of_ne m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W15_main_arg4 (c : Dev nD) : W15 m c main_arg4 = m ((c : Thread nD τ).loc main_arg4) :=
  (W15_of m c main_arg4 (by decide)).trans <| (W14_of_ne m c main_arg4 (by decide)).trans <| (W13_of m c main_arg4 (by decide)).trans <| (W12_of m c main_arg4 (by decide)).trans <| (W11_of_ne m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W15_main_arg5 (c : Dev nD) : W15 m c main_arg5 = m ((c : Thread nD τ).loc main_arg5) :=
  (W15_of m c main_arg5 (by decide)).trans <| (W14_of_ne m c main_arg5 (by decide)).trans <| (W13_of m c main_arg5 (by decide)).trans <| (W12_of m c main_arg5 (by decide)).trans <| (W11_of_ne m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W15_main_arg6 (c : Dev nD) : W15 m c main_arg6 = m ((c : Thread nD τ).loc main_arg6) :=
  (W15_of m c main_arg6 (by decide)).trans <| (W14_of_ne m c main_arg6 (by decide)).trans <| (W13_of m c main_arg6 (by decide)).trans <| (W12_of m c main_arg6 (by decide)).trans <| ((W11_arr m c 5).trans (((dat0 (Vin0 m) c).arrAt_in 5 rfl _).trans (A_eq0 (Vin0 m) c 5))).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W15_main_arg7 (c : Dev nD) : W15 m c main_arg7 = m ((c : Thread nD τ).loc main_arg7) :=
  (W15_of m c main_arg7 (by decide)).trans <| (W14_of_ne m c main_arg7 (by decide)).trans <| (W13_of m c main_arg7 (by decide)).trans <| (W12_of m c main_arg7 (by decide)).trans <| ((W11_arr m c 6).trans (((dat0 (Vin0 m) c).arrAt_in 6 rfl _).trans (A_eq0 (Vin0 m) c 6))).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m c) ∗ ∃ r, prngReg c r)

/-! ## The regions as segments -/

set_option backward.isDefEq.respectTransparency.types false in
/-- Region 0 as a segment: its arrays split out of the unscoped buffers at entry and put back at the exit contents;
    the generator register goes into the region's invariant and comes back; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: its arrays split out of the unscoped buffers at entry and put back at the exit contents;
    the generator register goes into the region's invariant and comes back; nothing owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .host (hseg hostOps0_9 hostOps0_9_sub hostOps0_9_fresh (W9 m)),
    .region (reg0 m),
    .host (hseg hostOps1 hostOps1_sub hostOps1_fresh (W11 m)),
    .host (hseg hostOps1_1 hostOps1_1_sub hostOps1_1_fresh (W12 m)),
    .region (reg1 m),
    .host (hseg hostOps2 hostOps2_sub hostOps2_fresh (W14 m)) ]

set_option backward.isDefEq.respectTransparency.types false in
/-- From any memory with zero counters every weakly fair execution of @main terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W15 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-- The frame: every execution terminates and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W15_main_arg0 m c),
     (h c _ (mem_uc main_arg1 (by decide))).trans (W15_main_arg1 m c),
     (h c _ (mem_uc main_arg2 (by decide))).trans (W15_main_arg2 m c),
     (h c _ (mem_uc main_arg3 (by decide))).trans (W15_main_arg3 m c),
     (h c _ (mem_uc main_arg4 (by decide))).trans (W15_main_arg4 m c),
     (h c _ (mem_uc main_arg5 (by decide))).trans (W15_main_arg5 m c),
     (h c _ (mem_uc main_arg6 (by decide))).trans (W15_main_arg6 m c),
     (h c _ (mem_uc main_arg7 (by decide))).trans (W15_main_arg7 m c)⟩) (run_all m ρ)

end Cert.Kernel.Hand

end
-- ==== Proof.IdealR0Base.lean ====
/-
  The first region of the program: the streamed projections. Its grid has 25 points, one per tile of 4096 columns
  of the zero-padded vocabulary axis. At point k the body adds the products of the k-th column tiles
  (question × Wbᵀ, memory × Waᵀ, memory × Wcᵀ) into three accumulators it keeps between points; at the first
  point it first clears them, at the last point it writes them out (the two matrix accumulators with the
  temporal terms added). This module fixes what the per-case runs are stated over: the blocks of the input
  windows, the two conditions of the body decided over the grid, where the output windows rest, and the
  accumulators as memory references.
-/
import proofs.«179074_j41858751266982_1_alg».proof.Proof.Gen.KernelIdeal.Launch
import proofs.«179074_j41858751266982_1_alg».proof.Proof.Gen.KernelIdeal.Skeleton
import proofs.«179074_j41858751266982_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first point": the accumulators are cleared. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last point": the accumulators are written out. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point nothing is stored into output 7 and it is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Away from the last point nothing is stored into output 8 and it is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
/-- Away from the last point nothing is stored into output 9 and it is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The staging references at a point, and the accumulators -/

abbrev ms0_0 (t : Fin cfg0.N) : Memref sig .tc .vmem S1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x128 .f32 := win0_9.stage (cfg0.slots t 9)
abbrev hs0_9 (t : Fin cfg0.N) : (ms0_9 t).IsWhole := hstage0_9 ((cfg0.slots t 9).cast nbuf0_9)
abbrev VO0_7 : View sig .tc .vmem S1x128 .f32 := (Memref.whole cc0_stg7_0 : Memref sig .tc .vmem S1x128 .f32).view
abbrev VO0_8 : View sig .tc .vmem S200x128 .f32 := (Memref.whole cc0_stg8_0 : Memref sig .tc .vmem S200x128 .f32).view
abbrev VO0_9 : View sig .tc .vmem S200x128 .f32 := (Memref.whole cc0_stg9_0 : Memref sig .tc .vmem S200x128 .f32).view
abbrev scM0_0 : Memref sig .tc .vmem S1x128 .f32 := Memref.whole cc0_scratch0
abbrev VS0_0 : View sig .tc .vmem S1x128 .f32 := scM0_0.view
abbrev scM0_1 : Memref sig .tc .vmem S200x128 .f32 := Memref.whole cc0_scratch1
abbrev VS0_1 : View sig .tc .vmem S200x128 .f32 := scM0_1.view
abbrev scM0_2 : Memref sig .tc .vmem S200x128 .f32 := Memref.whole cc0_scratch2
abbrev VS0_2 : View sig .tc .vmem S200x128 .f32 := scM0_2.view

/-- The scoped buffers this region never touches (the other region's staging buffers), each at some contents. -/
abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region is handed besides its windows: the three accumulators at some contents, the untouched scoped
    buffers, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Rest0 c) ∗ (∃ r, prngReg c r)) := by
  unfold Pipeline.ΦA; rw [scopedRest0_eq]; simp only [scM0_0, scM0_1, scM0_2, owns_whole]; try rfl

end Cert.KernelIdeal.Hand

end
-- ==== Proof.IdealR0A.lean ====
/-
  The body of the first region at the FIRST grid point: the accumulators are cleared, then the first column
  tiles' products are added into them; nothing is stored into the output windows.
-/
import proofs.«179074_j41858751266982_1_alg».proof.Proof.IdealR0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging references, in this case of its two conditions: it runs to its end, handing the inputs
    back as they were and each buffer it stored into with those stores written, last first. The lists of stores are
    found by running the body. -/
noncomputable def kernelRun0_A (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) :
    Σ' (LS0 : List (View.Piece (Elt F) S1x128 .f32)) (LS1 : List (View.Piece (Elt F) S200x128 .f32)), { LS2 : List (View.Piece (Elt F) S200x128 .f32) //
      ∀ (xi7 : Vec F S1x128 .f32) (xi8 xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi7 xi8 xi9 E K => ?run⟩
  case run =>
    simp only [cc0__project_kernel_eq_skeleton]; unfold cc0__project_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    isplitl [HS1]; · iexists _; iexact HS1
    iexists _; iexact HS2

end Cert.KernelIdeal.Hand

end
-- ==== Proof.IdealR0B.lean ====
/-
  The body of the first region at a MIDDLE grid point: the point's column tiles' products are added into the
  accumulators, which hold what the point before left; nothing is stored into the output windows.
-/
import proofs.«179074_j41858751266982_1_alg».proof.Proof.IdealR0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging references, in this case of its two conditions: it runs to its end, handing the inputs
    back as they were and each buffer it stored into with those stores written, last first. The lists of stores are
    found by running the body. -/
noncomputable def kernelRun0_B (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    Σ' (LS0 : List (View.Piece (Elt F) S1x128 .f32)) (LS1 : List (View.Piece (Elt F) S200x128 .f32)), { LS2 : List (View.Piece (Elt F) S200x128 .f32) //
      ∀ (xi7 : Vec F S1x128 .f32) (xi8 xi9 : Vec F S200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi7 xi8 xi9 E K => ?run⟩
  case run =>
    simp only [cc0__project_kernel_eq_skeleton]; unfold cc0__project_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    isplitl [HS1]; · iexists _; iexact HS1
    iexists _; iexact HS2

end Cert.KernelIdeal.Hand

end
-- ==== Proof.IdealR0C.lean ====
/-
  The body of the first region at the LAST grid point: the last column tiles' products are added into the
  accumulators, and the three outputs are stored: the question's projection as accumulated, the two memory
  projections with the temporal terms added.
-/
import proofs.«179074_j41858751266982_1_alg».proof.Proof.IdealR0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging references, in this case of its two conditions: it runs to its end, handing the inputs
    back as they were and each buffer it stored into with those stores written, last first. The lists of stores are
    found by running the body. -/
noncomputable def kernelRun0_C (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    Σ' (L7 : List (View.Piece (Elt F) S1x128 .f32)) (L8 L9 : List (View.Piece (Elt F) S200x128 .f32)) (LS0 : List (View.Piece (Elt F) S1x128 .f32)) (LS1 : List (View.Piece (Elt F) S200x128 .f32)), { LS2 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__project_kernel_eq_skeleton]; unfold cc0__project_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Hand

end
-- ==== Proof.IdealR0.lean ====
/-
  The first region, point by point. What each of the three accumulators holds after point n is defined by
  recursion on n from what the body's stores leave in it: at the first point the cleared accumulator plus the
  first tiles' product, afterwards the previous contents plus the point's product. The region's invariant hands
  the body the accumulators at the previous point's contents and takes them back at this point's; the outputs
  rest until the last point, where they receive the accumulators (the matrix ones with the temporal terms added).
  From this: the proof data of the region and its body obligation at every point.
-/
import proofs.«179074_j41858751266982_1_alg».proof.Proof.IdealR0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave in the accumulators and the outputs -/

theorem scover0_A_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S1x128.size (by sl_kernel_rfl) y

/-- Accumulator 0 after the body in case A: its stores read back. -/
def sout0_A_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)

theorem scover0_A_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) (y : S200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S200x128.size (by sl_kernel_rfl) y

/-- Accumulator 1 after the body in case A: its stores read back. -/
def sout0_A_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) : Vec F S200x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)

theorem scover0_A_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) (y : S200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S200x128.size (by sl_kernel_rfl) y

/-- Accumulator 2 after the body in case A: its stores read back. -/
def sout0_A_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i)
    (x0 : Vec F S1x4096 .f32) (x1 : Vec F S200x4096 .f32) (x2 x3 x4 : Vec F S128x4096 .f32) (x5 x6 : Vec F S200x128 .f32) : Vec F S200x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

theorem scover0_B_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1x128.size (by sl_kernel_rfl) y

/-- Accumulator 0 after the body in case B: its stores read back. -/
def sout0_B_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

theorem scover0_B_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S200x128.size (by sl_kernel_rfl) y

/-- Accumulator 1 after the body in case B: its stores read back. -/
def sout0_B_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)

theorem scover0_B_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S200x128.size (by sl_kernel_rfl) y

/-- Accumulator 2 after the body in case B: its stores read back. -/
def sout0_B_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)

theorem scover0_C_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1 S1x128.size (by sl_kernel_rfl) y

/-- Accumulator 0 after the body in case C: its stores read back. -/
def sout0_C_0 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1)

theorem scover0_C_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.1 S200x128.size (by sl_kernel_rfl) y

/-- Accumulator 1 after the body in case C: its stores read back. -/
def sout0_C_1 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.1)

theorem scover0_C_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.2.1 S200x128.size (by sl_kernel_rfl) y

/-- Accumulator 2 after the body in case C: its stores read back. -/
def sout0_C_2 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.2.2.1)

theorem cover0_C_7 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1x128.size (by sl_kernel_rfl) y

/-- Output window 7's staging buffer after the body at the last point: its store read back. -/
def out0_C_7 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

theorem cover0_C_8 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S200x128.size (by sl_kernel_rfl) y

/-- Output window 8's staging buffer after the body at the last point: its store read back. -/
def out0_C_8 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)

theorem cover0_C_9 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) (y : S200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S200x128.size (by sl_kernel_rfl) y

/-- Output window 9's staging buffer after the body at the last point: its store read back. -/
def out0_C_9 (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i)
    (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) : Vec F S200x128 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)

/-! ## The accumulators after each point -/

/-- What the three accumulators hold after the body at position `n`: the case the position is in, run at the
    point's staging references and input blocks, over what the position before left. -/
def scrAt0 (c : Dev nD) : (n : ℕ) → n < cfg0.N → Vec F S1x128 .f32 × Vec F S200x128 .f32 × Vec F S200x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h1 : (n + 1) % 25 = 24 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => (fun h' => by (try dsimp only at h'); have hN : n + 1 < 25 := (lt_of_lt_of_eq hn (show cfg0.N = 25 from N_0)); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (scrAt0 c n (Nat.lt_of_succ_lt hn)).1 (scrAt0 c n (Nat.lt_of_succ_lt hn)).2.1 (scrAt0 c n (Nat.lt_of_succ_lt hn)).2.2)

theorem scrAt0_A (c : Dev nD) (t : Fin cfg0.N) (h0 : t.val % 25 = 0) (h1 : ¬t.val % 25 = 24) :
    scrAt0 V c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t),
      sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (by exfalso; (try dsimp only at h0); have hN : n + 1 < 25 := (lt_of_lt_of_eq hn (show cfg0.N = 25 from N_0)); omega)

theorem scrAt0_B (c : Dev nD) (t : Fin cfg0.N) (h0 : ¬t.val % 25 = 0) (h1 : ¬t.val % 25 = 24) :
    scrAt0 V c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem scrAt0_C (c : Dev nD) (t : Fin cfg0.N) (h0 : ¬t.val % 25 = 0) (h1 : t.val % 25 = 24) :
    scrAt0 V c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-- What the three output windows' staging buffers hold after the body at point `t`: at the last point the stores
    of that point; elsewhere the windows rest and this value is never consulted. -/
def outAt0 (c : Dev nD) (t : Fin cfg0.N) : Vec F S1x128 .f32 × Vec F S200x128 .f32 × Vec F S200x128 .f32 :=
  if h1 : t.val % 25 = 24 then
    (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => (fun h' => by omega) ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => (fun h' => by omega) ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => (fun h' => by omega) ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)
  else scrAt0 V c t.val t.isLt

theorem outAt0_C (c : Dev nD) (t : Fin cfg0.N) (h0 : ¬t.val % 25 = 0) (h1 : t.val % 25 = 24) :
    outAt0 V c t = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2,
      out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  unfold outAt0; exact (dif_pos h1).trans rfl

/-! ## The invariant -/

/-- Before position `n`: before the first point the accumulators at anything; afterwards at what the point before
    left in them. The scoped buffers the region never touches and the generator register ride along. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn).1 ∗ owns (c : Thread nD τ) scM0_1 fullShare (scrAt0 V c n hn).2.1 ∗ owns (c : Thread nD τ) scM0_2 fullShare (scrAt0 V c n hn).2.2 ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (scrAt0 V c n hn).1 ∗ owns (c : Thread nD τ) scM0_1 fullShare (scrAt0 V c n hn).2.1 ∗ owns (c : Thread nD τ) scM0_2 fullShare (scrAt0 V c n hn).2.2 ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (scrAt0 V c (n - 1) (by omega)).1 ∗ owns (c : Thread nD τ) scM0_1 fullShare (scrAt0 V c (n - 1) (by omega)).2.1 ∗ owns (c : Thread nD τ) scM0_2 fullShare (scrAt0 V c (n - 1) (by omega)).2.2 ∗ Rest0 c) ∗ (∃ r, prngReg c r)) := by
  cases n with
  | zero => exact absurd rfl hz
  | succ n => rfl

/-! ## The proof data -/

/-- The arrays as the region finds them; after the body each input's buffer at its block, each output's at `outAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outAt0 V c t).1
    | ⟨8, _⟩ => (outAt0 V c t).2.1
    | ⟨9, _⟩ => (outAt0 V c t).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outAt0 V c t).1 := by dsimp only [dat0]
theorem after0_8 (c : Dev nD) (t : Fin cfg0.N) : (dat0 V c).after 8 t = (outAt0 V c t).2.1 := by dsimp only [dat0]
theorem after0_9 (c : Dev nD) (t : Fin cfg0.N) : (dat0 V c).after 9 t = (outAt0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the closed forms of the two conditions say which case the point is in; the invariant hands
    the run the accumulators, the run's stores are read back as this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  by_cases h0 : t.val % 25 = 0
  · have h1 : ¬t.val % 25 = 24 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [Dat.leavesExact_idle (dat0 V c) 9 t (idleAt0_9 t (fun h => h1 ((hcond0_1 t).mp h))) (noFlush0_9 t (fun h => h1 ((hcond0_1 t).mp h)))]
    rw [scrAt0_A V c t h0 h1]
    unfold sout0_A_0 sout0_A_1 sout0_A_2; (try dsimp only)
    rw [PhiS0_castSucc V c t, PhiS0_zero V c _ _ hz, PhiA0_eq]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, ⟨%es0, HS0⟩, ⟨%es1, HS1⟩, ⟨%es2, HS2⟩⟩
    isplitl [HS0 HS1 HS2 HR Hg]
    · isplitl [HS0 HS1 HS2 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9
  · have hz : t.val ≠ 0 := by omega
    by_cases h1 : t.val % 25 = 24
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [show (dat0 V c).leavesExact 9 t = owns (c : Thread nD τ) (ms0_9 t) fullShare ((dat0 V c).after 9 t) from by
        unfold Dat.leavesExact; rw [liveAt0_9 t ((hcond0_1 t).mpr h1)], after0_9]
      rw [outAt0_C V c t h0 h1, scrAt0_C V c t h0 h1]
      unfold out0_C_7 out0_C_8 out0_C_9 sout0_C_0 sout0_C_1 sout0_C_2; (try dsimp only)
      rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, ⟨%e7, H7⟩, ⟨%e8, H8⟩, ⟨%e9, H9⟩, ⟨%es0, HS0⟩, ⟨%es1, HS1⟩, ⟨%es2, HS2⟩⟩
      isplitl [HS0 HS1 HS2 HR Hg]
      · isplitl [HS0 HS1 HS2 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _)
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [Dat.leavesExact_idle (dat0 V c) 9 t (idleAt0_9 t (fun h => h1 ((hcond0_1 t).mp h))) (noFlush0_9 t (fun h => h1 ((hcond0_1 t).mp h)))]
      rw [scrAt0_B V c t h0 h1]
      unfold sout0_B_0 sout0_B_1 sout0_B_2; (try dsimp only)
      rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, H9, ⟨%es0, HS0⟩, ⟨%es1, HS1⟩, ⟨%es2, HS2⟩⟩
      isplitl [HS0 HS1 HS2 HR Hg]
      · isplitl [HS0 HS1 HS2 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

end Cert.KernelIdeal.Hand

end
-- ==== Proof.IdealRegion1.lean ====
/- Region 1 of @main: the output projection, a pipeline of 8 grid points each multiplying the 1x128 row by one
   12800-row block of the padded weight matrix. Stated at a parameter V, the buffer contents when the region is
   entered: each window's block at a point, the body's effect on the staging buffers, the pipeline's proof data and
   the body obligation. -/
import proofs.«179074_j41858751266982_1_alg».proof.Proof.Gen.KernelIdeal.Launch
import proofs.«179074_j41858751266982_1_alg».proof.Proof.Gen.KernelIdeal.Skeleton
import proofs.«179074_j41858751266982_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is V's and whose body leaves the block in
    place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each of the three staging buffers whole -/

abbrev r1_0 : Rect S1x128 := Rect.unit (s := S1x128) ![0, 0] S1x128.size inb_S1x128_S1x128_0_0
abbrev r1_1 : Rect S12800x128 := Rect.unit (s := S12800x128) ![0, 0] S12800x128.size inb_S12800x128_S12800x128_0_0
abbrev r1_2 : Rect S1x12800 := Rect.unit (s := S1x12800) ![0, 0] S1x12800.size inb_S1x12800_S1x12800_0_0

/-! ## What the body leaves in the output window's buffer -/

/-- Window 2's staging buffer after the body, from the input windows' blocks: its one store, of the product of the
    two loaded blocks. -/
def out1_2 (x0 : Vec F S1x128 .f32) (x1 : Vec F S12800x128 .f32) : Vec F S1x12800 .f32 :=
  View.canon [⟨r1_2, k1_pay1 (View.ld x0 r1_0) (View.ld x1 r1_1)⟩]

/-- The one store covers the buffer. -/
theorem cover1_2 (p0 : Vec F S1x12800 .f32) (y : S1x12800.Idx) :
    ∃ pc ∈ ([⟨r1_2, p0⟩] : List (View.Piece (Elt F) S1x12800 .f32)), y ∈ pc.1.set :=
  View.cover_of_tiled [⟨r1_2, p0⟩] S1x12800.size (by rfl) y

/-! ## The body's triple -/

set_option maxHeartbeats 1000000 in
/-- The body on whole staging memrefs, the inputs' at contents x0, x1 and the output's at anything, runs to the
    continuation holding the inputs' as they were and the output's at out1_2 of the inputs'. -/
theorem sound_kernel1 (c : Dev nD) (E : Set ℕ) (i : grid1.Coords) (arg1 : Memref sig .tc .vmem S1x128 .f32) (harg1 : arg1.IsWhole) (arg2 : Memref sig .tc .vmem S12800x128 .f32) (harg2 : arg2.IsWhole) (arg3 : Memref sig .tc .vmem S1x12800 .f32) (harg3 : arg3.IsWhole)
    (x0 : Vec F S1x128 .f32) (x1 : Vec F S12800x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__output_kernel i arg1 harg1 arg2 harg2 arg3 harg3) K := by
  simp only [cc1__output_kernel_eq_skeleton]; unfold cc1__output_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core c: the arrays as the region finds them; after the body at point t each
    input's buffer at its block and the output's at out1_2 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so sound_kernel1 applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.IdealRun.lean ====
/-
  The whole program as a run. @main is fifteen items: ten stretches of host operations (the zero-paddings of the
  five streamed operands), the first region, two stretches (the three hops of attention; the padding of the
  output weights), the second region, and the final slice. The contents of the unscoped buffers at each boundary
  are a fold from the launch memory: a stretch applies its operations, a region replaces its windows' arrays by
  what its write-backs leave. Each region is entered from "every unscoped buffer at the boundary's contents" and
  left at the next boundary's; the launch theorem then says every execution ends with every unscoped buffer at
  the last boundary's contents. The argument arrays are never written, so they end as launched.
-/
import proofs.«179074_j41858751266982_1_alg».proof.Proof.Gen.KernelIdeal.Regions
import proofs.«179074_j41858751266982_1_alg».proof.Proof.IdealR0
import proofs.«179074_j41858751266982_1_alg».proof.Proof.IdealRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev W8 : Dev nD → Valuation τ sig (Elt F) := fun c => StableHlo.after hostOps0_7 (W7 m c)
abbrev W9 : Dev nD → Valuation τ sig (Elt F) := fun c => StableHlo.after hostOps0_8 (W8 m c)
abbrev W10 : Dev nD → Valuation τ sig (Elt F) := fun c => StableHlo.after hostOps0_9 (W9 m c)
/-- The first region's entry contents, read at the TensorCore's references. -/
abbrev Vin0 : (c : Dev nD) → (b : Ref sig .tc) → Buf (Elt F) ((c : Thread nD τ).loc b) := fun c b => W10 m c b
/-- At the first region's exit: its arrays at what the pipeline leaves, every other buffer as entered. -/
def W11 (c : Dev nD) : Valuation τ sig (Elt F) :=
  Pipeline.withArrays spec0 c (W10 m c) fun w => (dat0 (Vin0 m) c).arrAt w cfg0.N
theorem W11_arr (c : Dev nD) (w : Fin cfg0.W) :
    W11 m c (Proc.devRef .tc (Pipeline.arrRef spec0 w)) = (dat0 (Vin0 m) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m c (Proc.devRef .tc b) = W10 m c (Proc.devRef .tc b) := by
  unfold W11; exact Pipeline.withArrays_of_ne spec0 c _ _ b hb
abbrev Vout0 : (c : Dev nD) → (b : Ref sig .tc) → Buf (Elt F) ((c : Thread nD τ).loc b) := fun c b => W11 m c b
theorem hF0 (c : Dev nD) (w : Fin cfg0.W) : (dat0 (Vin0 m) c).arrAt w cfg0.N = Vout0 m c (Pipeline.arrRef spec0 w) :=
  (W11_arr m c w).symm
theorem hrest0 (c : Dev nD) : ∀ b, b ∉ Finset.univ.image (Pipeline.arrRef spec0) → Vout0 m c b = Vin0 m c b :=
  fun b hb => W11_of_ne m c b fun w e => hb (Finset.mem_image.mpr ⟨w, Finset.mem_univ _, e⟩)

abbrev W12 : Dev nD → Valuation τ sig (Elt F) := fun c => StableHlo.after hostOps1 (W11 m c)
abbrev W13 : Dev nD → Valuation τ sig (Elt F) := fun c => StableHlo.after hostOps1_1 (W12 m c)
/-- The second region's entry contents, read at the TensorCore's references. -/
abbrev Vin1 : (c : Dev nD) → (b : Ref sig .tc) → Buf (Elt F) ((c : Thread nD τ).loc b) := fun c b => W13 m c b
def W14 (c : Dev nD) : Valuation τ sig (Elt F) :=
  Pipeline.withArrays spec1 c (W13 m c) fun w => (dat1 (Vin1 m) c).arrAt w cfg1.N
theorem W14_arr (c : Dev nD) (w : Fin cfg1.W) :
    W14 m c (Proc.devRef .tc (Pipeline.arrRef spec1 w)) = (dat1 (Vin1 m) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m c (Proc.devRef .tc b) = W13 m c (Proc.devRef .tc b) := by
  unfold W14; exact Pipeline.withArrays_of_ne spec1 c _ _ b hb
abbrev Vout1 : (c : Dev nD) → (b : Ref sig .tc) → Buf (Elt F) ((c : Thread nD τ).loc b) := fun c b => W14 m c b
theorem hF1 (c : Dev nD) (w : Fin cfg1.W) : (dat1 (Vin1 m) c).arrAt w cfg1.N = Vout1 m c (Pipeline.arrRef spec1 w) :=
  (W14_arr m c w).symm
theorem hrest1 (c : Dev nD) : ∀ b, b ∉ Finset.univ.image (Pipeline.arrRef spec1) → Vout1 m c b = Vin1 m c b :=
  fun b hb => W14_of_ne m c b fun w e => hb (Finset.mem_image.mpr ⟨w, Finset.mem_univ _, e⟩)

abbrev W15 : Dev nD → Valuation τ sig (Elt F) := fun c => StableHlo.after hostOps2 (W14 m c)

/-! ## What an item leaves alone -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ hostOps0_3_W) : W4 m c r = W3 m c r :=
  StableHlo.after_of_writes_sub hostOps0_3 _ hostOps0_3_writes h
theorem W5_of (c : Dev nD) (r : Ref sig .tc) (h : r ∉ hostOps0_4_W) : W5 m c r = W4 m c r :=
  StableHlo.after_of_writes_sub hostOps0_4 _ hostOps0_4_writes h
theorem W6_of (c : Dev nD) (r : Ref sig .tc) (h : r ∉ hostOps0_5_W) : W6 m c r = W5 m c r :=
  StableHlo.after_of_writes_sub hostOps0_5 _ hostOps0_5_writes h
theorem W7_of (c : Dev nD) (r : Ref sig .tc) (h : r ∉ hostOps0_6_W) : W7 m c r = W6 m c r :=
  StableHlo.after_of_writes_sub hostOps0_6 _ hostOps0_6_writes h
theorem W8_of (c : Dev nD) (r : Ref sig .tc) (h : r ∉ hostOps0_7_W) : W8 m c r = W7 m c r :=
  StableHlo.after_of_writes_sub hostOps0_7 _ hostOps0_7_writes h
theorem W9_of (c : Dev nD) (r : Ref sig .tc) (h : r ∉ hostOps0_8_W) : W9 m c r = W8 m c r :=
  StableHlo.after_of_writes_sub hostOps0_8 _ hostOps0_8_writes h
theorem W10_of (c : Dev nD) (r : Ref sig .tc) (h : r ∉ hostOps0_9_W) : W10 m c r = W9 m c r :=
  StableHlo.after_of_writes_sub hostOps0_9 _ hostOps0_9_writes h
theorem W12_of (c : Dev nD) (r : Ref sig .tc) (h : r ∉ hostOps1_W) : W12 m c r = W11 m c r :=
  StableHlo.after_of_writes_sub hostOps1 _ hostOps1_writes h
theorem W13_of (c : Dev nD) (r : Ref sig .tc) (h : r ∉ hostOps1_1_W) : W13 m c r = W12 m c r :=
  StableHlo.after_of_writes_sub hostOps1_1 _ hostOps1_1_writes h
theorem W15_of (c : Dev nD) (r : Ref sig .tc) (h : r ∉ hostOps2_W) : W15 m c r = W14 m c r :=
  StableHlo.after_of_writes_sub hostOps2 _ hostOps2_writes h

/-! ## The arguments end as launched -/

theorem W15_main_arg0 (c : Dev nD) : W15 m c main_arg0 = m ((c : Thread nD τ).loc main_arg0) :=
  (W15_of m c main_arg0 (by decide)).trans <| (W14_of_ne m c main_arg0 (by decide)).trans <| (W13_of m c main_arg0 (by decide)).trans <| (W12_of m c main_arg0 (by decide)).trans <| (W11_of_ne m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W15_main_arg1 (c : Dev nD) : W15 m c main_arg1 = m ((c : Thread nD τ).loc main_arg1) :=
  (W15_of m c main_arg1 (by decide)).trans <| (W14_of_ne m c main_arg1 (by decide)).trans <| (W13_of m c main_arg1 (by decide)).trans <| (W12_of m c main_arg1 (by decide)).trans <| (W11_of_ne m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W15_main_arg2 (c : Dev nD) : W15 m c main_arg2 = m ((c : Thread nD τ).loc main_arg2) :=
  (W15_of m c main_arg2 (by decide)).trans <| (W14_of_ne m c main_arg2 (by decide)).trans <| (W13_of m c main_arg2 (by decide)).trans <| (W12_of m c main_arg2 (by decide)).trans <| (W11_of_ne m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W15_main_arg3 (c : Dev nD) : W15 m c main_arg3 = m ((c : Thread nD τ).loc main_arg3) :=
  (W15_of m c main_arg3 (by decide)).trans <| (W14_of_ne m c main_arg3 (by decide)).trans <| (W13_of m c main_arg3 (by decide)).trans <| (W12_of m c main_arg3 (by decide)).trans <| (W11_of_ne m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W15_main_arg4 (c : Dev nD) : W15 m c main_arg4 = m ((c : Thread nD τ).loc main_arg4) :=
  (W15_of m c main_arg4 (by decide)).trans <| (W14_of_ne m c main_arg4 (by decide)).trans <| (W13_of m c main_arg4 (by decide)).trans <| (W12_of m c main_arg4 (by decide)).trans <| (W11_of_ne m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W15_main_arg5 (c : Dev nD) : W15 m c main_arg5 = m ((c : Thread nD τ).loc main_arg5) :=
  (W15_of m c main_arg5 (by decide)).trans <| (W14_of_ne m c main_arg5 (by decide)).trans <| (W13_of m c main_arg5 (by decide)).trans <| (W12_of m c main_arg5 (by decide)).trans <| (W11_of_ne m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W15_main_arg6 (c : Dev nD) : W15 m c main_arg6 = m ((c : Thread nD τ).loc main_arg6) :=
  (W15_of m c main_arg6 (by decide)).trans <| (W14_of_ne m c main_arg6 (by decide)).trans <| (W13_of m c main_arg6 (by decide)).trans <| (W12_of m c main_arg6 (by decide)).trans <| ((W11_arr m c 5).trans (((dat0 (Vin0 m) c).arrAt_in 5 rfl _).trans (A_eq0 (Vin0 m) c 5))).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W15_main_arg7 (c : Dev nD) : W15 m c main_arg7 = m ((c : Thread nD τ).loc main_arg7) :=
  (W15_of m c main_arg7 (by decide)).trans <| (W14_of_ne m c main_arg7 (by decide)).trans <| (W13_of m c main_arg7 (by decide)).trans <| (W12_of m c main_arg7 (by decide)).trans <| ((W11_arr m c 6).trans (((dat0 (Vin0 m) c).arrAt_in 6 rfl _).trans (A_eq0 (Vin0 m) c 6))).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m c) ∗ ∃ r, prngReg c r)

/-! ## The regions as segments -/

set_option backward.isDefEq.respectTransparency.types false in
/-- Region 0 as a segment: its arrays split out of the unscoped buffers at entry and put back at the exit contents;
    the generator register goes into the region's invariant and comes back; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: its arrays split out of the unscoped buffers at entry and put back at the exit contents;
    the generator register goes into the region's invariant and comes back; nothing owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .host (hseg hostOps0_9 hostOps0_9_sub hostOps0_9_fresh (W9 m)),
    .region (reg0 m),
    .host (hseg hostOps1 hostOps1_sub hostOps1_fresh (W11 m)),
    .host (hseg hostOps1_1 hostOps1_1_sub hostOps1_1_fresh (W12 m)),
    .region (reg1 m),
    .host (hseg hostOps2 hostOps2_sub hostOps2_fresh (W14 m)) ]

set_option backward.isDefEq.respectTransparency.types false in
/-- From any memory with zero counters every weakly fair execution of @main terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W15 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-- The frame: every execution terminates and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W15_main_arg0 m c),
     (h c _ (mem_uc main_arg1 (by decide))).trans (W15_main_arg1 m c),
     (h c _ (mem_uc main_arg2 (by decide))).trans (W15_main_arg2 m c),
     (h c _ (mem_uc main_arg3 (by decide))).trans (W15_main_arg3 m c),
     (h c _ (mem_uc main_arg4 (by decide))).trans (W15_main_arg4 m c),
     (h c _ (mem_uc main_arg5 (by decide))).trans (W15_main_arg5 m c),
     (h c _ (mem_uc main_arg6 (by decide))).trans (W15_main_arg6 m c),
     (h c _ (mem_uc main_arg7 (by decide))).trans (W15_main_arg7 m c)⟩) (run_all m ρ)

end Cert.KernelIdeal.Hand

end
-- ==== Proof.Hops.lean ====
/-
  One hop of the memory network, and three hops in a row, as pure terms.

  A hop takes the query `q : [1, 128]`, the input memory `cA : [200, 128]` and the output memory `cC : [200, 128]`:
  the scores are `(q · cAᵀ)ᵀ : [200, 1]`; their softmax over the 200 slots is `exp (s - max s) / Σ exp (s - max s)`,
  the maximum taken against `-∞` and the sum against `0`; the hop's result is `softmaxᵀ · cC + q : [1, 128]`.
  The terms are written operation by operation, in the order and nesting in which a host program computes them, so
  that a program's composed term is one of these by unfolding.
-/
import Idealize.ShloMosaic.PureOps

noncomputable section

namespace Cert.Hops

open Idealize.ShloMosaic

variable {F : FTy → Type} [FloatOps F]

/-- The scores of the 200 slots against the query: `(q · cAᵀ)ᵀ`. -/
def scores (q : FVec F ⟨2, ![1, 128]⟩ .f32) (cA : FVec F ⟨2, ![200, 128]⟩ .f32) : FVec F ⟨2, ![200, 1]⟩ .f32 :=
  transpose ⟨2, ![200, 1]⟩ [1, 0]
    (Host.dotGeneral (F := F) (DotDims.plain 1 128 200) none q (transpose ⟨2, ![128, 200]⟩ [1, 0] cA (by decide)))
    (by decide)

/-- The exponentials of the scores less their maximum (the maximum taken against `-∞`, twice). -/
def expd (q : FVec F ⟨2, ![1, 128]⟩ .f32) (cA : FVec F ⟨2, ![200, 128]⟩ .f32) : FVec F ⟨2, ![200, 1]⟩ .f32 :=
  Host.exp (F := F) (subf (scores q cA)
    (broadcastInDim ⟨2, ![200, 1]⟩ ![0, 1] (by decide)
      (broadcastInDim ⟨2, ![1, 1]⟩ ![1] (by decide)
        (maximumf (broadcastInDim ⟨1, ![1]⟩ ![] (by decide) (constant (F := F) ⟨0, ![]⟩ .f32 0xFF800000#32))
          (Host.reduce FloatOps.maximumf (scores q cA) (constant (F := F) ⟨0, ![]⟩ .f32 0xFF800000#32)
            (axes := [0]) (t := ⟨1, ![1]⟩) (by decide) (by decide))))))

/-- One hop: the softmax weights, transposed, times the output memory, plus the query. -/
def hop (q : FVec F ⟨2, ![1, 128]⟩ .f32) (cA cC : FVec F ⟨2, ![200, 128]⟩ .f32) : FVec F ⟨2, ![1, 128]⟩ .f32 :=
  addf
    (Host.dotGeneral (F := F) (DotDims.plain 1 200 128) none
      (transpose ⟨2, ![1, 200]⟩ [1, 0]
        (Host.divf (F := F) (expd q cA)
          (broadcastInDim ⟨2, ![200, 1]⟩ ![0, 1] (by decide)
            (broadcastInDim ⟨2, ![1, 1]⟩ ![1] (by decide)
              (Host.reduceAdd (F := F) (expd q cA) (constant (F := F) ⟨0, ![]⟩ .f32 0x00000000#32)
                (axes := [0]) (t := ⟨1, ![1]⟩) (by decide) (by decide)))))
        (by decide))
      cC)
    q

/-- Three hops in a row over the same memories. -/
def hops (q : FVec F ⟨2, ![1, 128]⟩ .f32) (cA cC : FVec F ⟨2, ![200, 128]⟩ .f32) : FVec F ⟨2, ![1, 128]⟩ .f32 :=
  hop (hop (hop q cA cC) cA cC) cA cC

end Cert.Hops

end
-- ==== Proof.KernelTail.lean ====
/-
  The kernel's host operations between its two regions are three hops.

  From any contents of the device's buffers, once the operations between the first region and the second have run,
  the buffer holding the last hop's result is three hops from the first region's three results: the embedded
  question, and the two embedded memories with their temporal terms.
-/
import proofs.«179074_j41858751266982_1_alg».proof.Proof.Gen.KernelIdeal.Launch
import proofs.«179074_j41858751266982_1_alg».proof.Proof.Hops

noncomputable section

namespace Cert.KernelTail

open Cert.KernelIdeal Cert.KernelIdeal.Gen Idealize.ShloMosaic Idealize.ShloMosaic.TcCoe Idealize.SL.Sem
  Idealize.ShloMosaic.StableHlo

variable {F : FTy → Type} [FloatOps F]

set_option maxRecDepth 8192 in
set_option maxHeartbeats 4000000 in
/-- After the operations between the regions, the last hop's buffer holds three hops from the first region's results. -/
theorem tail_result (W : Valuation τ sig (Elt F)) :
    StableHlo.after (hostOps1 (F := F)) W (Proc.devRef .tc main_v56)
      = Cert.Hops.hops (W (Proc.devRef .tc main_v5_0)) (W (Proc.devRef .tc main_v5_1)) (W (Proc.devRef .tc main_v5_2)) := by
  after_results_simp
  rfl

end Cert.KernelTail

end
-- ==== Proof.IdealGlue.lean ====
/- The program between its boundaries, read: which term each buffer the two regions and the final slice read holds
   (a zero-padding of an argument, three hops from the first region's results, what a region's write-backs leave),
   and a zero-padded array and the final slice read at an index. The streamed operands are padded along the
   vocabulary axis from 100000 to 102400 with the integer zero converted, which is zero at the ideal values, so the
   padded columns contribute nothing to any product. -/
import proofs.«179074_j41858751266982_1_alg».proof.Proof.IdealRun
import proofs.«179074_j41858751266982_1_alg».proof.Proof.KernelTail
import Idealize.ShloMosaic.Lib.KernelVsHost
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
  Idealize.ShloMosaic.StableHlo
open Idealize.ShloMosaic.ValueIdx
open scoped BigOperators

section Boundaries

variable {F : FTy → Type} [FloatOps F]
variable (m : (ℓ : Loc nD τ sig) → Buf (Elt F) ℓ)

/-! ## The program's boundaries read: what each buffer the two regions and the final slice read holds -/

/-- The result is the first 100000 columns of what the second region leaves. -/
theorem W15_main_v59 (c : Dev nD) :
    W15 m c main_v59 = extractStridedSlice S1x100000 ![0, 0] (W14 m c main_v58 : (⟨S1x102400, .f32⟩ : BufTy).Contents (Elt F)) slices_S1x102400_S1x100000_0_0 := by
  show StableHlo.after hostOps2 (W14 m c) (Proc.devRef .tc main_v59) = _
  after_results

/-- The second region's result array is what its write-backs leave. -/
theorem W14_main_v58 (c : Dev nD) : W14 m c main_v58 = (dat1 (Vin1 m) c).arrAt 2 cfg1.N := W14_arr m c 2

/-- The row the second region multiplies is three hops from the first region's three results. -/
theorem Vin1_main_v56 (c : Dev nD) :
    Vin1 m c main_v56 = Cert.Hops.hops (W11 m c main_v5_0) (W11 m c main_v5_1) (W11 m c main_v5_2) :=
  (W13_of m c main_v56 (by decide)).trans (Cert.KernelTail.tail_result (W11 m c))

/-- The first region's three results are what its write-backs leave. -/
theorem W11_main_v5_0 (c : Dev nD) : W11 m c main_v5_0 = (dat0 (Vin0 m) c).arrAt 7 cfg0.N := W11_arr m c 7
theorem W11_main_v5_1 (c : Dev nD) : W11 m c main_v5_1 = (dat0 (Vin0 m) c).arrAt 8 cfg0.N := W11_arr m c 8
theorem W11_main_v5_2 (c : Dev nD) : W11 m c main_v5_2 = (dat0 (Vin0 m) c).arrAt 9 cfg0.N := W11_arr m c 9

/-- The zero-padded question as the first region finds it: no later stretch writes it, and its own stretch pads the
    argument with the converted integer zero. -/
theorem Vin0_main_v0 (c : Dev nD) :
    Vin0 m c main_v0 = pad S1x102400 ![0, 0] ![0, 2400] ![0, 0] (m ((c : Thread nD τ).loc main_arg0)) (sitofp .f32 (constantI S_ 32 0#32)) pads_S1x100000_S1x102400_000_024000 h_S_ := by
  refine ((W10_of m c main_v0 (by decide)).trans <| (W9_of m c main_v0 (by decide)).trans <| (W8_of m c main_v0 (by decide)).trans <| (W7_of m c main_v0 (by decide)).trans <| (W6_of m c main_v0 (by decide)).trans <| (W5_of m c main_v0 (by decide)).trans <| (W4_of m c main_v0 (by decide)).trans <| (W3_of m c main_v0 (by decide)).trans <| (rfl : W2 m c main_v0 = W2 m c main_v0)).trans ?_
  show StableHlo.after hostOps0_1 (W1 m c) (Proc.devRef .tc main_v0) = _
  after_results
  rfl

/-- The zero-padded memory as the first region finds it: no later stretch writes it, and its own stretch pads the
    argument with the converted integer zero. -/
theorem Vin0_main_v1 (c : Dev nD) :
    Vin0 m c main_v1 = pad S200x102400 ![0, 0] ![0, 2400] ![0, 0] (m ((c : Thread nD τ).loc main_arg1)) (sitofp .f32 (constantI S_ 32 0#32)) pads_S200x100000_S200x102400_000_024000 h_S_ := by
  refine ((W10_of m c main_v1 (by decide)).trans <| (W9_of m c main_v1 (by decide)).trans <| (W8_of m c main_v1 (by decide)).trans <| (W7_of m c main_v1 (by decide)).trans <| (W6_of m c main_v1 (by decide)).trans <| (W5_of m c main_v1 (by decide)).trans <| (rfl : W4 m c main_v1 = W4 m c main_v1)).trans ?_
  show StableHlo.after hostOps0_3 (W3 m c) (Proc.devRef .tc main_v1) = _
  after_results
  rfl

/-- The zero-padded first projection matrix as the first region finds it: no later stretch writes it, and its own stretch pads the
    argument with the converted integer zero. -/
theorem Vin0_main_v2 (c : Dev nD) :
    Vin0 m c main_v2 = pad S128x102400 ![0, 0] ![0, 2400] ![0, 0] (m ((c : Thread nD τ).loc main_arg2)) (sitofp .f32 (constantI S_ 32 0#32)) pads_S128x100000_S128x102400_000_024000 h_S_ := by
  refine ((W10_of m c main_v2 (by decide)).trans <| (W9_of m c main_v2 (by decide)).trans <| (W8_of m c main_v2 (by decide)).trans <| (W7_of m c main_v2 (by decide)).trans <| (rfl : W6 m c main_v2 = W6 m c main_v2)).trans ?_
  show StableHlo.after hostOps0_5 (W5 m c) (Proc.devRef .tc main_v2) = _
  after_results
  rfl

/-- The zero-padded second projection matrix as the first region finds it: no later stretch writes it, and its own stretch pads the
    argument with the converted integer zero. -/
theorem Vin0_main_v3 (c : Dev nD) :
    Vin0 m c main_v3 = pad S128x102400 ![0, 0] ![0, 2400] ![0, 0] (m ((c : Thread nD τ).loc main_arg3)) (sitofp .f32 (constantI S_ 32 0#32)) pads_S128x100000_S128x102400_000_024000 h_S_ := by
  refine ((W10_of m c main_v3 (by decide)).trans <| (W9_of m c main_v3 (by decide)).trans <| (rfl : W8 m c main_v3 = W8 m c main_v3)).trans ?_
  show StableHlo.after hostOps0_7 (W7 m c) (Proc.devRef .tc main_v3) = _
  after_results
  rfl

/-- The zero-padded third projection matrix as the first region finds it: no later stretch writes it, and its own stretch pads the
    argument with the converted integer zero. -/
theorem Vin0_main_v4 (c : Dev nD) :
    Vin0 m c main_v4 = pad S128x102400 ![0, 0] ![0, 2400] ![0, 0] (m ((c : Thread nD τ).loc main_arg4)) (sitofp .f32 (constantI S_ 32 0#32)) pads_S128x100000_S128x102400_000_024000 h_S_ := by
  refine ((rfl : W10 m c main_v4 = W10 m c main_v4)).trans ?_
  show StableHlo.after hostOps0_9 (W9 m c) (Proc.devRef .tc main_v4) = _
  after_results
  rfl

/-- The two temporal arguments reach the first region as launched. -/
theorem Vin0_main_arg6 (c : Dev nD) : Vin0 m c main_arg6 = m ((c : Thread nD τ).loc main_arg6) :=
  (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem Vin0_main_arg7 (c : Dev nD) : Vin0 m c main_arg7 = m ((c : Thread nD τ).loc main_arg7) :=
  (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl

/-- The stretch between the regions ends by writing the integer zero the last padding converts. -/
theorem hostOps1_main_c_12 (Wv : Valuation τ sig (Elt F)) :
    StableHlo.after (hostOps1 (F := F)) Wv (Proc.devRef .tc main_c_12) = constantI S_ 32 0#32 := by
  after_results_simp
/-- The last padding, from any contents: the output weights padded with the converted integer it finds. -/
theorem hostOps1_1_main_v57 (Wv : Valuation τ sig (Elt F)) :
    StableHlo.after (hostOps1_1 (F := F)) Wv (Proc.devRef .tc main_v57)
      = pad S102400x128 ![0, 0] ![2400, 0] ![0, 0] (Wv (Proc.devRef .tc main_arg5) : (⟨S100000x128, .f32⟩ : BufTy).Contents (Elt F))
          (sitofp .f32 (Wv (Proc.devRef .tc main_c_12) : (⟨S_, .i32⟩ : BufTy).Contents (Elt F))) pads_S100000x128_S102400x128_024000_000 h_S_ := by
  after_results
  rfl
/-- The output weights reach that padding as launched. -/
theorem W12_main_arg5 (c : Dev nD) : W12 m c main_arg5 = m ((c : Thread nD τ).loc main_arg5) :=
  (W12_of m c main_arg5 (by decide)).trans <| (W11_of_ne m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
/-- The zero-padded output weights as the second region finds them. -/
theorem Vin1_main_v57 (c : Dev nD) :
    Vin1 m c main_v57 = pad S102400x128 ![0, 0] ![2400, 0] ![0, 0] (m ((c : Thread nD τ).loc main_arg5)) (sitofp .f32 (constantI S_ 32 0#32)) pads_S100000x128_S102400x128_024000_000 h_S_ := by
  refine (hostOps1_1_main_v57 (W12 m c)).trans ?_
  rw [show W12 m c (Proc.devRef .tc main_c_12) = constantI S_ 32 0#32 from hostOps1_main_c_12 (W11 m c),
    show W12 m c (Proc.devRef .tc main_arg5) = m ((c : Thread nD τ).loc main_arg5) from W12_main_arg5 m c]

end Boundaries

/-! ## A zero-padded array and a slice, read at an index -/

section PadRead
variable {α : Type}

/-- Padding the column axis from 100000 to 102400 on the high side: a column below 100000 reads the operand. -/
theorem padCols_inside {n : Nat} (x : (⟨2, ![n, 100000]⟩ : Shape).Idx → α) {u : Shape} (v : u.Idx → α)
    (h : (⟨2, ![n, 100000]⟩ : Shape).Pads (![0, 0] : Fin 2 → Nat) ![0, 2400] ![0, 0] ⟨2, ![n, 102400]⟩) (hu : 0 < u.numel)
    (r : Fin n) (q : Fin 102400) (hq : q.val < 100000) :
    pad ⟨2, ![n, 102400]⟩ ![0, 0] ![0, 2400] ![0, 0] x v h hu (ix2 r q) = x (ix2 r (⟨q.val, hq⟩ : Fin 100000)) := by
  refine pad_apply_of_inside ![0, 0] ![0, 2400] ![0, 0] x v h hu (ix2 r q) (ix2 r (⟨q.val, hq⟩ : Fin 100000)) fun a => ?_
  match a with
  | ⟨0, _⟩ => show r.val = 0 + r.val * (0 + 1); omega
  | ⟨1, _⟩ => show q.val = 0 + q.val * (0 + 1); omega

/-- A column from 100000 on reads the padding value. -/
theorem padCols_outside {n : Nat} (x : (⟨2, ![n, 100000]⟩ : Shape).Idx → α) {u : Shape} (v : u.Idx → α)
    (h : (⟨2, ![n, 100000]⟩ : Shape).Pads (![0, 0] : Fin 2 → Nat) ![0, 2400] ![0, 0] ⟨2, ![n, 102400]⟩) (hu : 0 < u.numel)
    (r : Fin n) (q : Fin 102400) (hq : 100000 ≤ q.val) :
    pad ⟨2, ![n, 102400]⟩ ![0, 0] ![0, 2400] ![0, 0] x v h hu (ix2 r q) = v (Shape.Idx.first hu) := by
  refine pad_apply_of_not_inside ![0, 0] ![0, 2400] ![0, 0] x v h hu (ix2 r q) (1 : Fin 2) fun hin => ?_
  have h3 : (q.val - 0) / (0 + 1) < 100000 := hin.2.2
  omega

/-- Padding the row axis from 100000 to 102400 on the high side: a row below 100000 reads the operand. -/
theorem padRows_inside {n : Nat} (x : (⟨2, ![100000, n]⟩ : Shape).Idx → α) {u : Shape} (v : u.Idx → α)
    (h : (⟨2, ![100000, n]⟩ : Shape).Pads (![0, 0] : Fin 2 → Nat) ![2400, 0] ![0, 0] ⟨2, ![102400, n]⟩) (hu : 0 < u.numel)
    (q : Fin 102400) (d : Fin n) (hq : q.val < 100000) :
    pad ⟨2, ![102400, n]⟩ ![0, 0] ![2400, 0] ![0, 0] x v h hu (ix2 q d) = x (ix2 (⟨q.val, hq⟩ : Fin 100000) d) := by
  refine pad_apply_of_inside ![0, 0] ![2400, 0] ![0, 0] x v h hu (ix2 q d) (ix2 (⟨q.val, hq⟩ : Fin 100000) d) fun a => ?_
  match a with
  | ⟨0, _⟩ => show q.val = 0 + q.val * (0 + 1); omega
  | ⟨1, _⟩ => show d.val = 0 + d.val * (0 + 1); omega

/-- A row from 100000 on reads the padding value. -/
theorem padRows_outside {n : Nat} (x : (⟨2, ![100000, n]⟩ : Shape).Idx → α) {u : Shape} (v : u.Idx → α)
    (h : (⟨2, ![100000, n]⟩ : Shape).Pads (![0, 0] : Fin 2 → Nat) ![2400, 0] ![0, 0] ⟨2, ![102400, n]⟩) (hu : 0 < u.numel)
    (q : Fin 102400) (d : Fin n) (hq : 100000 ≤ q.val) :
    pad ⟨2, ![102400, n]⟩ ![0, 0] ![2400, 0] ![0, 0] x v h hu (ix2 q d) = v (Shape.Idx.first hu) := by
  refine pad_apply_of_not_inside ![0, 0] ![2400, 0] ![0, 0] x v h hu (ix2 q d) (0 : Fin 2) fun hin => ?_
  have h3 : (q.val - 0) / (0 + 1) < 100000 := hin.2.2
  omega

/-- The first 100000 columns of a row of 102400, read at a column. -/
theorem sliceCols_apply (y : S1x102400.Idx → α) (v : Fin 100000) :
    extractStridedSlice S1x100000 ![0, 0] y slices_S1x102400_S1x100000_0_0 (ix2 (0 : Fin 1) v)
      = y (ix2 (0 : Fin 1) (⟨v.val, Nat.lt_trans v.isLt (by decide)⟩ : Fin 102400)) := by
  refine extractStridedSlice_apply ![0, 0] y slices_S1x102400_S1x100000_0_0 (ix2 (0 : Fin 1) v) _ fun a => ?_
  match a with
  | ⟨0, _⟩ => show 0 = 0 + 0; rfl
  | ⟨1, _⟩ => show v.val = 0 + v.val; omega

end PadRead

/-- The padding value of every zero-padding of this program, the integer zero converted, is zero at the ideal values. -/
theorem padValue_zero (i : S_.Idx) : (sitofp .f32 (constantI S_ 32 0#32) : FVec Ideal S_ .f32) i = 0 :=
  sitofp_zero

/-! ## At the ideal values the padding is zero -/

/-- A padded column from 100000 on is zero. -/
theorem padCols_zero {n : Nat} (x : FVec Ideal ⟨2, ![n, 100000]⟩ .f32)
    (h : (⟨2, ![n, 100000]⟩ : Shape).Pads (![0, 0] : Fin 2 → Nat) ![0, 2400] ![0, 0] ⟨2, ![n, 102400]⟩)
    (r : Fin n) (q : Fin 102400) (hq : 100000 ≤ q.val) :
    pad ⟨2, ![n, 102400]⟩ ![0, 0] ![0, 2400] ![0, 0] x (sitofp .f32 (constantI S_ 32 0#32) : FVec Ideal S_ .f32) h h_S_ (ix2 r q) = 0 :=
  (padCols_outside x _ h h_S_ r q hq).trans (padValue_zero _)

/-- A padded row from 100000 on is zero. -/
theorem padRows_zero {n : Nat} (x : FVec Ideal ⟨2, ![100000, n]⟩ .f32)
    (h : (⟨2, ![100000, n]⟩ : Shape).Pads (![0, 0] : Fin 2 → Nat) ![2400, 0] ![0, 0] ⟨2, ![102400, n]⟩)
    (q : Fin 102400) (d : Fin n) (hq : 100000 ≤ q.val) :
    pad ⟨2, ![102400, n]⟩ ![0, 0] ![2400, 0] ![0, 0] x (sitofp .f32 (constantI S_ 32 0#32) : FVec Ideal S_ .f32) h h_S_ (ix2 q d) = 0 :=
  (padRows_outside x _ h h_S_ q d hq).trans (padValue_zero _)

/-- The four paddings of this program at their own shapes (instances of the lemmas above). -/
theorem padQuestion_lt (x : FVec Ideal S1x100000 .f32) (q : Fin 102400) (hq : q.val < 100000) :
    pad S1x102400 ![0, 0] ![0, 2400] ![0, 0] x (sitofp .f32 (constantI S_ 32 0#32)) pads_S1x100000_S1x102400_000_024000 h_S_ (ix2 (0 : Fin 1) q)
      = x (ix2 (0 : Fin 1) (⟨q.val, hq⟩ : Fin 100000)) :=
  padCols_inside x _ pads_S1x100000_S1x102400_000_024000 h_S_ 0 q hq
theorem padQuestion_ge (x : FVec Ideal S1x100000 .f32) (q : Fin 102400) (hq : 100000 ≤ q.val) :
    pad S1x102400 ![0, 0] ![0, 2400] ![0, 0] x (sitofp .f32 (constantI S_ 32 0#32)) pads_S1x100000_S1x102400_000_024000 h_S_ (ix2 (0 : Fin 1) q) = 0 :=
  padCols_zero x pads_S1x100000_S1x102400_000_024000 0 q hq
theorem padMemory_lt (x : FVec Ideal S200x100000 .f32) (r : Fin 200) (q : Fin 102400) (hq : q.val < 100000) :
    pad S200x102400 ![0, 0] ![0, 2400] ![0, 0] x (sitofp .f32 (constantI S_ 32 0#32)) pads_S200x100000_S200x102400_000_024000 h_S_ (ix2 r q)
      = x (ix2 r (⟨q.val, hq⟩ : Fin 100000)) :=
  padCols_inside x _ pads_S200x100000_S200x102400_000_024000 h_S_ r q hq
theorem padMemory_ge (x : FVec Ideal S200x100000 .f32) (r : Fin 200) (q : Fin 102400) (hq : 100000 ≤ q.val) :
    pad S200x102400 ![0, 0] ![0, 2400] ![0, 0] x (sitofp .f32 (constantI S_ 32 0#32)) pads_S200x100000_S200x102400_000_024000 h_S_ (ix2 r q) = 0 :=
  padCols_zero x pads_S200x100000_S200x102400_000_024000 r q hq
theorem padProj_lt (x : FVec Ideal S128x100000 .f32) (d : Fin 128) (q : Fin 102400) (hq : q.val < 100000) :
    pad S128x102400 ![0, 0] ![0, 2400] ![0, 0] x (sitofp .f32 (constantI S_ 32 0#32)) pads_S128x100000_S128x102400_000_024000 h_S_ (ix2 d q)
      = x (ix2 d (⟨q.val, hq⟩ : Fin 100000)) :=
  padCols_inside x _ pads_S128x100000_S128x102400_000_024000 h_S_ d q hq
theorem padProj_ge (x : FVec Ideal S128x100000 .f32) (d : Fin 128) (q : Fin 102400) (hq : 100000 ≤ q.val) :
    pad S128x102400 ![0, 0] ![0, 2400] ![0, 0] x (sitofp .f32 (constantI S_ 32 0#32)) pads_S128x100000_S128x102400_000_024000 h_S_ (ix2 d q) = 0 :=
  padCols_zero x pads_S128x100000_S128x102400_000_024000 d q hq
theorem padOut_lt (x : FVec Ideal S100000x128 .f32) (q : Fin 102400) (d : Fin 128) (hq : q.val < 100000) :
    pad S102400x128 ![0, 0] ![2400, 0] ![0, 0] x (sitofp .f32 (constantI S_ 32 0#32)) pads_S100000x128_S102400x128_024000_000 h_S_ (ix2 q d)
      = x (ix2 (⟨q.val, hq⟩ : Fin 100000) d) :=
  padRows_inside x _ pads_S100000x128_S102400x128_024000_000 h_S_ q d hq
theorem padOut_ge (x : FVec Ideal S100000x128 .f32) (q : Fin 102400) (d : Fin 128) (hq : 100000 ≤ q.val) :
    pad S102400x128 ![0, 0] ![2400, 0] ![0, 0] x (sitofp .f32 (constantI S_ 32 0#32)) pads_S100000x128_S102400x128_024000_000 h_S_ (ix2 q d) = 0 :=
  padRows_zero x pads_S100000x128_S102400x128_024000_000 q d hq

end Cert.KernelIdeal.Hand

end
-- ==== Proof.IdealRegion1Value.lean ====
/- What region 1 of @main leaves in its result array, at the ideal values: column v of the 1x102400 result is the
   1x128 row against row v of the zero-padded 102400x128 weight matrix, summed over the 128 features. The body's
   one stored value is read at an index (a contraction over the last axis of both operands into a zero accumulator);
   at grid point t the row's window stays at block (0, 0) while the weight matrix's row block and the result's column
   block are both t, so what point t writes back is block t of one whole-array function; the eight column blocks
   cover the array. -/
import proofs.«179074_j41858751266982_1_alg».proof.Proof.IdealRegion1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The body's one stored value at column j of its block: the row against row j of the weight block, summed over
    the 128 features. The two casts to the same shape and the two narrowings are the identity on extended reals, the
    accumulator is zero, and the contraction runs over the last axis of both operands. -/
theorem pay1_apply (x0 : Vec Ideal S1x128 .f32) (x1 : Vec Ideal S12800x128 .f32) (j : Fin 12800) :
    k1_pay1 (F := Ideal) x0 x1 (ix2 (0 : Fin 1) j) = ∑ d : Fin 128, x0 (ix2 (0 : Fin 1) d) * x1 (ix2 j d) := by
  unfold k1_pay1
  rw [shapeCast_self, shapeCast_self]
  refine (Ideal.matmul_constant_zero_apply dot_S1x128_S12800x128_S1x12800_1_1_0_0_n_n none _ _ (ix2 (0 : Fin 1) j)).trans ?_
  rw [← Equiv.sum_comp (contrEquiv1 dot_S1x128_S12800x128_S1x12800_1_1_0_0_n_n 128 rfl rfl).symm]
  refine Finset.sum_congr rfl fun d _ => ?_
  have c2 := contrEquiv1_symm_val dot_S1x128_S12800x128_S1x12800_1_1_0_0_n_n 128 rfl rfl d
  have l2 : dot_S1x128_S12800x128_S1x12800_1_1_0_0_n_n.lhsIdx (ix2 (0 : Fin 1) j)
      ((contrEquiv1 dot_S1x128_S12800x128_S1x12800_1_1_0_0_n_n 128 rfl rfl).symm d) = ix2 (0 : Fin 1) d := by
    funext ax; apply Fin.ext
    match ax with
    | ⟨0, _⟩ => simp [DotDims.lhsIdx, dot_S1x128_S12800x128_S1x12800_1_1_0_0_n_n]; try rfl
    | ⟨1, _⟩ => simp [DotDims.lhsIdx, dot_S1x128_S12800x128_S1x12800_1_1_0_0_n_n]; try exact c2
  have r2 : dot_S1x128_S12800x128_S1x12800_1_1_0_0_n_n.rhsIdx (ix2 (0 : Fin 1) j)
      ((contrEquiv1 dot_S1x128_S12800x128_S1x12800_1_1_0_0_n_n 128 rfl rfl).symm d) = ix2 j d := by
    funext ax; apply Fin.ext
    match ax with
    | ⟨0, _⟩ => simp [DotDims.rhsIdx, dot_S1x128_S12800x128_S1x12800_1_1_0_0_n_n]; try rfl
    | ⟨1, _⟩ => simp [DotDims.rhsIdx, dot_S1x128_S12800x128_S1x12800_1_1_0_0_n_n]; try exact c2
  show x0 _ * x1 _ = _
  rw [l2, r2]

theorem hz : (![0, 0] : Fin 2 → Nat) = fun _ => 0 := funext fun a => by fin_cases a <;> rfl

/-- The printed index maps over the grid: at point t the row keeps block (0, 0), the weight matrix is at row block t,
    the result at column block t. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The whole result array as one function of the row o and the padded weight matrix W: column v holds the product of
    o with row v of W. -/
def G1 (o : S1x128.Idx → EReal) (W : S102400x128.Idx → EReal) : S1x102400.Idx → EReal :=
  fun i => ∑ d : Fin 128, o (ix2 (0 : Fin 1) d) * W (ix2 (⟨(i 1).val, idx2_lt1 i⟩ : Fin 102400) d)

/-- One grid point, over plain vectors: if x0 is the row and x1 is rows k·12800 … of W, the body's value at column q of
    its block is G1 at column k·12800 + q. -/
theorem point_value (o : S1x128.Idx → EReal) (W : S102400x128.Idx → EReal)
    (x0 : Vec Ideal S1x128 .f32) (x1 : Vec Ideal S12800x128 .f32) (k : ℕ)
    (h0 : ∀ d : Fin 128, x0 (ix2 (0 : Fin 1) d) = o (ix2 (0 : Fin 1) d))
    (h1 : ∀ (j : Fin 12800) (d : Fin 128) (r : Fin 102400), r.val = k * 12800 + j.val → x1 (ix2 j d) = W (ix2 r d))
    (q : S1x12800.Idx) (i : S1x102400.Idx) (hi : (i 1).val = k * 12800 + (q 1).val) :
    k1_pay1 (F := Ideal) x0 x1 q = G1 o W i := by
  obtain ⟨p, j, rfl⟩ : ∃ (p : Fin 1) (j : Fin 12800), q = ix2 p j := ⟨q 0, q 1, eq_ix2 q⟩
  obtain rfl : p = 0 := Subsingleton.elim _ _
  rw [pay1_apply]
  unfold G1
  refine Finset.sum_congr rfl fun d _ => ?_
  rw [h0 d, h1 j d ⟨(i 1).val, idx2_lt1 i⟩ hi]

section Region1Value
variable (V : (c : Dev nD) → (b : Ref sig .tc) → Buf (Elt Ideal) ((c : Thread nD τ).loc b))

/-- The row's window holds the row itself at every point: its block index stays (0, 0). -/
theorem iblk1_0_apply (c : Dev nD) (t : Fin cfg1.N) (d : Fin 128) :
    (iblk1 V c 0 t : Vec Ideal S1x128 .f32) (ix2 (0 : Fin 1) d) = (V c main_v56 : S1x128.Idx → EReal) (ix2 (0 : Fin 1) d) := by
  obtain ⟨e0, e1, -, -, -, -⟩ := idx_facts1 t
  unfold iblk1
  rw [View.read_apply]
  show V c main_v56 _ = V c main_v56 _
  refine congrArg (V c main_v56 : S1x128.Idx → EReal) (funext fun a => Fin.ext ?_)
  match a with
  | ⟨0, _⟩ => show win1_0.index t (0 : Fin 2) * 1 + 1 * 0 = 0; omega
  | ⟨1, _⟩ => show win1_0.index t (1 : Fin 2) * 128 + 1 * d.val = d.val; omega

/-- The weight matrix's window at point t holds rows t·12800 … t·12800 + 12799 of the padded matrix. -/
theorem iblk1_1_apply (c : Dev nD) (t : Fin cfg1.N) (j : Fin 12800) (d : Fin 128) (r : Fin 102400)
    (hr : r.val = t.val * 12800 + j.val) :
    (iblk1 V c 1 t : Vec Ideal S12800x128 .f32) (ix2 j d) = (V c main_v57 : S102400x128.Idx → EReal) (ix2 r d) := by
  obtain ⟨-, -, e2, e3, -, -⟩ := idx_facts1 t
  unfold iblk1
  rw [View.read_apply]
  show V c main_v57 _ = V c main_v57 _
  refine congrArg (V c main_v57 : S102400x128.Idx → EReal) (funext fun a => Fin.ext ?_)
  match a with
  | ⟨0, _⟩ => show win1_1.index t (0 : Fin 2) * 12800 + 1 * j.val = r.val; omega
  | ⟨1, _⟩ => show win1_1.index t (1 : Fin 2) * 128 + 1 * d.val = d.val; omega

/-- What point t writes back is block t of G1 of the row and the padded weight matrix as the region finds them. -/
theorem flushed1_eq (c : Dev nD) (t : Fin cfg1.N) :
    (dat1 V c).flushed 2 t = ((cfg1.win 2).blk t).view.read (Elt Ideal) (G1 (V c main_v56) (V c main_v57)) := by
  show (cfg1.win 2).cut (grid1.coords t) ((dat1 V c).after 2 t) = _
  rw [after1_2]
  unfold out1_2
  rw [View.canon_unit_zero hz]
  simp only [View.ld_unit_zero (S := S1x128) hz, View.ld_unit_zero (S := S12800x128) hz]
  obtain ⟨-, -, -, -, e4, e5⟩ := idx_facts1 t
  funext y
  rw [View.read_apply]
  refine point_value (V c main_v56) (V c main_v57) (iblk1 V c 0 t) (iblk1 V c 1 t) t.val (iblk1_0_apply V c t)
    (fun j d r hr => iblk1_1_apply V c t j d r hr) _ _ ?_
  show win1_2.index t (1 : Fin 2) * 12800 + 1 * (y 1).val = t.val * 12800 + (y 1).val
  omega

end Region1Value

section Region1Array
variable (V : (c : Dev nD) → (b : Ref sig .tc) → Buf (Elt Ideal) ((c : Thread nD τ).loc b))

/-- An index of the result array is in point t's block iff each coordinate is in the block's range on its axis. -/
theorem mem_blk1 (t : Fin cfg1.N) (i : S1x102400.Idx) :
    i ∈ ((cfg1.win 2).blk t).view.set ↔ ∀ a : Fin 2, win1_2.index t a * S1x12800.size a ≤ (i a).val ∧ (i a).val < win1_2.index t a * S1x12800.size a + S1x12800.size a := by
  show i ∈ ((View.whole main_v58).slice (win1_2.rect t)).set ↔ _
  rw [View.set_slice_whole, Rect.mem_set_unit]
  exact Iff.rfl

/-- The eight column blocks cover the array: column v lies in the block of point v / 12800. -/
theorem cover1 (i : S1x102400.Idx) : ∃ t : Fin cfg1.N, (cfg1.win 2).flush t = true ∧ i ∈ ((cfg1.win 2).blk t).view.set := by
  have hi0 : (i 0).val < 1 := idx2_lt0 i
  have hi1 : (i 1).val < 102400 := idx2_lt1 i
  have hN : cfg1.N = 8 := N_1
  refine ⟨⟨(i 1).val / 12800, by rw [hN]; omega⟩, flush1_2 _, ?_⟩
  obtain ⟨-, -, -, -, e4, e5⟩ := idx_facts1 ⟨(i 1).val / 12800, by rw [hN]; omega⟩
  rw [mem_blk1]
  intro a
  match a with
  | ⟨0, _⟩ =>
    show win1_2.index ⟨(i 1).val / 12800, _⟩ (0 : Fin 2) * 1 ≤ (i 0).val ∧ (i 0).val < win1_2.index ⟨(i 1).val / 12800, _⟩ (0 : Fin 2) * 1 + 1
    rw [e4]; omega
  | ⟨1, _⟩ =>
    show win1_2.index ⟨(i 1).val / 12800, _⟩ (1 : Fin 2) * 12800 ≤ (i 1).val ∧ (i 1).val < win1_2.index ⟨(i 1).val / 12800, _⟩ (1 : Fin 2) * 12800 + 12800
    rw [e5]; show (i 1).val / 12800 * 12800 ≤ (i 1).val ∧ (i 1).val < (i 1).val / 12800 * 12800 + 12800; omega

/-- After the region the result array is G1 of the row and the padded weight matrix as the region found them. -/
theorem region1_array (c : Dev nD) : (dat1 V c).arrAt 2 cfg1.N = G1 (V c main_v56) (V c main_v57) :=
  (dat1 V c).arrAt_eq_of_cover 2 (G1 (V c main_v56) (V c main_v57)) (fun t _ => flushed1_eq V c t) cover1

/-- G1 at a column, with the column a literal index. -/
theorem G1_apply (o : S1x128.Idx → EReal) (W : S102400x128.Idx → EReal) (v : Fin 102400) :
    G1 o W (ix2 (0 : Fin 1) v) = ∑ d : Fin 128, o (ix2 (0 : Fin 1) d) * W (ix2 v d) := rfl

/-- The row and the padded weight matrix as the region finds them, as functions of literal index types. -/
abbrev row1 (c : Dev nD) : S1x128.Idx → EReal := V c main_v56
abbrev weights1 (c : Dev nD) : S102400x128.Idx → EReal := V c main_v57

/-- Index by index: column v of the result is the row against row v of the padded weight matrix. -/
theorem region1_result (c : Dev nD) (v : Fin 102400) :
    ((dat1 V c).arrAt (2 : Fin cfg1.W) cfg1.N : S1x102400.Idx → EReal) (ix2 (0 : Fin 1) v)
      = ∑ d : Fin 128, row1 V c (ix2 (0 : Fin 1) d) * weights1 V c (ix2 v d) := by
  rw [region1_array V c]
  rfl

end Region1Array

end Cert.KernelIdeal.Hand

end
-- ==== Proof.IdealR0Pieces.lean ====
/-
  What the body of the first region leaves in its accumulators and outputs, case by case, as the body's own arithmetic.

  Every store of the body covers its whole buffer and every load reads a whole buffer, so what a buffer holds after
  the body is the payload of the last store into it, with each loaded value replaced by what the load read: an input
  block, an accumulator's previous contents, or the payload of an earlier store of the same run. At the first point
  the accumulators are cleared first, so the products are added to the cleared values; at the other points they are
  added to the previous contents; at the last point the outputs receive the updated accumulators, the two matrix ones
  with the temporal terms added.
-/
import proofs.«179074_j41858751266982_1_alg».proof.Proof.IdealR0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access, as a constant function. -/
theorem zero_offsets : (![0, 0] : Fin 2 → Nat) = fun _ => 0 := funext fun a => by fin_cases a <;> rfl

set_option maxHeartbeats 4000000 in
/-- At the first point the question accumulator is cleared and then receives the first column tiles' product. -/
theorem sout0_A_0_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i) (x0 : Vec F S1x4096 .f32) (x1 : Vec F S200x4096 .f32) (x2 x3 x4 : Vec F S128x4096 .f32) (x5 x6 : Vec F S200x128 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay9 x0 x3 (k0_pay4 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S1x128) zero_offsets, View.readCov_unit_zero (S := S1x128) _ zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At the first point the input-memory accumulator is cleared and then receives the first column tiles' product. -/
theorem sout0_A_1_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i) (x0 : Vec F S1x4096 .f32) (x1 : Vec F S200x4096 .f32) (x2 x3 x4 : Vec F S128x4096 .f32) (x5 x6 : Vec F S200x128 .f32) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay10 x1 x2 (k0_pay5 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S200x128) zero_offsets, View.readCov_unit_zero (S := S200x128) _ zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At the first point the output-memory accumulator is cleared and then receives the first column tiles' product. -/
theorem sout0_A_2_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : cond0_0 i) (hc1 : ¬cond0_1 i) (x0 : Vec F S1x4096 .f32) (x1 : Vec F S200x4096 .f32) (x2 x3 x4 : Vec F S128x4096 .f32) (x5 x6 : Vec F S200x128 .f32) :
    sout0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay1 (k0_pay7 x1) (k0_pay8 x4) (k0_pay6 (F := F)) (constant (F := F) S200x128 .f32 0x00000000#32) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S200x128) zero_offsets, View.readCov_unit_zero (S := S200x128) _ zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At a middle point the question accumulator receives its previous contents plus the point's product. -/
theorem sout0_B_0_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i) (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay9 x0 x3 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero (S := S1x128) zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At a middle point the input-memory accumulator receives its previous contents plus the point's product. -/
theorem sout0_B_1_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i) (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay10 x1 x2 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero (S := S200x128) zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At a middle point the output-memory accumulator receives its previous contents plus the point's product. -/
theorem sout0_B_2_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : ¬cond0_1 i) (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    sout0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay1 (k0_pay7 x1) (k0_pay8 x4) xs2 (constant (F := F) S200x128 .f32 0x00000000#32) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero (S := S200x128) zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At the last point the question accumulator receives its previous contents plus the point's product. -/
theorem sout0_C_0_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i) (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay9 x0 x3 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S1x128) zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At the last point the input-memory accumulator receives its previous contents plus the point's product. -/
theorem sout0_C_1_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i) (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    sout0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay10 x1 x2 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S200x128) zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At the last point the output-memory accumulator receives its previous contents plus the point's product. -/
theorem sout0_C_2_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i) (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    sout0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay1 (k0_pay7 x1) (k0_pay8 x4) xs2 (constant (F := F) S200x128 .f32 0x00000000#32) := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S200x128) zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At the last point the first output receives the question accumulator as just updated. -/
theorem out0_C_7_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i) (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    out0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay9 x0 x3 xs0 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S1x128) zero_offsets, View.readCov_unit_zero (S := S1x128) _ zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At the last point the second output receives the input-memory accumulator as just updated, plus the first temporal term. -/
theorem out0_C_8_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i) (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    out0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay2 (k0_pay10 x1 x2 xs1) x5 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S200x128) zero_offsets, View.readCov_unit_zero (S := S200x128) _ zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

set_option maxHeartbeats 4000000 in
/-- At the last point the third output receives the output-memory accumulator as just updated, plus the second temporal term. -/
theorem out0_C_9_eq (c : Dev nD) (i : grid0.Coords) (arg1 : Memref sig .tc .vmem S1x4096 .f32) (harg1 : arg1.IsWhole) (arg2 : Memref sig .tc .vmem S200x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S200x128 .f32) (harg6 : arg6.IsWhole) (arg7 : Memref sig .tc .vmem S200x128 .f32) (harg7 : arg7.IsWhole) (arg8 : Memref sig .tc .vmem S1x128 .f32) (harg8 : arg8.IsWhole) (arg9 : Memref sig .tc .vmem S200x128 .f32) (harg9 : arg9.IsWhole) (arg10 : Memref sig .tc .vmem S200x128 .f32) (harg10 : arg10.IsWhole) (arg11 : Memref sig .tc .vmem S1x128 .f32) (harg11 : arg11.IsWhole) (arg12 : Memref sig .tc .vmem S200x128 .f32) (harg12 : arg12.IsWhole) (arg13 : Memref sig .tc .vmem S200x128 .f32) (harg13 : arg13.IsWhole) (hc0 : ¬cond0_0 i) (hc1 : cond0_1 i) (x0 : Vec F S1x4096 .f32) (x1 : Vec F S200x4096 .f32) (x2 x3 x4 : Vec F S128x4096 .f32) (x5 x6 : Vec F S200x128 .f32) (xs0 : Vec F S1x128 .f32) (xs1 xs2 : Vec F S200x128 .f32) :
    out0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay3 (k0_pay1 (k0_pay7 x1) (k0_pay8 x4) xs2 (constant (F := F) S200x128 .f32 0x00000000#32)) x6 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S200x128) zero_offsets, View.readCov_unit_zero (S := S200x128) _ zero_offsets]
  simp only [View.readAt_eq_ld, harg1.read_unread, harg2.read_unread, harg3.read_unread, harg4.read_unread, harg5.read_unread, harg6.read_unread, harg7.read_unread, harg11.read_unread, harg12.read_unread, harg13.read_unread, View.ld_unit_zero (S := S1x4096) zero_offsets, View.ld_unit_zero (S := S200x4096) zero_offsets, View.ld_unit_zero (S := S128x4096) zero_offsets, View.ld_unit_zero (S := S200x128) zero_offsets, View.ld_unit_zero (S := S1x128) zero_offsets]

end Cert.KernelIdeal.Hand

end
-- ==== Proof.IdealR0Acc.lean ====
/-
  The accumulators of the first region, point by point, as the body's arithmetic.

  After the first point each accumulator holds the cleared value plus the first column tiles' product; after every
  later point it holds what it held after the point before plus that point's product, whether or not the point is the
  last; and at the last point the three outputs receive the accumulators as they stand after it, the two matrix ones
  with the temporal terms added.
-/
import proofs.«179074_j41858751266982_1_alg».proof.Proof.IdealR0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- After the first point: the cleared accumulators plus the first tiles' products. -/
theorem scrAt0_first (c : Dev nD) (t : Fin cfg0.N) (h0 : t.val % 25 = 0) (h1 : ¬t.val % 25 = 24) :
    scrAt0 V c t.val t.isLt
      = (k0_pay9 (iblk0 V c 0 t) (iblk0 V c 3 t) (k0_pay4 (F := F)),
        k0_pay10 (iblk0 V c 1 t) (iblk0 V c 2 t) (k0_pay5 (F := F)),
        k0_pay1 (k0_pay7 (iblk0 V c 1 t)) (k0_pay8 (iblk0 V c 4 t)) (k0_pay6 (F := F)) (constant (F := F) S200x128 .f32 0x00000000#32)) :=
  (scrAt0_A V c t h0 h1).trans (congrArg₂ Prod.mk
    (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
    (congrArg₂ Prod.mk
      (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
      (sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))))

/-- After a middle point: the previous contents plus the point's products. -/
theorem scrAt0_mid (c : Dev nD) (t : Fin cfg0.N) (h0 : ¬t.val % 25 = 0) (h1 : ¬t.val % 25 = 24) :
    scrAt0 V c t.val t.isLt
      = (k0_pay9 (iblk0 V c 0 t) (iblk0 V c 3 t) (scrAt0 V c (t.val - 1) (Nat.lt_of_le_of_lt (Nat.sub_le _ _) t.isLt)).1,
        k0_pay10 (iblk0 V c 1 t) (iblk0 V c 2 t) (scrAt0 V c (t.val - 1) (Nat.lt_of_le_of_lt (Nat.sub_le _ _) t.isLt)).2.1,
        k0_pay1 (k0_pay7 (iblk0 V c 1 t)) (k0_pay8 (iblk0 V c 4 t)) (scrAt0 V c (t.val - 1) (Nat.lt_of_le_of_lt (Nat.sub_le _ _) t.isLt)).2.2 (constant (F := F) S200x128 .f32 0x00000000#32)) :=
  (scrAt0_B V c t h0 h1).trans (congrArg₂ Prod.mk
    (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)
    (congrArg₂ Prod.mk
      (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)
      (sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)))

/-- After the last point: the previous contents plus the point's products, as at a middle point. -/
theorem scrAt0_last (c : Dev nD) (t : Fin cfg0.N) (h0 : ¬t.val % 25 = 0) (h1 : t.val % 25 = 24) :
    scrAt0 V c t.val t.isLt
      = (k0_pay9 (iblk0 V c 0 t) (iblk0 V c 3 t) (scrAt0 V c (t.val - 1) (Nat.lt_of_le_of_lt (Nat.sub_le _ _) t.isLt)).1,
        k0_pay10 (iblk0 V c 1 t) (iblk0 V c 2 t) (scrAt0 V c (t.val - 1) (Nat.lt_of_le_of_lt (Nat.sub_le _ _) t.isLt)).2.1,
        k0_pay1 (k0_pay7 (iblk0 V c 1 t)) (k0_pay8 (iblk0 V c 4 t)) (scrAt0 V c (t.val - 1) (Nat.lt_of_le_of_lt (Nat.sub_le _ _) t.isLt)).2.2 (constant (F := F) S200x128 .f32 0x00000000#32)) :=
  (scrAt0_C V c t h0 h1).trans (congrArg₂ Prod.mk
    (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)
    (congrArg₂ Prod.mk
      (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)
      (sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)))

/-- The accumulators after point 0. -/
theorem scrAt0_zero (c : Dev nD) (h : 0 < cfg0.N) :
    scrAt0 V c 0 h
      = (k0_pay9 (iblk0 V c 0 ⟨0, h⟩) (iblk0 V c 3 ⟨0, h⟩) (k0_pay4 (F := F)),
        k0_pay10 (iblk0 V c 1 ⟨0, h⟩) (iblk0 V c 2 ⟨0, h⟩) (k0_pay5 (F := F)),
        k0_pay1 (k0_pay7 (iblk0 V c 1 ⟨0, h⟩)) (k0_pay8 (iblk0 V c 4 ⟨0, h⟩)) (k0_pay6 (F := F)) (constant (F := F) S200x128 .f32 0x00000000#32)) :=
  scrAt0_first V c ⟨0, h⟩ (Nat.zero_mod 25) (by show ¬(0 % 25 = 24); decide)

/-- The accumulators after point `n + 1`, from those after point `n`: one equation for every later point. -/
theorem scrAt0_succ (c : Dev nD) (n : ℕ) (hn : n + 1 < cfg0.N) :
    scrAt0 V c (n + 1) hn
      = (k0_pay9 (iblk0 V c 0 ⟨n + 1, hn⟩) (iblk0 V c 3 ⟨n + 1, hn⟩) (scrAt0 V c n (Nat.lt_of_succ_lt hn)).1,
        k0_pay10 (iblk0 V c 1 ⟨n + 1, hn⟩) (iblk0 V c 2 ⟨n + 1, hn⟩) (scrAt0 V c n (Nat.lt_of_succ_lt hn)).2.1,
        k0_pay1 (k0_pay7 (iblk0 V c 1 ⟨n + 1, hn⟩)) (k0_pay8 (iblk0 V c 4 ⟨n + 1, hn⟩)) (scrAt0 V c n (Nat.lt_of_succ_lt hn)).2.2 (constant (F := F) S200x128 .f32 0x00000000#32)) := by
  have hN : n + 1 < 25 := lt_of_lt_of_eq hn (show cfg0.N = 25 from N_0)
  have h0 : ¬(n + 1) % 25 = 0 := by omega
  by_cases h1 : (n + 1) % 25 = 24
  · exact scrAt0_last V c ⟨n + 1, hn⟩ h0 h1
  · exact scrAt0_mid V c ⟨n + 1, hn⟩ h0 h1

/-- At the last point the outputs receive the accumulators as they stand after it: the question's projection as it
    is, the two memory projections with the temporal terms added. -/
theorem outAt0_last (c : Dev nD) (t : Fin cfg0.N) (h0 : ¬t.val % 25 = 0) (h1 : t.val % 25 = 24) :
    outAt0 V c t
      = ((scrAt0 V c t.val t.isLt).1,
         k0_pay2 (scrAt0 V c t.val t.isLt).2.1 (iblk0 V c 5 t),
         k0_pay3 (scrAt0 V c t.val t.isLt).2.2 (iblk0 V c 6 t)) := by
  rw [scrAt0_last V c t h0 h1]
  exact (outAt0_C V c t h0 h1).trans (congrArg₂ Prod.mk
    (out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)
    (congrArg₂ Prod.mk
      (out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)
      (out0_C_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2)))

/-- The question accumulator's component of `scrAt0_zero`. -/
theorem scrAt0_zero_0 (c : Dev nD) (h : 0 < cfg0.N) :
    (scrAt0 V c 0 h).1 = k0_pay9 (iblk0 V c 0 ⟨0, h⟩) (iblk0 V c 3 ⟨0, h⟩) (k0_pay4 (F := F)) :=
  congrArg Prod.fst (scrAt0_zero V c h)

/-- The input-memory accumulator's component of `scrAt0_zero`. -/
theorem scrAt0_zero_1 (c : Dev nD) (h : 0 < cfg0.N) :
    (scrAt0 V c 0 h).2.1 = k0_pay10 (iblk0 V c 1 ⟨0, h⟩) (iblk0 V c 2 ⟨0, h⟩) (k0_pay5 (F := F)) :=
  congrArg (fun p => p.2.1) (scrAt0_zero V c h)

/-- The output-memory accumulator's component of `scrAt0_zero`. -/
theorem scrAt0_zero_2 (c : Dev nD) (h : 0 < cfg0.N) :
    (scrAt0 V c 0 h).2.2 = k0_pay1 (k0_pay7 (iblk0 V c 1 ⟨0, h⟩)) (k0_pay8 (iblk0 V c 4 ⟨0, h⟩)) (k0_pay6 (F := F)) (constant (F := F) S200x128 .f32 0x00000000#32) :=
  congrArg (fun p => p.2.2) (scrAt0_zero V c h)

/-- The question accumulator's component of `scrAt0_succ`. -/
theorem scrAt0_succ_0 (c : Dev nD) (n : ℕ) (hn : n + 1 < cfg0.N) :
    (scrAt0 V c (n + 1) hn).1 = k0_pay9 (iblk0 V c 0 ⟨n + 1, hn⟩) (iblk0 V c 3 ⟨n + 1, hn⟩) (scrAt0 V c n (Nat.lt_of_succ_lt hn)).1 :=
  congrArg Prod.fst (scrAt0_succ V c n hn)

/-- The input-memory accumulator's component of `scrAt0_succ`. -/
theorem scrAt0_succ_1 (c : Dev nD) (n : ℕ) (hn : n + 1 < cfg0.N) :
    (scrAt0 V c (n + 1) hn).2.1 = k0_pay10 (iblk0 V c 1 ⟨n + 1, hn⟩) (iblk0 V c 2 ⟨n + 1, hn⟩) (scrAt0 V c n (Nat.lt_of_succ_lt hn)).2.1 :=
  congrArg (fun p => p.2.1) (scrAt0_succ V c n hn)

/-- The output-memory accumulator's component of `scrAt0_succ`. -/
theorem scrAt0_succ_2 (c : Dev nD) (n : ℕ) (hn : n + 1 < cfg0.N) :
    (scrAt0 V c (n + 1) hn).2.2 = k0_pay1 (k0_pay7 (iblk0 V c 1 ⟨n + 1, hn⟩)) (k0_pay8 (iblk0 V c 4 ⟨n + 1, hn⟩)) (scrAt0 V c n (Nat.lt_of_succ_lt hn)).2.2 (constant (F := F) S200x128 .f32 0x00000000#32) :=
  congrArg (fun p => p.2.2) (scrAt0_succ V c n hn)

/-- The first output at the last point: the question accumulator after it. -/
theorem outAt0_last_0 (c : Dev nD) (t : Fin cfg0.N) (h0 : ¬t.val % 25 = 0) (h1 : t.val % 25 = 24) :
    (outAt0 V c t).1 = (scrAt0 V c t.val t.isLt).1 :=
  by rw [outAt0_last V c t h0 h1]

/-- The second output at the last point: the input-memory accumulator after it plus the first temporal term. -/
theorem outAt0_last_1 (c : Dev nD) (t : Fin cfg0.N) (h0 : ¬t.val % 25 = 0) (h1 : t.val % 25 = 24) :
    (outAt0 V c t).2.1 = k0_pay2 (scrAt0 V c t.val t.isLt).2.1 (iblk0 V c 5 t) :=
  by rw [outAt0_last V c t h0 h1]

/-- The third output at the last point: the output-memory accumulator after it plus the second temporal term. -/
theorem outAt0_last_2 (c : Dev nD) (t : Fin cfg0.N) (h0 : ¬t.val % 25 = 0) (h1 : t.val % 25 = 24) :
    (outAt0 V c t).2.2 = k0_pay3 (scrAt0 V c t.val t.isLt).2.2 (iblk0 V c 6 t) :=
  by rw [outAt0_last V c t h0 h1]

end Cert.KernelIdeal.Hand

end
-- ==== Proof.IdealR0Out.lean ====
/-
  The three output arrays of the first region after it has run.

  Each output has one block, the whole array, which is written back at the last point only. So after the region each
  output array holds what the body left in its staging buffer at the last point.
-/
import proofs.«179074_j41858751266982_1_alg».proof.Proof.IdealR0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The last point of the grid. -/
def lastPt0 : Fin cfg0.N := ⟨24, by rw [show cfg0.N = 25 from N_0]; decide⟩

theorem lastPt0_val : lastPt0.val = 24 := rfl

/-! ## Output 0: the question's projection -/

/-- The output's one block sits at the array's origin at every point. -/
theorem idx0_7 : ∀ t : Fin cfg0.N, win0_7.index t (0 : Fin 2) = 0 ∧ win0_7.index t (1 : Fin 2) = 0 :=
  (by decide +kernel : ∀ t : Fin grid0.N, _)

/-- What a point writes back is the block it names of what the last point left: only the last point writes back, and
    its block is the whole array. -/
theorem flushed0_7_eq (c : Dev nD) (t : Fin cfg0.N) (hf : (cfg0.win 7).flush t = true) :
    (dat0 V c).flushed 7 t = ((cfg0.win 7).blk t).view.read (Elt F) (outAt0 V c lastPt0).1 := by
  have ht : t = lastPt0 := Fin.ext (by
    have h := (flush0_7 t).mp hf
    have hN : t.val < 25 := lt_of_lt_of_eq t.isLt (show cfg0.N = 25 from N_0)
    show t.val = 24
    omega)
  subst ht
  show (cfg0.win 7).cut (grid0.coords lastPt0) ((dat0 V c).after 7 lastPt0) = _
  rw [after0_7]
  funext j
  obtain ⟨e0, e1⟩ := idx0_7 lastPt0
  show (outAt0 V c lastPt0).1 ((cfg0.win 7).xinj (grid0.coords lastPt0) j)
    = (outAt0 V c lastPt0).1 (((cfg0.win 7).blk lastPt0).view.emb j)
  refine congrArg _ (funext fun a => Fin.ext ?_)
  match a with
  | ⟨0, _⟩ => show (j 0).val = win0_7.index lastPt0 (0 : Fin 2) * 1 + 1 * (j 0).val; omega
  | ⟨1, _⟩ => show (j 1).val = win0_7.index lastPt0 (1 : Fin 2) * 128 + 1 * (j 1).val; omega

/-- An index of the array is in a point's block iff each coordinate is in the block's range on its axis. -/
theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v5_0).slice (win0_7.rect t)).set ↔ _
  rw [View.set_slice_whole, Rect.mem_set_unit]
  exact Iff.rfl

/-- After the region the output array holds what the last point left for it. -/
theorem arr0_7 (c : Dev nD) : (dat0 V c).arrAt 7 cfg0.N = (outAt0 V c lastPt0).1 := by
  refine (dat0 V c).arrAt_eq_of_cover 7 _ (fun t hf => flushed0_7_eq V c t hf)
    (fun i => ⟨lastPt0, (flush0_7 lastPt0).mpr (by show 24 % 25 = 24; decide), ?_⟩)
  obtain ⟨e0, e1⟩ := idx0_7 lastPt0
  rw [mem_blk0_7]
  intro a
  match a with
  | ⟨0, _⟩ =>
    show win0_7.index lastPt0 (0 : Fin 2) * 1 ≤ (i 0).val ∧ (i 0).val < win0_7.index lastPt0 (0 : Fin 2) * 1 + 1
    have hi : (i 0).val < 1 := (i 0).isLt
    omega
  | ⟨1, _⟩ =>
    show win0_7.index lastPt0 (1 : Fin 2) * 128 ≤ (i 1).val ∧ (i 1).val < win0_7.index lastPt0 (1 : Fin 2) * 128 + 128
    have hi : (i 1).val < 128 := (i 1).isLt
    omega

/-! ## Output 1: the input memory -/

/-- The output's one block sits at the array's origin at every point. -/
theorem idx0_8 : ∀ t : Fin cfg0.N, win0_8.index t (0 : Fin 2) = 0 ∧ win0_8.index t (1 : Fin 2) = 0 :=
  (by decide +kernel : ∀ t : Fin grid0.N, _)

/-- What a point writes back is the block it names of what the last point left: only the last point writes back, and
    its block is the whole array. -/
theorem flushed0_8_eq (c : Dev nD) (t : Fin cfg0.N) (hf : (cfg0.win 8).flush t = true) :
    (dat0 V c).flushed 8 t = ((cfg0.win 8).blk t).view.read (Elt F) (outAt0 V c lastPt0).2.1 := by
  have ht : t = lastPt0 := Fin.ext (by
    have h := (flush0_8 t).mp hf
    have hN : t.val < 25 := lt_of_lt_of_eq t.isLt (show cfg0.N = 25 from N_0)
    show t.val = 24
    omega)
  subst ht
  show (cfg0.win 8).cut (grid0.coords lastPt0) ((dat0 V c).after 8 lastPt0) = _
  rw [after0_8]
  funext j
  obtain ⟨e0, e1⟩ := idx0_8 lastPt0
  show (outAt0 V c lastPt0).2.1 ((cfg0.win 8).xinj (grid0.coords lastPt0) j)
    = (outAt0 V c lastPt0).2.1 (((cfg0.win 8).blk lastPt0).view.emb j)
  refine congrArg _ (funext fun a => Fin.ext ?_)
  match a with
  | ⟨0, _⟩ => show (j 0).val = win0_8.index lastPt0 (0 : Fin 2) * 200 + 1 * (j 0).val; omega
  | ⟨1, _⟩ => show (j 1).val = win0_8.index lastPt0 (1 : Fin 2) * 128 + 1 * (j 1).val; omega

/-- An index of the array is in a point's block iff each coordinate is in the block's range on its axis. -/
theorem mem_blk0_8 (t : Fin cfg0.N) (i : S200x128.Idx) :
    i ∈ ((cfg0.win 8).blk t).view.set ↔ ∀ a : Fin 2, win0_8.index t a * S200x128.size a ≤ (i a).val ∧ (i a).val < win0_8.index t a * S200x128.size a + S200x128.size a := by
  show i ∈ ((View.whole main_v5_1).slice (win0_8.rect t)).set ↔ _
  rw [View.set_slice_whole, Rect.mem_set_unit]
  exact Iff.rfl

/-- After the region the output array holds what the last point left for it. -/
theorem arr0_8 (c : Dev nD) : (dat0 V c).arrAt 8 cfg0.N = (outAt0 V c lastPt0).2.1 := by
  refine (dat0 V c).arrAt_eq_of_cover 8 _ (fun t hf => flushed0_8_eq V c t hf)
    (fun i => ⟨lastPt0, (flush0_8 lastPt0).mpr (by show 24 % 25 = 24; decide), ?_⟩)
  obtain ⟨e0, e1⟩ := idx0_8 lastPt0
  rw [mem_blk0_8]
  intro a
  match a with
  | ⟨0, _⟩ =>
    show win0_8.index lastPt0 (0 : Fin 2) * 200 ≤ (i 0).val ∧ (i 0).val < win0_8.index lastPt0 (0 : Fin 2) * 200 + 200
    have hi : (i 0).val < 200 := (i 0).isLt
    omega
  | ⟨1, _⟩ =>
    show win0_8.index lastPt0 (1 : Fin 2) * 128 ≤ (i 1).val ∧ (i 1).val < win0_8.index lastPt0 (1 : Fin 2) * 128 + 128
    have hi : (i 1).val < 128 := (i 1).isLt
    omega

/-! ## Output 2: the output memory -/

/-- The output's one block sits at the array's origin at every point. -/
theorem idx0_9 : ∀ t : Fin cfg0.N, win0_9.index t (0 : Fin 2) = 0 ∧ win0_9.index t (1 : Fin 2) = 0 :=
  (by decide +kernel : ∀ t : Fin grid0.N, _)

/-- What a point writes back is the block it names of what the last point left: only the last point writes back, and
    its block is the whole array. -/
theorem flushed0_9_eq (c : Dev nD) (t : Fin cfg0.N) (hf : (cfg0.win 9).flush t = true) :
    (dat0 V c).flushed 9 t = ((cfg0.win 9).blk t).view.read (Elt F) (outAt0 V c lastPt0).2.2 := by
  have ht : t = lastPt0 := Fin.ext (by
    have h := (flush0_9 t).mp hf
    have hN : t.val < 25 := lt_of_lt_of_eq t.isLt (show cfg0.N = 25 from N_0)
    show t.val = 24
    omega)
  subst ht
  show (cfg0.win 9).cut (grid0.coords lastPt0) ((dat0 V c).after 9 lastPt0) = _
  rw [after0_9]
  funext j
  obtain ⟨e0, e1⟩ := idx0_9 lastPt0
  show (outAt0 V c lastPt0).2.2 ((cfg0.win 9).xinj (grid0.coords lastPt0) j)
    = (outAt0 V c lastPt0).2.2 (((cfg0.win 9).blk lastPt0).view.emb j)
  refine congrArg _ (funext fun a => Fin.ext ?_)
  match a with
  | ⟨0, _⟩ => show (j 0).val = win0_9.index lastPt0 (0 : Fin 2) * 200 + 1 * (j 0).val; omega
  | ⟨1, _⟩ => show (j 1).val = win0_9.index lastPt0 (1 : Fin 2) * 128 + 1 * (j 1).val; omega

/-- An index of the array is in a point's block iff each coordinate is in the block's range on its axis. -/
theorem mem_blk0_9 (t : Fin cfg0.N) (i : S200x128.Idx) :
    i ∈ ((cfg0.win 9).blk t).view.set ↔ ∀ a : Fin 2, win0_9.index t a * S200x128.size a ≤ (i a).val ∧ (i a).val < win0_9.index t a * S200x128.size a + S200x128.size a := by
  show i ∈ ((View.whole main_v5_2).slice (win0_9.rect t)).set ↔ _
  rw [View.set_slice_whole, Rect.mem_set_unit]
  exact Iff.rfl

/-- After the region the output array holds what the last point left for it. -/
theorem arr0_9 (c : Dev nD) : (dat0 V c).arrAt 9 cfg0.N = (outAt0 V c lastPt0).2.2 := by
  refine (dat0 V c).arrAt_eq_of_cover 9 _ (fun t hf => flushed0_9_eq V c t hf)
    (fun i => ⟨lastPt0, (flush0_9 lastPt0).mpr (by show 24 % 25 = 24; decide), ?_⟩)
  obtain ⟨e0, e1⟩ := idx0_9 lastPt0
  rw [mem_blk0_9]
  intro a
  match a with
  | ⟨0, _⟩ =>
    show win0_9.index lastPt0 (0 : Fin 2) * 200 ≤ (i 0).val ∧ (i 0).val < win0_9.index lastPt0 (0 : Fin 2) * 200 + 200
    have hi : (i 0).val < 200 := (i 0).isLt
    omega
  | ⟨1, _⟩ =>
    show win0_9.index lastPt0 (1 : Fin 2) * 128 ≤ (i 1).val ∧ (i 1).val < win0_9.index lastPt0 (1 : Fin 2) * 128 + 128
    have hi : (i 1).val < 128 := (i 1).isLt
    omega

end Cert.KernelIdeal.Hand

end
-- ==== Proof.IdealR0Index.lean ====
/- The first region's arithmetic and blocks read index by index, at the ideal values. Its body adds, tile by tile of
   4096 vocabulary columns, the products question × Wbᵀ, memory × Waᵀ and memory × Wcᵀ into three accumulators; each
   stored value is read here at an entry as "what the accumulator held plus a sum over the tile's columns", the clears
   as zero and the write-outs as entrywise sums. The input windows' blocks at grid point t are read as entries of the
   padded arrays: the five streamed windows sit at column block t (columns 4096·t … 4096·t + 4095), the two temporal
   windows are whole. -/
import proofs.«179074_j41858751266982_1_alg».proof.Proof.IdealR0Base
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The two contractions at an index

Both products of the first region contract the LAST axis of both operands (a tile of 4096 vocabulary columns) into a
zero accumulator: entry (p, d) is the sum over the tile's columns j of a(p, j) · b(d, j). -/

/-- The [1,4096] × [128,4096]ᵀ product into zero, at an entry. -/
theorem dotRow_apply (a : FVec Ideal S1x4096 .bf16) (b : FVec Ideal S128x4096 .bf16) (d : Fin 128) :
    matmul dot_S1x4096_S128x4096_S1x128_1_1_0_0_n_n none a b (constant S1x128 .f32 0x00000000#32) (ix2 (0 : Fin 1) d)
      = ∑ j : Fin 4096, a (ix2 (0 : Fin 1) j) * b (ix2 d j) := by
  refine (Ideal.matmul_constant_zero_apply dot_S1x4096_S128x4096_S1x128_1_1_0_0_n_n none a b (ix2 (0 : Fin 1) d)).trans ?_
  rw [← Equiv.sum_comp (contrEquiv1 dot_S1x4096_S128x4096_S1x128_1_1_0_0_n_n 4096 rfl rfl).symm]
  refine Finset.sum_congr rfl fun j _ => ?_
  have c2 := contrEquiv1_symm_val dot_S1x4096_S128x4096_S1x128_1_1_0_0_n_n 4096 rfl rfl j
  have l2 : dot_S1x4096_S128x4096_S1x128_1_1_0_0_n_n.lhsIdx (ix2 (0 : Fin 1) d)
      ((contrEquiv1 dot_S1x4096_S128x4096_S1x128_1_1_0_0_n_n 4096 rfl rfl).symm j) = ix2 (0 : Fin 1) j := by
    funext ax; apply Fin.ext
    match ax with
    | ⟨0, _⟩ => simp [DotDims.lhsIdx, dot_S1x4096_S128x4096_S1x128_1_1_0_0_n_n]; try rfl
    | ⟨1, _⟩ => simp [DotDims.lhsIdx, dot_S1x4096_S128x4096_S1x128_1_1_0_0_n_n]; try exact c2
  have r2 : dot_S1x4096_S128x4096_S1x128_1_1_0_0_n_n.rhsIdx (ix2 (0 : Fin 1) d)
      ((contrEquiv1 dot_S1x4096_S128x4096_S1x128_1_1_0_0_n_n 4096 rfl rfl).symm j) = ix2 d j := by
    funext ax; apply Fin.ext
    match ax with
    | ⟨0, _⟩ => simp [DotDims.rhsIdx, dot_S1x4096_S128x4096_S1x128_1_1_0_0_n_n]; try rfl
    | ⟨1, _⟩ => simp [DotDims.rhsIdx, dot_S1x4096_S128x4096_S1x128_1_1_0_0_n_n]; try exact c2
  rw [l2, r2]

/-- The [200,4096] × [128,4096]ᵀ product into zero, at an entry. -/
theorem dotMat_apply (a : FVec Ideal S200x4096 .bf16) (b : FVec Ideal S128x4096 .bf16) (r : Fin 200) (d : Fin 128) :
    matmul dot_S200x4096_S128x4096_S200x128_1_1_0_0_n_n none a b (constant S200x128 .f32 0x00000000#32) (ix2 r d)
      = ∑ j : Fin 4096, a (ix2 r j) * b (ix2 d j) := by
  refine (Ideal.matmul_constant_zero_apply dot_S200x4096_S128x4096_S200x128_1_1_0_0_n_n none a b (ix2 r d)).trans ?_
  rw [← Equiv.sum_comp (contrEquiv1 dot_S200x4096_S128x4096_S200x128_1_1_0_0_n_n 4096 rfl rfl).symm]
  refine Finset.sum_congr rfl fun j _ => ?_
  have c2 := contrEquiv1_symm_val dot_S200x4096_S128x4096_S200x128_1_1_0_0_n_n 4096 rfl rfl j
  have l2 : dot_S200x4096_S128x4096_S200x128_1_1_0_0_n_n.lhsIdx (ix2 r d)
      ((contrEquiv1 dot_S200x4096_S128x4096_S200x128_1_1_0_0_n_n 4096 rfl rfl).symm j) = ix2 r j := by
    funext ax; apply Fin.ext
    match ax with
    | ⟨0, _⟩ => simp [DotDims.lhsIdx, dot_S200x4096_S128x4096_S200x128_1_1_0_0_n_n]; try rfl
    | ⟨1, _⟩ => simp [DotDims.lhsIdx, dot_S200x4096_S128x4096_S200x128_1_1_0_0_n_n]; try exact c2
  have r2 : dot_S200x4096_S128x4096_S200x128_1_1_0_0_n_n.rhsIdx (ix2 r d)
      ((contrEquiv1 dot_S200x4096_S128x4096_S200x128_1_1_0_0_n_n 4096 rfl rfl).symm j) = ix2 d j := by
    funext ax; apply Fin.ext
    match ax with
    | ⟨0, _⟩ => simp [DotDims.rhsIdx, dot_S200x4096_S128x4096_S200x128_1_1_0_0_n_n]; try rfl
    | ⟨1, _⟩ => simp [DotDims.rhsIdx, dot_S200x4096_S128x4096_S200x128_1_1_0_0_n_n]; try exact c2
  rw [l2, r2]

/-! ## The body's stored values at an index

Casts to the same shape and the narrowings to bf16 are the identity on extended reals; the additions are
entrywise. -/

/-- The question accumulator's update: what it held plus the tile's question row against row d of the Wb tile. -/
theorem pay9_apply (x0 : Vec Ideal S1x4096 .f32) (x3 : Vec Ideal S128x4096 .f32) (acc : Vec Ideal S1x128 .f32) (d : Fin 128) :
    k0_pay9 (F := Ideal) x0 x3 acc (ix2 (0 : Fin 1) d)
      = acc (ix2 (0 : Fin 1) d) + ∑ j : Fin 4096, x0 (ix2 (0 : Fin 1) j) * x3 (ix2 d j) := by
  unfold k0_pay9
  simp only [shapeCast_self]
  exact congrArg (acc (ix2 (0 : Fin 1) d) + ·) (dotRow_apply _ _ d)

/-- The first memory accumulator's update: what it held plus row r of the memory tile against row d of the Wa tile. -/
theorem pay10_apply (x1 : Vec Ideal S200x4096 .f32) (x2 : Vec Ideal S128x4096 .f32) (acc : Vec Ideal S200x128 .f32)
    (r : Fin 200) (d : Fin 128) :
    k0_pay10 (F := Ideal) x1 x2 acc (ix2 r d) = acc (ix2 r d) + ∑ j : Fin 4096, x1 (ix2 r j) * x2 (ix2 d j) := by
  unfold k0_pay10 k0_pay7
  simp only [shapeCast_self]
  exact congrArg (acc (ix2 r d) + ·) (dotMat_apply _ _ r d)

/-- The second memory accumulator's update, against the Wc tile. -/
theorem pay1_of_tiles_apply (x1 : Vec Ideal S200x4096 .f32) (x4 : Vec Ideal S128x4096 .f32) (acc : Vec Ideal S200x128 .f32)
    (r : Fin 200) (d : Fin 128) :
    k0_pay1 (F := Ideal) (k0_pay7 x1) (k0_pay8 x4) acc (constant S200x128 .f32 0x00000000#32) (ix2 r d)
      = acc (ix2 r d) + ∑ j : Fin 4096, x1 (ix2 r j) * x4 (ix2 d j) := by
  unfold k0_pay1 k0_pay7 k0_pay8
  simp only [shapeCast_self]
  exact congrArg (acc (ix2 r d) + ·) (dotMat_apply _ _ r d)

/-- The three clears store zero everywhere. -/
theorem pay4_apply (d : Fin 128) : k0_pay4 (F := Ideal) (ix2 (0 : Fin 1) d) = 0 := by
  unfold k0_pay4
  simp only [shapeCast_self]
  exact Ideal.ofBits_zero_f32
theorem pay5_apply (r : Fin 200) (d : Fin 128) : k0_pay5 (F := Ideal) (ix2 r d) = 0 := by
  unfold k0_pay5
  simp only [shapeCast_self]
  exact Ideal.ofBits_zero_f32
theorem pay6_apply (r : Fin 200) (d : Fin 128) : k0_pay6 (F := Ideal) (ix2 r d) = 0 := by
  unfold k0_pay6
  simp only [shapeCast_self]
  exact Ideal.ofBits_zero_f32

/-- The two write-outs add the temporal term entrywise. -/
theorem pay2_apply (a b : Vec Ideal S200x128 .f32) (r : Fin 200) (d : Fin 128) :
    k0_pay2 (F := Ideal) a b (ix2 r d) = a (ix2 r d) + b (ix2 r d) := rfl
theorem pay3_apply (a b : Vec Ideal S200x128 .f32) (r : Fin 200) (d : Fin 128) :
    k0_pay3 (F := Ideal) a b (ix2 r d) = a (ix2 r d) + b (ix2 r d) := rfl

/-! ## The input windows' blocks at an index -/

section Blocks0
variable (V : (c : Dev nD) → (b : Ref sig .tc) → Buf (Elt Ideal) ((c : Thread nD τ).loc b))

/-- The printed index maps over the grid: at point t each streamed window is at block (0, t), each temporal window
    at block (0, 0). -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Column j of tile t is a column of the padded axis: 25 tiles of 4096 make 102400. -/
theorem col_lt (t : Fin cfg0.N) (j : Fin 4096) : 4096 * t.val + j.val < 102400 := by
  have hN : cfg0.N = 25 := N_0
  have h1 := t.isLt
  have h2 := j.isLt
  omega

/-- Column j of tile t, as a column of the padded axis. -/
abbrev col (t : Fin cfg0.N) (j : Fin 4096) : Fin 102400 := ⟨4096 * t.val + j.val, col_lt t j⟩

theorem iblk0_0_apply (c : Dev nD) (t : Fin cfg0.N) (j : Fin 4096) (q : Fin 102400)
    (hq : q.val = 4096 * t.val + j.val) :
    (iblk0 V c 0 t : Vec Ideal S1x4096 .f32) (ix2 (0 : Fin 1) j) = (V c main_v0 : S1x102400.Idx → EReal) (ix2 (0 : Fin 1) q) := by
  have e := idx_facts0 t
  unfold iblk0
  rw [View.read_apply]
  show V c main_v0 _ = V c main_v0 _
  refine congrArg (V c main_v0 : S1x102400.Idx → EReal) (funext fun a => Fin.ext ?_)
  match a with
  | ⟨0, _⟩ => show win0_0.index t (0 : Fin 2) * 1 + 1 * 0 = 0; omega
  | ⟨1, _⟩ => show win0_0.index t (1 : Fin 2) * 4096 + 1 * j.val = q.val; omega

theorem iblk0_1_apply (c : Dev nD) (t : Fin cfg0.N) (r : Fin 200) (j : Fin 4096) (q : Fin 102400)
    (hq : q.val = 4096 * t.val + j.val) :
    (iblk0 V c 1 t : Vec Ideal S200x4096 .f32) (ix2 r j) = (V c main_v1 : S200x102400.Idx → EReal) (ix2 r q) := by
  have e := idx_facts0 t
  unfold iblk0
  rw [View.read_apply]
  show V c main_v1 _ = V c main_v1 _
  refine congrArg (V c main_v1 : S200x102400.Idx → EReal) (funext fun a => Fin.ext ?_)
  match a with
  | ⟨0, _⟩ => show win0_1.index t (0 : Fin 2) * 200 + 1 * r.val = r.val; omega
  | ⟨1, _⟩ => show win0_1.index t (1 : Fin 2) * 4096 + 1 * j.val = q.val; omega

theorem iblk0_2_apply (c : Dev nD) (t : Fin cfg0.N) (d : Fin 128) (j : Fin 4096) (q : Fin 102400)
    (hq : q.val = 4096 * t.val + j.val) :
    (iblk0 V c 2 t : Vec Ideal S128x4096 .f32) (ix2 d j) = (V c main_v2 : S128x102400.Idx → EReal) (ix2 d q) := by
  have e := idx_facts0 t
  unfold iblk0
  rw [View.read_apply]
  show V c main_v2 _ = V c main_v2 _
  refine congrArg (V c main_v2 : S128x102400.Idx → EReal) (funext fun a => Fin.ext ?_)
  match a with
  | ⟨0, _⟩ => show win0_2.index t (0 : Fin 2) * 128 + 1 * d.val = d.val; omega
  | ⟨1, _⟩ => show win0_2.index t (1 : Fin 2) * 4096 + 1 * j.val = q.val; omega

theorem iblk0_3_apply (c : Dev nD) (t : Fin cfg0.N) (d : Fin 128) (j : Fin 4096) (q : Fin 102400)
    (hq : q.val = 4096 * t.val + j.val) :
    (iblk0 V c 3 t : Vec Ideal S128x4096 .f32) (ix2 d j) = (V c main_v3 : S128x102400.Idx → EReal) (ix2 d q) := by
  have e := idx_facts0 t
  unfold iblk0
  rw [View.read_apply]
  show V c main_v3 _ = V c main_v3 _
  refine congrArg (V c main_v3 : S128x102400.Idx → EReal) (funext fun a => Fin.ext ?_)
  match a with
  | ⟨0, _⟩ => show win0_3.index t (0 : Fin 2) * 128 + 1 * d.val = d.val; omega
  | ⟨1, _⟩ => show win0_3.index t (1 : Fin 2) * 4096 + 1 * j.val = q.val; omega

theorem iblk0_4_apply (c : Dev nD) (t : Fin cfg0.N) (d : Fin 128) (j : Fin 4096) (q : Fin 102400)
    (hq : q.val = 4096 * t.val + j.val) :
    (iblk0 V c 4 t : Vec Ideal S128x4096 .f32) (ix2 d j) = (V c main_v4 : S128x102400.Idx → EReal) (ix2 d q) := by
  have e := idx_facts0 t
  unfold iblk0
  rw [View.read_apply]
  show V c main_v4 _ = V c main_v4 _
  refine congrArg (V c main_v4 : S128x102400.Idx → EReal) (funext fun a => Fin.ext ?_)
  match a with
  | ⟨0, _⟩ => show win0_4.index t (0 : Fin 2) * 128 + 1 * d.val = d.val; omega
  | ⟨1, _⟩ => show win0_4.index t (1 : Fin 2) * 4096 + 1 * j.val = q.val; omega

theorem iblk0_5_apply (c : Dev nD) (t : Fin cfg0.N) (r : Fin 200) (d : Fin 128) :
    (iblk0 V c 5 t : Vec Ideal S200x128 .f32) (ix2 r d) = (V c main_arg6 : S200x128.Idx → EReal) (ix2 r d) := by
  have e := idx_facts0 t
  unfold iblk0
  rw [View.read_apply]
  show V c main_arg6 _ = V c main_arg6 _
  refine congrArg (V c main_arg6 : S200x128.Idx → EReal) (funext fun a => Fin.ext ?_)
  match a with
  | ⟨0, _⟩ => show win0_5.index t (0 : Fin 2) * 200 + 1 * r.val = r.val; omega
  | ⟨1, _⟩ => show win0_5.index t (1 : Fin 2) * 128 + 1 * d.val = d.val; omega

/-- The same as an equation of whole blocks. -/
theorem iblk0_5_eq (c : Dev nD) (t : Fin cfg0.N) :
    (iblk0 V c 5 t : Vec Ideal S200x128 .f32) = (V c main_arg6 : S200x128.Idx → EReal) := by
  funext y
  obtain ⟨r, d, rfl⟩ : ∃ (r : Fin 200) (d : Fin 128), y = ix2 r d := ⟨y 0, y 1, eq_ix2 y⟩
  exact iblk0_5_apply V c t r d

theorem iblk0_6_apply (c : Dev nD) (t : Fin cfg0.N) (r : Fin 200) (d : Fin 128) :
    (iblk0 V c 6 t : Vec Ideal S200x128 .f32) (ix2 r d) = (V c main_arg7 : S200x128.Idx → EReal) (ix2 r d) := by
  have e := idx_facts0 t
  unfold iblk0
  rw [View.read_apply]
  show V c main_arg7 _ = V c main_arg7 _
  refine congrArg (V c main_arg7 : S200x128.Idx → EReal) (funext fun a => Fin.ext ?_)
  match a with
  | ⟨0, _⟩ => show win0_6.index t (0 : Fin 2) * 200 + 1 * r.val = r.val; omega
  | ⟨1, _⟩ => show win0_6.index t (1 : Fin 2) * 128 + 1 * d.val = d.val; omega

/-- The same as an equation of whole blocks. -/
theorem iblk0_6_eq (c : Dev nD) (t : Fin cfg0.N) :
    (iblk0 V c 6 t : Vec Ideal S200x128 .f32) = (V c main_arg7 : S200x128.Idx → EReal) := by
  funext y
  obtain ⟨r, d, rfl⟩ : ∃ (r : Fin 200) (d : Fin 128), y = ix2 r d := ⟨y 0, y 1, eq_ix2 y⟩
  exact iblk0_6_apply V c t r d

end Blocks0

end Cert.KernelIdeal.Hand

end
-- ==== Proof.TileSum.lean ====
/-
  Regrouping finite sums over the extended reals.

  A sum over a zero-padded axis of length 102400 = 25 · 4096, taken tile by tile, equals the sum over the first
  100000 coordinates when every term past them is zero; an accumulator that starts at `0 + term 0` and adds one
  term per step holds the sum of the terms; and a row index below 100000 splits into a block of 12800 rows and an
  offset inside the block.  The extended reals form an additive commutative monoid, so no finiteness is needed.
-/
import Mathlib.Data.EReal.Basic
import Mathlib.Algebra.BigOperators.Fin
import Mathlib.Algebra.BigOperators.Intervals
import Mathlib.Logic.Equiv.Fin.Basic

namespace Cert.TileSum

open Finset

/-- The tiled sum over the padded axis is the sum over the unpadded axis. -/
theorem tile_sum (f : ℕ → EReal) (hz : ∀ v, 100000 ≤ v → f v = 0) :
    ∑ k : Fin 25, ∑ j : Fin 4096, f (4096 * k.val + j.val) = ∑ v : Fin 100000, f v.val := by
  have h1 : ∑ k : Fin 25, ∑ j : Fin 4096, f (4096 * k.val + j.val) = ∑ x : Fin (25 * 4096), f x.val := by
    rw [← Fintype.sum_prod_type' (f := fun (k : Fin 25) (j : Fin 4096) => f (4096 * k.val + j.val))]
    refine Fintype.sum_equiv finProdFinEquiv _ _ ?_
    rintro ⟨k, j⟩
    simp only [finProdFinEquiv_apply_val]
    congr 1
    omega
  rw [h1, Fin.sum_univ_eq_sum_range (fun v => f v) (25 * 4096), Fin.sum_univ_eq_sum_range (fun v => f v) 100000]
  symm
  refine Finset.sum_subset ?_ ?_
  · intro x hx
    simp only [Finset.mem_range] at hx ⊢
    omega
  · intro x _ hx
    simp only [Finset.mem_range, not_lt] at hx
    exact hz x hx

/-- An accumulator that starts at `0 + term 0` and adds one term per step holds, after the last of 25 steps, the sum of
all 25 terms. -/
theorem acc_sum (term acc : ℕ → EReal) (h0 : acc 0 = 0 + term 0)
    (hs : ∀ n, n + 1 < 25 → acc (n + 1) = acc n + term (n + 1)) :
    acc 24 = ∑ k : Fin 25, term k.val := by
  have h : ∀ n, n < 25 → acc n = ∑ k ∈ Finset.range (n + 1), term k := by
    intro n
    induction n with
    | zero => intro _; rw [h0, zero_add]; simp
    | succ n ih =>
      intro hn
      rw [hs n hn, ih (by omega), Finset.sum_range_succ (fun k => term k) (n + 1)]
  rw [h 24 (by norm_num), Fin.sum_univ_eq_sum_range (fun k => term k) 25]

/-- A row index below 100000 lies in one of 8 blocks of 12800 rows, at an offset inside the block. -/
theorem block_row (v : Fin 100000) :
    v.val / 12800 < 8 ∧ v.val = 12800 * (v.val / 12800) + v.val % 12800 ∧ v.val % 12800 < 12800 := by
  have := v.isLt
  omega

end Cert.TileSum
-- ==== Proof.IdealR0Sum.lean ====
/-
  The three output arrays of the first region, entry by entry, as sums over the tiles of the padded vocabulary axis.

  After the first point an accumulator entry is the cleared value, zero, plus the first tile's inner sum; each later
  point adds its tile's inner sum; so after the last of the 25 points the entry is the sum over the tiles of the sums
  over a tile's 4096 columns. The question's output is that sum; the two memory outputs add the temporal terms. The
  inner terms are written through one function of the column on the padded axis, zero past its end.
-/
import proofs.«179074_j41858751266982_1_alg».proof.Proof.IdealR0Acc
import proofs.«179074_j41858751266982_1_alg».proof.Proof.IdealR0Out
import proofs.«179074_j41858751266982_1_alg».proof.Proof.IdealR0Index
import proofs.«179074_j41858751266982_1_alg».proof.Proof.TileSum

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The product of the entries at column `q` of row `p` of one padded array and row `d` of another; zero past the end of the
    padded axis. -/
def colProd {m n : ℕ} (a : (⟨2, ![m, 102400]⟩ : Shape).Idx → EReal) (b : (⟨2, ![n, 102400]⟩ : Shape).Idx → EReal)
    (p : Fin m) (d : Fin n) (q : ℕ) : EReal :=
  if h : q < 102400 then a (ix2 p ⟨q, h⟩) * b (ix2 d ⟨q, h⟩) else 0

/-- At column `j` of tile `t` the column is on the padded axis. -/
theorem colProd_col {m n : ℕ} (a : (⟨2, ![m, 102400]⟩ : Shape).Idx → EReal) (b : (⟨2, ![n, 102400]⟩ : Shape).Idx → EReal)
    (p : Fin m) (d : Fin n) (t : Fin cfg0.N) (j : Fin 4096) :
    colProd a b p d (4096 * t.val + j.val) = a (ix2 p (col t j)) * b (ix2 d (col t j)) :=
  dif_pos (col_lt t j)

section Sums
variable (V : (c : Dev nD) → (b : Ref sig .tc) → Buf (Elt Ideal) ((c : Thread nD τ).loc b))

/-! ## One point's update at an entry -/

/-- The question accumulator's update at point `t`: what it held plus the tile's inner sum. -/
theorem pay9_tile (c : Dev nD) (t : Fin cfg0.N) (a : Vec Ideal S1x128 .f32) (d : Fin 128) :
    @Eq EReal (k0_pay9 (F := Ideal) (iblk0 V c 0 t) (iblk0 V c 3 t) a (ix2 (0 : Fin 1) d))
      (a (ix2 (0 : Fin 1) d) + ∑ j : Fin 4096, colProd (V c main_v0 : S1x102400.Idx → EReal)
        (V c main_v3 : S128x102400.Idx → EReal) (0 : Fin 1) d (4096 * t.val + j.val)) := by
  refine (pay9_apply (iblk0 V c 0 t) (iblk0 V c 3 t) a d).trans ?_
  refine congrArg (a (ix2 (0 : Fin 1) d) + ·) (Finset.sum_congr rfl fun j _ => ?_)
  rw [colProd_col, iblk0_0_apply V c t j (col t j) rfl, iblk0_3_apply V c t d j (col t j) rfl]

/-- The input-memory accumulator's update at point `t`. -/
theorem pay10_tile (c : Dev nD) (t : Fin cfg0.N) (a : Vec Ideal S200x128 .f32) (r : Fin 200) (d : Fin 128) :
    @Eq EReal (k0_pay10 (F := Ideal) (iblk0 V c 1 t) (iblk0 V c 2 t) a (ix2 r d))
      (a (ix2 r d) + ∑ j : Fin 4096, colProd (V c main_v1 : S200x102400.Idx → EReal)
        (V c main_v2 : S128x102400.Idx → EReal) r d (4096 * t.val + j.val)) := by
  refine (pay10_apply (iblk0 V c 1 t) (iblk0 V c 2 t) a r d).trans ?_
  refine congrArg (a (ix2 r d) + ·) (Finset.sum_congr rfl fun j _ => ?_)
  rw [colProd_col, iblk0_1_apply V c t r j (col t j) rfl, iblk0_2_apply V c t d j (col t j) rfl]

/-- The output-memory accumulator's update at point `t`. -/
theorem pay1_tile (c : Dev nD) (t : Fin cfg0.N) (a : Vec Ideal S200x128 .f32) (r : Fin 200) (d : Fin 128) :
    @Eq EReal (k0_pay1 (F := Ideal) (k0_pay7 (iblk0 V c 1 t)) (k0_pay8 (iblk0 V c 4 t)) a
        (constant (F := Ideal) S200x128 .f32 0x00000000#32) (ix2 r d))
      (a (ix2 r d) + ∑ j : Fin 4096, colProd (V c main_v1 : S200x102400.Idx → EReal)
        (V c main_v4 : S128x102400.Idx → EReal) r d (4096 * t.val + j.val)) := by
  refine (pay1_of_tiles_apply (iblk0 V c 1 t) (iblk0 V c 4 t) a r d).trans ?_
  refine congrArg (a (ix2 r d) + ·) (Finset.sum_congr rfl fun j _ => ?_)
  rw [colProd_col, iblk0_1_apply V c t r j (col t j) rfl, iblk0_4_apply V c t d j (col t j) rfl]

/-! ## The accumulators after the last point -/

/-- The question accumulator's entry after the last point: the sum over the tiles of the tiles' inner sums. -/
theorem acc0_0_sum (c : Dev nD) (d : Fin 128) (h24 : 24 < cfg0.N) :
    @Eq EReal ((scrAt0 V c 24 h24).1 (ix2 (0 : Fin 1) d))
      (∑ k : Fin 25, ∑ j : Fin 4096, colProd (V c main_v0 : S1x102400.Idx → EReal)
        (V c main_v3 : S128x102400.Idx → EReal) (0 : Fin 1) d (4096 * k.val + j.val)) := by
  have hN : cfg0.N = 25 := N_0
  refine Eq.trans ?_ (Cert.TileSum.acc_sum
    (fun k => ∑ j : Fin 4096, colProd (V c main_v0 : S1x102400.Idx → EReal) (V c main_v3 : S128x102400.Idx → EReal) (0 : Fin 1) d (4096 * k + j.val))
    (fun n => if h : n < cfg0.N then ((scrAt0 V c n h).1 (ix2 (0 : Fin 1) d) : EReal) else 0) ?_ ?_)
  · rw [dif_pos h24]
  · have h0 : 0 < cfg0.N := by omega
    rw [dif_pos h0]
    refine (congrFun (scrAt0_zero_0 V c h0) (ix2 (0 : Fin 1) d)).trans ?_
    refine (pay9_tile V c ⟨0, h0⟩ _ d).trans ?_
    exact congrArg (· + _) (pay4_apply d)
  · intro n hn
    have hn' : n + 1 < cfg0.N := by omega
    have e : (if h : n < cfg0.N then ((scrAt0 V c n h).1 (ix2 (0 : Fin 1) d) : EReal) else 0)
        = (scrAt0 V c n (Nat.lt_of_succ_lt hn')).1 (ix2 (0 : Fin 1) d) := dif_pos (Nat.lt_of_succ_lt hn')
    rw [dif_pos hn', e]
    refine (congrFun (scrAt0_succ_0 V c n hn') (ix2 (0 : Fin 1) d)).trans ?_
    exact pay9_tile V c ⟨n + 1, hn'⟩ _ d

/-- The input-memory accumulator's entry after the last point: the sum over the tiles of the tiles' inner sums. -/
theorem acc0_1_sum (c : Dev nD) (r : Fin 200) (d : Fin 128) (h24 : 24 < cfg0.N) :
    @Eq EReal ((scrAt0 V c 24 h24).2.1 (ix2 r d))
      (∑ k : Fin 25, ∑ j : Fin 4096, colProd (V c main_v1 : S200x102400.Idx → EReal)
        (V c main_v2 : S128x102400.Idx → EReal) r d (4096 * k.val + j.val)) := by
  have hN : cfg0.N = 25 := N_0
  refine Eq.trans ?_ (Cert.TileSum.acc_sum
    (fun k => ∑ j : Fin 4096, colProd (V c main_v1 : S200x102400.Idx → EReal) (V c main_v2 : S128x102400.Idx → EReal) r d (4096 * k + j.val))
    (fun n => if h : n < cfg0.N then ((scrAt0 V c n h).2.1 (ix2 r d) : EReal) else 0) ?_ ?_)
  · rw [dif_pos h24]
  · have h0 : 0 < cfg0.N := by omega
    rw [dif_pos h0]
    refine (congrFun (scrAt0_zero_1 V c h0) (ix2 r d)).trans ?_
    refine (pay10_tile V c ⟨0, h0⟩ _ r d).trans ?_
    exact congrArg (· + _) (pay5_apply r d)
  · intro n hn
    have hn' : n + 1 < cfg0.N := by omega
    have e : (if h : n < cfg0.N then ((scrAt0 V c n h).2.1 (ix2 r d) : EReal) else 0)
        = (scrAt0 V c n (Nat.lt_of_succ_lt hn')).2.1 (ix2 r d) := dif_pos (Nat.lt_of_succ_lt hn')
    rw [dif_pos hn', e]
    refine (congrFun (scrAt0_succ_1 V c n hn') (ix2 r d)).trans ?_
    exact pay10_tile V c ⟨n + 1, hn'⟩ _ r d

/-- The output-memory accumulator's entry after the last point: the sum over the tiles of the tiles' inner sums. -/
theorem acc0_2_sum (c : Dev nD) (r : Fin 200) (d : Fin 128) (h24 : 24 < cfg0.N) :
    @Eq EReal ((scrAt0 V c 24 h24).2.2 (ix2 r d))
      (∑ k : Fin 25, ∑ j : Fin 4096, colProd (V c main_v1 : S200x102400.Idx → EReal)
        (V c main_v4 : S128x102400.Idx → EReal) r d (4096 * k.val + j.val)) := by
  have hN : cfg0.N = 25 := N_0
  refine Eq.trans ?_ (Cert.TileSum.acc_sum
    (fun k => ∑ j : Fin 4096, colProd (V c main_v1 : S200x102400.Idx → EReal) (V c main_v4 : S128x102400.Idx → EReal) r d (4096 * k + j.val))
    (fun n => if h : n < cfg0.N then ((scrAt0 V c n h).2.2 (ix2 r d) : EReal) else 0) ?_ ?_)
  · rw [dif_pos h24]
  · have h0 : 0 < cfg0.N := by omega
    rw [dif_pos h0]
    refine (congrFun (scrAt0_zero_2 V c h0) (ix2 r d)).trans ?_
    refine (pay1_tile V c ⟨0, h0⟩ _ r d).trans ?_
    exact congrArg (· + _) (pay6_apply r d)
  · intro n hn
    have hn' : n + 1 < cfg0.N := by omega
    have e : (if h : n < cfg0.N then ((scrAt0 V c n h).2.2 (ix2 r d) : EReal) else 0)
        = (scrAt0 V c n (Nat.lt_of_succ_lt hn')).2.2 (ix2 r d) := dif_pos (Nat.lt_of_succ_lt hn')
    rw [dif_pos hn', e]
    refine (congrFun (scrAt0_succ_2 V c n hn') (ix2 r d)).trans ?_
    exact pay1_tile V c ⟨n + 1, hn'⟩ _ r d

/-! ## The output arrays at an entry -/

theorem lastPt0_ne_first : ¬lastPt0.val % 25 = 0 := by show ¬(24 % 25 = 0); decide
theorem lastPt0_last : lastPt0.val % 25 = 24 := by show 24 % 25 = 24; decide

/-- The question's projection after the region, at coordinate `d`. -/
theorem arr0_7_apply (c : Dev nD) (v0 : S1x102400.Idx → EReal) (v3 : S128x102400.Idx → EReal)
    (hv0 : V c main_v0 = v0) (hv3 : V c main_v3 = v3) (d : Fin 128) :
    @Eq EReal ((dat0 V c).arrAt 7 cfg0.N (ix2 (0 : Fin 1) d))
      (∑ k : Fin 25, ∑ j : Fin 4096, colProd v0 v3 (0 : Fin 1) d (4096 * k.val + j.val)) := by
  subst hv0 hv3
  refine (congrFun (arr0_7 V c) (ix2 (0 : Fin 1) d)).trans ?_
  refine (congrFun (outAt0_last_0 V c lastPt0 lastPt0_ne_first lastPt0_last) (ix2 (0 : Fin 1) d)).trans ?_
  exact acc0_0_sum V c d lastPt0.isLt

/-- The input memory after the region, at slot `r`, coordinate `d`: the projection plus the first temporal term. -/
theorem arr0_8_apply (c : Dev nD) (v1 : S200x102400.Idx → EReal) (v2 : S128x102400.Idx → EReal) (tA : S200x128.Idx → EReal)
    (hv1 : V c main_v1 = v1) (hv2 : V c main_v2 = v2) (htA : V c main_arg6 = tA) (r : Fin 200) (d : Fin 128) :
    @Eq EReal ((dat0 V c).arrAt 8 cfg0.N (ix2 r d))
      ((∑ k : Fin 25, ∑ j : Fin 4096, colProd v1 v2 r d (4096 * k.val + j.val)) + tA (ix2 r d)) := by
  subst hv1 hv2 htA
  refine (congrFun (arr0_8 V c) (ix2 r d)).trans ?_
  refine (congrFun (outAt0_last_1 V c lastPt0 lastPt0_ne_first lastPt0_last) (ix2 r d)).trans ?_
  refine (pay2_apply _ (iblk0 V c 5 lastPt0) r d).trans ?_
  exact congrArg₂ (· + ·) (acc0_1_sum V c r d lastPt0.isLt) (iblk0_5_apply V c lastPt0 r d)

/-- The output memory after the region, at slot `r`, coordinate `d`: the projection plus the second temporal term. -/
theorem arr0_9_apply (c : Dev nD) (v1 : S200x102400.Idx → EReal) (v4 : S128x102400.Idx → EReal) (tC : S200x128.Idx → EReal)
    (hv1 : V c main_v1 = v1) (hv4 : V c main_v4 = v4) (htC : V c main_arg7 = tC) (r : Fin 200) (d : Fin 128) :
    @Eq EReal ((dat0 V c).arrAt 9 cfg0.N (ix2 r d))
      ((∑ k : Fin 25, ∑ j : Fin 4096, colProd v1 v4 r d (4096 * k.val + j.val)) + tC (ix2 r d)) := by
  subst hv1 hv4 htC
  refine (congrFun (arr0_9 V c) (ix2 r d)).trans ?_
  refine (congrFun (outAt0_last_2 V c lastPt0 lastPt0_ne_first lastPt0_last) (ix2 r d)).trans ?_
  refine (pay3_apply _ (iblk0 V c 6 lastPt0) r d).trans ?_
  exact congrArg₂ (· + ·) (acc0_2_sum V c r d lastPt0.isLt) (iblk0_6_apply V c lastPt0 r d)

end Sums

end Cert.KernelIdeal.Hand

end
-- ==== Proof.RefValue.lean ====
/-
  The reference's result as three hops followed by the output product.

  The reference's composed term is the product of the third hop's result with the transposed output weights; the
  hops start from the embedded question and run over the embedded memories with their temporal terms.
-/
import proofs.«179074_j41858751266982_1_alg».proof.Proof.Gen.ReferenceIdeal.Run
import proofs.«179074_j41858751266982_1_alg».proof.Proof.Hops

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo

variable {F : FTy → Type} [FloatOps F]

/-- The first hop's result, named in the reference's run, is a hop from the embedded question. -/
theorem res_main_v24_eq (V0 : Valuation τ sig (Elt F)) :
    res_main_v24 V0 = Cert.Hops.hop (res_main_v1 V0) (res_main_v4 V0) (res_main_v7 V0) := rfl

/-- The second hop's result is a hop from the first's. -/
theorem res_main_v41_eq (V0 : Valuation τ sig (Elt F)) :
    res_main_v41 V0 = Cert.Hops.hop (res_main_v24 V0) (res_main_v4 V0) (res_main_v7 V0) := rfl

set_option maxRecDepth 8192 in
/-- The reference's result: the output product of three hops. -/
theorem ref_result (V0 : Valuation τ sig (Elt F)) :
    Host.dotGeneral dot_S1x128_S128x100000_S1x100000_1_0_0_1_n_n none (addf (Host.dotGeneral dot_S1x200_S200x128_S1x128_1_0_0_1_n_n none (transpose S1x200 [1, 0] (Host.divf (res_main_v51 V0) (broadcastInDim S200x1 ![0, 1] bcast_S1x1_S200x1_0_1 (broadcastInDim S1x1 ![1] bcast_S1_S1x1_1 (Host.reduceAdd (res_main_v51 V0) (constant S_ .f32 0x00000000#32) reducesTo_S200x1_S1_d0 h_S_)))) transposes_S200x1_S1x200_1_0) (res_main_v7 V0)) (res_main_v41 V0)) (transpose S128x100000 [1, 0] (V0 (Proc.devRef .tc main_arg5)) transposes_S100000x128_S128x100000_1_0)
      = Host.dotGeneral dot_S1x128_S128x100000_S1x100000_1_0_0_1_n_n none
          (Cert.Hops.hops (res_main_v1 V0) (res_main_v4 V0) (res_main_v7 V0))
          (transpose S128x100000 [1, 0] (V0 (Proc.devRef .tc main_arg5)) transposes_S100000x128_S128x100000_1_0) := by
  have h : addf (Host.dotGeneral dot_S1x200_S200x128_S1x128_1_0_0_1_n_n none (transpose S1x200 [1, 0] (Host.divf (res_main_v51 V0) (broadcastInDim S200x1 ![0, 1] bcast_S1x1_S200x1_0_1 (broadcastInDim S1x1 ![1] bcast_S1_S1x1_1 (Host.reduceAdd (res_main_v51 V0) (constant S_ .f32 0x00000000#32) reducesTo_S200x1_S1_d0 h_S_)))) transposes_S200x1_S1x200_1_0) (res_main_v7 V0)) (res_main_v41 V0)
      = Cert.Hops.hop (res_main_v41 V0) (res_main_v4 V0) (res_main_v7 V0) := rfl
  rw [h, res_main_v41_eq, res_main_v24_eq]
  rfl

end Cert.RefSide

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.RefIndex.lean ====
/-
  The reference's four matrix products read at an index, over the extended reals.

  The embedded question is `q · Wbᵀ`; the embedded memories are `mem · Waᵀ + tA` and `mem · Wcᵀ + tC`; the result is
  `o · Woutᵀ`. Each product's right operand is a transposed array, so entry `(a, b)` is the sum over the contracted
  coordinate `c` of `left (a, c) · right (b, c)`, the right array read in its own layout.
-/
import proofs.«179074_j41858751266982_1_alg».proof.Proof.Gen.ReferenceIdeal.Run
import proofs.«179074_j41858751266982_1_alg».proof.Proof.LibPlainProduct
import Idealize.ShloMosaic.Lib.ValueLayout

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- A product whose right operand is a transposed `[n, k]` array: entry `(a, b)` contracts the left operand's row `a`
with the right array's row `b`. -/
theorem dot_transposed_apply {m k n : Nat} (d : DotDims ⟨2, ![m, k]⟩ ⟨2, ![k, n]⟩ ⟨2, ![m, n]⟩)
    (hd : d = DotDims.plain m k n) (A : FVec Ideal ⟨2, ![m, k]⟩ .f32) (B : FVec Ideal ⟨2, ![n, k]⟩ .f32)
    (h : (⟨2, ![n, k]⟩ : Shape).Transposes [1, 0] ⟨2, ![k, n]⟩) (a : Fin m) (b : Fin n) :
    Host.dotGeneral d none A (transpose ⟨2, ![k, n]⟩ [1, 0] B h) (ix2 a b) = ∑ c : Fin k, A (ix2 a c) * B (ix2 b c) := by
  rw [Cert.PlainProduct.dotGeneral_plain_apply' d hd]
  refine Finset.sum_congr rfl fun c _ => ?_
  rw [transpose_ix2_apply]

set_option maxRecDepth 8192 in
/-- The embedded question at coordinate `d`, the question `q` and the weights `Wb` being the contents of their buffers. -/
theorem res_main_v1_apply (V0 : Valuation τ sig (Elt Ideal)) (q : FVec Ideal S1x100000 .f32) (Wb : FVec Ideal S128x100000 .f32)
    (hq : V0 (Proc.devRef .tc main_arg0) = q) (hWb : V0 (Proc.devRef .tc main_arg3) = Wb) (d : Fin 128) :
    @Eq EReal (res_main_v1 V0 (ix2 0 d)) (∑ v : Fin 100000, q (ix2 0 v) * Wb (ix2 d v)) := by
  subst hq hWb
  unfold res_main_v1
  exact dot_transposed_apply _ rfl _ _ _ 0 d

set_option maxRecDepth 8192 in
/-- The input memory at slot `r`, coordinate `d`: the embedded memory plus its temporal term. -/
theorem res_main_v4_apply (V0 : Valuation τ sig (Elt Ideal)) (mem : FVec Ideal S200x100000 .f32) (Wa : FVec Ideal S128x100000 .f32)
    (tA : FVec Ideal S200x128 .f32)
    (hmem : V0 (Proc.devRef .tc main_arg1) = mem) (hWa : V0 (Proc.devRef .tc main_arg2) = Wa)
    (htA : V0 (Proc.devRef .tc main_arg6) = tA) (r : Fin 200) (d : Fin 128) :
    @Eq EReal (res_main_v4 V0 (ix2 r d)) ((∑ v : Fin 100000, mem (ix2 r v) * Wa (ix2 d v)) + tA (ix2 r d)) := by
  subst hmem hWa htA
  unfold res_main_v4
  rw [addf_apply]
  have h := dot_transposed_apply dot_S200x100000_S100000x128_S200x128_1_0_0_1_n_n rfl (V0 (Proc.devRef .tc main_arg1))
    (V0 (Proc.devRef .tc main_arg2)) transposes_S128x100000_S100000x128_1_0 r d
  rw [h]

set_option maxRecDepth 8192 in
/-- The output memory at slot `r`, coordinate `d`. -/
theorem res_main_v7_apply (V0 : Valuation τ sig (Elt Ideal)) (mem : FVec Ideal S200x100000 .f32) (Wc : FVec Ideal S128x100000 .f32)
    (tC : FVec Ideal S200x128 .f32)
    (hmem : V0 (Proc.devRef .tc main_arg1) = mem) (hWc : V0 (Proc.devRef .tc main_arg4) = Wc)
    (htC : V0 (Proc.devRef .tc main_arg7) = tC) (r : Fin 200) (d : Fin 128) :
    @Eq EReal (res_main_v7 V0 (ix2 r d)) ((∑ v : Fin 100000, mem (ix2 r v) * Wc (ix2 d v)) + tC (ix2 r d)) := by
  subst hmem hWc htC
  unfold res_main_v7
  rw [addf_apply]
  have h := dot_transposed_apply dot_S200x100000_S100000x128_S200x128_1_0_0_1_n_n rfl (V0 (Proc.devRef .tc main_arg1))
    (V0 (Proc.devRef .tc main_arg4)) transposes_S128x100000_S100000x128_1_0 r d
  rw [h]

/-- The output product at vocabulary entry `v`, for any hop result `o` and output weights `Wout`. -/
theorem out_apply (o : FVec Ideal S1x128 .f32) (Wout : FVec Ideal S100000x128 .f32) (v : Fin 100000) :
    Host.dotGeneral dot_S1x128_S128x100000_S1x100000_1_0_0_1_n_n none o
        (transpose S128x100000 [1, 0] Wout transposes_S100000x128_S128x100000_1_0) (ix2 0 v)
      = ∑ d : Fin 128, o (ix2 0 d) * Wout (ix2 v d) :=
  dot_transposed_apply _ rfl o Wout _ 0 v

end Cert.RefSide

end
-- ==== Proof.Bridge.lean ====
/-
  The two idealized programs compute one function.

  The kernel's result at column v is read off its run: the final slice keeps column v of the second region's
  array; that array's column v is the product of the last query with row v of the zero-padded output weights, and
  row v (v < 100000) of the padded weights is row v of the weights; the last query is the three hops applied to the
  first region's three projections. Each projection at an index is the sum, over the 25 tiles, of the tile's partial
  products of zero-padded operands; the padded columns contribute 0 · 0, so it is the sum over the 100000 true
  columns — which is what the reference's whole product is. The hops are the same function on both sides.
-/
import proofs.«179074_j41858751266982_1_alg».proof.Proof.IdealGlue
import proofs.«179074_j41858751266982_1_alg».proof.Proof.IdealRegion1Value
import proofs.«179074_j41858751266982_1_alg».proof.Proof.IdealR0Sum
import proofs.«179074_j41858751266982_1_alg».proof.Proof.RefValue
import proofs.«179074_j41858751266982_1_alg».proof.Proof.RefIndex
import proofs.«179074_j41858751266982_1_alg».proof.Proof.TileSum

noncomputable section

namespace Cert.Bridge

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ)

/-- The three projections as the first region leaves them, and the argument arrays, at their literal shapes. -/
abbrev projQ (c : Dev nD) : FVec Ideal S1x128 .f32 := W11 m c main_v5_0
abbrev projA (c : Dev nD) : FVec Ideal S200x128 .f32 := W11 m c main_v5_1
abbrev projC (c : Dev nD) : FVec Ideal S200x128 .f32 := W11 m c main_v5_2
abbrev argQ (c : Dev nD) : FVec Ideal S1x100000 .f32 := m ((c : Thread nD τ).loc main_arg0)
abbrev argM (c : Dev nD) : FVec Ideal S200x100000 .f32 := m ((c : Thread nD τ).loc main_arg1)
abbrev argWa (c : Dev nD) : FVec Ideal S128x100000 .f32 := m ((c : Thread nD τ).loc main_arg2)
abbrev argWb (c : Dev nD) : FVec Ideal S128x100000 .f32 := m ((c : Thread nD τ).loc main_arg3)
abbrev argWc (c : Dev nD) : FVec Ideal S128x100000 .f32 := m ((c : Thread nD τ).loc main_arg4)
abbrev argWout (c : Dev nD) : FVec Ideal S100000x128 .f32 := m ((c : Thread nD τ).loc main_arg5)
abbrev argTA (c : Dev nD) : FVec Ideal S200x128 .f32 := m ((c : Thread nD τ).loc main_arg6)
abbrev argTC (c : Dev nD) : FVec Ideal S200x128 .f32 := m ((c : Thread nD τ).loc main_arg7)

/-- The kernel's result at column `v`: the last query against row `v` of the output weights. -/
theorem result_apply (c : Dev nD) (v : Fin 100000) :
    @Eq EReal ((W15 m c main_v59 : FVec Ideal S1x100000 .f32) (ix2 (0 : Fin 1) v))
      (∑ d : Fin 128, Cert.Hops.hops (projQ m c) (projA m c) (projC m c) (ix2 (0 : Fin 1) d) * argWout m c (ix2 v d)) := by
  rw [W15_main_v59 m c, sliceCols_apply, W14_main_v58 m c, region1_array (Vin1 m) c, G1_apply,
    Vin1_main_v56 m c, Vin1_main_v57 m c]
  refine Finset.sum_congr rfl fun d _ => ?_
  rw [padOut_lt _ _ d v.isLt]

/-! ## The zero-padded operands -/

abbrev padQ (c : Dev nD) : FVec Ideal S1x102400 .f32 := pad S1x102400 ![0, 0] ![0, 2400] ![0, 0] (argQ m c) (sitofp .f32 (constantI S_ 32 0#32)) pads_S1x100000_S1x102400_000_024000 h_S_
abbrev padM (c : Dev nD) : FVec Ideal S200x102400 .f32 := pad S200x102400 ![0, 0] ![0, 2400] ![0, 0] (argM m c) (sitofp .f32 (constantI S_ 32 0#32)) pads_S200x100000_S200x102400_000_024000 h_S_
abbrev padWa (c : Dev nD) : FVec Ideal S128x102400 .f32 := pad S128x102400 ![0, 0] ![0, 2400] ![0, 0] (argWa m c) (sitofp .f32 (constantI S_ 32 0#32)) pads_S128x100000_S128x102400_000_024000 h_S_
abbrev padWb (c : Dev nD) : FVec Ideal S128x102400 .f32 := pad S128x102400 ![0, 0] ![0, 2400] ![0, 0] (argWb m c) (sitofp .f32 (constantI S_ 32 0#32)) pads_S128x100000_S128x102400_000_024000 h_S_
abbrev padWc (c : Dev nD) : FVec Ideal S128x102400 .f32 := pad S128x102400 ![0, 0] ![0, 2400] ![0, 0] (argWc m c) (sitofp .f32 (constantI S_ 32 0#32)) pads_S128x100000_S128x102400_000_024000 h_S_

/-- A product of two padded entries at a true column is the product of the entries; past the true columns both
    entries are the padding, zero. -/
theorem colProd_Q_lt (c : Dev nD) (d : Fin 128) (v : Fin 100000) :
    colProd (padQ m c) (padWb m c) (0 : Fin 1) d v.val = argQ m c (ix2 (0 : Fin 1) v) * argWb m c (ix2 d v) := by
  unfold colProd
  rw [dif_pos (lt_trans v.isLt (by decide))]
  exact congrArg₂ (· * ·) (padQuestion_lt _ _ v.isLt) (padProj_lt _ _ _ v.isLt)
theorem colProd_Q_ge (c : Dev nD) (d : Fin 128) (q : ℕ) (hq : 100000 ≤ q) :
    colProd (padQ m c) (padWb m c) (0 : Fin 1) d q = 0 := by
  unfold colProd; split
  · rename_i h; exact (congrArg (· * _) (padQuestion_ge _ ⟨q, h⟩ hq)).trans (zero_mul _)
  · rfl
theorem colProd_M_lt (W : Dev nD → FVec Ideal S128x100000 .f32) (c : Dev nD) (r : Fin 200) (d : Fin 128) (v : Fin 100000) :
    colProd (padM m c) (pad S128x102400 ![0, 0] ![0, 2400] ![0, 0] (W c) (sitofp .f32 (constantI S_ 32 0#32)) pads_S128x100000_S128x102400_000_024000 h_S_ : FVec Ideal S128x102400 .f32) r d v.val
      = argM m c (ix2 r v) * W c (ix2 d v) := by
  unfold colProd
  rw [dif_pos (lt_trans v.isLt (by decide))]
  exact congrArg₂ (· * ·) (padMemory_lt _ _ _ v.isLt) (padProj_lt _ _ _ v.isLt)
theorem colProd_M_ge (W : Dev nD → FVec Ideal S128x100000 .f32) (c : Dev nD) (r : Fin 200) (d : Fin 128) (q : ℕ) (hq : 100000 ≤ q) :
    colProd (padM m c) (pad S128x102400 ![0, 0] ![0, 2400] ![0, 0] (W c) (sitofp .f32 (constantI S_ 32 0#32)) pads_S128x100000_S128x102400_000_024000 h_S_ : FVec Ideal S128x102400 .f32) r d q = 0 := by
  unfold colProd; split
  · rename_i h; exact (congrArg (· * _) (padMemory_ge _ r ⟨q, h⟩ hq)).trans (zero_mul _)
  · rfl

/-! ## The three projections as sums over the true columns -/

/-- The question's projection: entry `d` is the sum over the 100000 columns of question × Wb. -/
theorem projQ_apply (c : Dev nD) (d : Fin 128) :
    @Eq EReal (projQ m c (ix2 (0 : Fin 1) d)) (∑ v : Fin 100000, argQ m c (ix2 (0 : Fin 1) v) * argWb m c (ix2 d v)) := by
  show @Eq EReal ((W11 m c main_v5_0 : FVec Ideal S1x128 .f32) (ix2 (0 : Fin 1) d)) _
  rw [W11_main_v5_0 m c, arr0_7_apply (Vin0 m) c (padQ m c) (padWb m c) (Vin0_main_v0 m c) (Vin0_main_v3 m c) d,
    Cert.TileSum.tile_sum _ (colProd_Q_ge m c d)]
  exact Finset.sum_congr rfl fun v _ => colProd_Q_lt m c d v

/-- The keys' projection: entry `(r, d)` is the sum over the columns of memory × Wa, plus the temporal term. -/
theorem projA_apply (c : Dev nD) (r : Fin 200) (d : Fin 128) :
    @Eq EReal (projA m c (ix2 r d)) ((∑ v : Fin 100000, argM m c (ix2 r v) * argWa m c (ix2 d v)) + argTA m c (ix2 r d)) := by
  show @Eq EReal ((W11 m c main_v5_1 : FVec Ideal S200x128 .f32) (ix2 r d)) _
  rw [W11_main_v5_1 m c, arr0_8_apply (Vin0 m) c (padM m c) (padWa m c) (argTA m c) (Vin0_main_v1 m c) (Vin0_main_v2 m c) (Vin0_main_arg6 m c) r d,
    Cert.TileSum.tile_sum _ (colProd_M_ge m (argWa m) c r d)]
  have hs : (∑ v : Fin 100000, colProd (padM m c) (padWa m c) r d v.val) = ∑ v : Fin 100000, argM m c (ix2 r v) * argWa m c (ix2 d v) :=
    Finset.sum_congr rfl fun v _ => colProd_M_lt m (argWa m) c r d v
  rw [hs]

/-- The values' projection, likewise with Wc and the other temporal term. -/
theorem projC_apply (c : Dev nD) (r : Fin 200) (d : Fin 128) :
    @Eq EReal (projC m c (ix2 r d)) ((∑ v : Fin 100000, argM m c (ix2 r v) * argWc m c (ix2 d v)) + argTC m c (ix2 r d)) := by
  show @Eq EReal ((W11 m c main_v5_2 : FVec Ideal S200x128 .f32) (ix2 r d)) _
  rw [W11_main_v5_2 m c, arr0_9_apply (Vin0 m) c (padM m c) (padWc m c) (argTC m c) (Vin0_main_v1 m c) (Vin0_main_v4 m c) (Vin0_main_arg7 m c) r d,
    Cert.TileSum.tile_sum _ (colProd_M_ge m (argWc m) c r d)]
  have hs : (∑ v : Fin 100000, colProd (padM m c) (padWc m c) r d v.val) = ∑ v : Fin 100000, argM m c (ix2 r v) * argWc m c (ix2 d v) :=
    Finset.sum_congr rfl fun v _ => colProd_M_lt m (argWc m) c r d v
  rw [hs]

/-! ## The two results are one -/

section Agree

open Idealize.ShloMosaic.StableHlo

set_option maxRecDepth 8192 in
/-- The reference's result — its last product applied to the three hops of its three whole projections — is the
    kernel's result, given that the two memories agree on the arguments: the projections agree entry by entry (the
    sums above), so the hops and then the last products agree. -/
theorem result_agree
    (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7))
    (c : Dev nD) :
    Host.dotGeneral Cert.ReferenceIdeal.dot_S1x128_S128x100000_S1x100000_1_0_0_1_n_n none
        (Cert.Hops.hops (Cert.ReferenceIdeal.Value.res_main_v1 (launchContents m' c)) (Cert.ReferenceIdeal.Value.res_main_v4 (launchContents m' c)) (Cert.ReferenceIdeal.Value.res_main_v7 (launchContents m' c)))
        (transpose Cert.ReferenceIdeal.S128x100000 [1, 0] (launchContents m' c (Proc.devRef .tc Cert.ReferenceIdeal.main_arg5) : FVec Ideal Cert.ReferenceIdeal.S100000x128 .f32) Cert.ReferenceIdeal.Facts₀.transposes_S100000x128_S128x100000_1_0 : FVec Ideal Cert.ReferenceIdeal.S128x100000 .f32)
      = W15 m c main_v59 := by
  obtain ⟨h0, h1, h2, h3, h4, h5, h6, h7⟩ := hagree c
  have hQ : Cert.ReferenceIdeal.Value.res_main_v1 (launchContents m' c) = projQ m c := by
    funext i
    obtain ⟨a, d, rfl⟩ : ∃ (a : Fin 1) (d : Fin 128), i = ix2 a d := ⟨i 0, i 1, eq_ix2 i⟩
    obtain rfl : a = 0 := Subsingleton.elim _ _
    exact (Cert.RefSide.res_main_v1_apply (launchContents m' c) (argQ m c) (argWb m c) h0 h3 d).trans (projQ_apply m c d).symm
  have hA : Cert.ReferenceIdeal.Value.res_main_v4 (launchContents m' c) = projA m c := by
    funext i
    obtain ⟨r, d, rfl⟩ : ∃ (r : Fin 200) (d : Fin 128), i = ix2 r d := ⟨i 0, i 1, eq_ix2 i⟩
    exact (Cert.RefSide.res_main_v4_apply (launchContents m' c) (argM m c) (argWa m c) (argTA m c) h1 h2 h6 r d).trans (projA_apply m c r d).symm
  have hC : Cert.ReferenceIdeal.Value.res_main_v7 (launchContents m' c) = projC m c := by
    funext i
    obtain ⟨r, d, rfl⟩ : ∃ (r : Fin 200) (d : Fin 128), i = ix2 r d := ⟨i 0, i 1, eq_ix2 i⟩
    exact (Cert.RefSide.res_main_v7_apply (launchContents m' c) (argM m c) (argWc m c) (argTC m c) h1 h4 h7 r d).trans (projC_apply m c r d).symm
  have hW : (launchContents m' c (Proc.devRef .tc Cert.ReferenceIdeal.main_arg5) : FVec Ideal Cert.ReferenceIdeal.S100000x128 .f32) = argWout m c := h5
  rw [hQ, hA, hC, hW]
  funext i
  obtain ⟨a, v, rfl⟩ : ∃ (a : Fin 1) (v : Fin 100000), i = ix2 a v := ⟨i 0, i 1, eq_ix2 i⟩
  obtain rfl : a = 0 := Subsingleton.elim _ _
  exact (Cert.RefSide.out_apply _ _ v).trans (result_apply m c v).symm

end Agree

end Cert.Bridge

end
-- ==== Proof.lean ====
/-
  The five claims of this certificate.

  The kernel computes a three-hop memory network's answer in two streamed regions. The first region walks the
  vocabulary axis (zero-padded from 100000 to 102400 columns) in 25 tiles of 4096 and accumulates, tile by tile,
  the projections  q·Wbᵀ,  memory·Waᵀ  and  memory·Wcᵀ; at the last tile it writes them out, the two memory
  projections with the temporal terms added. The hops (scores against the memory keys, a softmax over the 200
  slots, the weighted sum of the memory values plus the query) are the same host operations in the kernel and in the
  reference. The second region multiplies the final query by the output weights, 12800 rows at a time, and the
  result's padding is sliced away.

  Over the extended reals all of this is the reference's computation: a sum over 102400 padded columns taken tile by
  tile is the sum over the 100000 true columns (the padding contributes products 0 · 0, and regrouping a finite sum
  needs only that addition is commutative and associative); the hops are literally the same function of the three
  projections; and each output column is produced by exactly one row block of the output weights. No finiteness of
  the inputs is needed.

  Frames: both programs' runs are built from the two regions' proof data — what the accumulators hold after each
  grid point, what each output block receives — and the host stretches between them; every argument array is only
  ever read. The reference has no kernel: its frame is its run with the result dropped. The idealization rewrote
  nothing, so there is nothing to preserve beyond the program text itself.
-/
import proofs.«179074_j41858751266982_1_alg».proof.Defs
import proofs.«179074_j41858751266982_1_alg».proof.Proof.Gen.Kernel
import proofs.«179074_j41858751266982_1_alg».proof.Proof.Gen.KernelIdeal
import proofs.«179074_j41858751266982_1_alg».proof.Proof.Gen.ReferenceIdeal
import proofs.«179074_j41858751266982_1_alg».proof.Proof.Gen.ReferenceIdeal.Run
import proofs.«179074_j41858751266982_1_alg».proof.Proof.Gen.Pre_finite_inputs
import proofs.«179074_j41858751266982_1_alg».proof.Proof.BitsRun
import proofs.«179074_j41858751266982_1_alg».proof.Proof.IdealRun
import proofs.«179074_j41858751266982_1_alg».proof.Proof.Bridge
import Idealize.ShloMosaic.Adequacy
import Idealize.ShloMosaic.Init

noncomputable section

namespace Cert.Proof

open Idealize.ShloMosaic Idealize.ShloMosaic.TcCoe Idealize.SL.Sem

namespace Claims

/-- The word-level kernel runs to the end, faults nowhere and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxRecDepth 8192 in
/-- From memories agreeing on the arguments both idealized programs end with the same result: the kernel's is read
    off its run at the last boundary, the reference's off its run's composed term, and the two are one function of
    the arguments, index by index. -/
theorem algebraic : Cert.algebraic_KernelIdeal_ReferenceIdeal := by
  intro m ρ m' ρ' _ hagree
  refine ⟨fun c => Cert.KernelIdeal.Hand.W15 m c Cert.KernelIdeal.main_v59, ?_, ?_⟩
  · exact (θ_run Cert.KernelIdeal.defs _ _).mono (fun _ h c =>
      ⟨h c _ (Cert.KernelIdeal.Hand.mem_uc Cert.KernelIdeal.main_v59 (by decide)),
       (h c _ (Cert.KernelIdeal.Hand.mem_uc Cert.KernelIdeal.main_arg0 (by decide))).trans (Cert.KernelIdeal.Hand.W15_main_arg0 m c),
       (h c _ (Cert.KernelIdeal.Hand.mem_uc Cert.KernelIdeal.main_arg1 (by decide))).trans (Cert.KernelIdeal.Hand.W15_main_arg1 m c),
       (h c _ (Cert.KernelIdeal.Hand.mem_uc Cert.KernelIdeal.main_arg2 (by decide))).trans (Cert.KernelIdeal.Hand.W15_main_arg2 m c),
       (h c _ (Cert.KernelIdeal.Hand.mem_uc Cert.KernelIdeal.main_arg3 (by decide))).trans (Cert.KernelIdeal.Hand.W15_main_arg3 m c),
       (h c _ (Cert.KernelIdeal.Hand.mem_uc Cert.KernelIdeal.main_arg4 (by decide))).trans (Cert.KernelIdeal.Hand.W15_main_arg4 m c),
       (h c _ (Cert.KernelIdeal.Hand.mem_uc Cert.KernelIdeal.main_arg5 (by decide))).trans (Cert.KernelIdeal.Hand.W15_main_arg5 m c),
       (h c _ (Cert.KernelIdeal.Hand.mem_uc Cert.KernelIdeal.main_arg6 (by decide))).trans (Cert.KernelIdeal.Hand.W15_main_arg6 m c),
       (h c _ (Cert.KernelIdeal.Hand.mem_uc Cert.KernelIdeal.main_arg7 (by decide))).trans (Cert.KernelIdeal.Hand.W15_main_arg7 m c)⟩)
      (Cert.KernelIdeal.Hand.run_all m ρ)
  · exact (θ_run Cert.ReferenceIdeal.defs _ _).mono (fun _ h c =>
      ⟨(h c).1.trans ((Cert.RefSide.ref_result (F := Ideal) _).trans (Cert.Bridge.result_agree m m' hagree c)), (h c).2⟩)
      (Cert.ReferenceIdeal.Value.run (F := Ideal) m' ρ')

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
